-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x16x16 : Shape := ⟨4, ![1024, 64, 16, 16]⟩
abbrev S2048x16384 : Shape := ⟨2, ![2048, 16384]⟩
abbrev S2048 : Shape := ⟨1, ![2048]⟩
abbrev S16x2048 : Shape := ⟨2, ![16, 2048]⟩
abbrev S16 : Shape := ⟨1, ![16]⟩
abbrev S25x16 : Shape := ⟨2, ![25, 16]⟩
abbrev S2048x16 : Shape := ⟨2, ![2048, 16]⟩
abbrev S16384x2048 : Shape := ⟨2, ![16384, 2048]⟩
abbrev S16384 : Shape := ⟨1, ![16384]⟩
abbrev S_ : Shape := ⟨0, ![]⟩

class Facts : Prop where
  bcast_S_S1024x64x16x16 : S_.BroadcastsInDim S1024x64x16x16 (![] : Fin 0 → Fin S1024x64x16x16.rank)
  reducesTo_S1024x64x16x16_S_d0_1_2_3 : S1024x64x16x16.ReducesTo [0, 1, 2, 3] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_
  bcast_S_S25x16 : S_.BroadcastsInDim S25x16 (![] : Fin 0 → Fin S25x16.rank)
  reducesTo_S25x16_S_d0_1 : S25x16.ReducesTo [0, 1] S_
  bcast_S_S2048x16 : S_.BroadcastsInDim S2048x16 (![] : Fin 0 → Fin S2048x16.rank)
  reducesTo_S2048x16_S_d0_1 : S2048x16.ReducesTo [0, 1] S_
  bcast_S_S16384x2048 : S_.BroadcastsInDim S16384x2048 (![] : Fin 0 → Fin S16384x2048.rank)
  reducesTo_S16384x2048_S_d0_1 : S16384x2048.ReducesTo [0, 1] S_
  bcast_S_S16384 : S_.BroadcastsInDim S16384 (![] : Fin 0 → Fin S16384.rank)
  reducesTo_S16384_S_d0 : S16384.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S16384x2048 .f32) (main_arg13 : FVec F S16384 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S16384x2048 .f32 := Host.absf main_arg12
  let main_cst_22 : FVec F S_ .f32 := constant S_ .f32 0x7F800000#32
  let main_v60 : FVec F S16384x2048 .f32 := broadcastInDim S16384x2048 ![] bcast_S_S16384x2048 main_cst_22
  let main_v61 : IVec S16384x2048 1 := cmpf .olt main_v59 main_v60
  let main_c_23 : IVec S_ 1 := constantI S_ 1 1#1
  let main_v62 : IVec S_ 1 := (fun x v => Host.reduce IntOp.andi x v reducesTo_S16384x2048_S_d0_1 h_S_) main_v61 main_c_23
  let main_v63 : IVec S_ 1 := andi main_v58 main_v62
  let main_v64 : FVec F S16384 .f32 := Host.absf main_arg13
  let main_cst_24 : FVec F S_ .f32 := constant S_ .f32 0x7F800000#32
  let main_v65 : FVec F S16384 .f32 := broadcastInDim S16384 ![] bcast_S_S16384 main_cst_24
  let main_v66 : IVec S16384 1 := cmpf .olt main_v64 main_v65
  let main_c_25 : IVec S_ 1 := constantI S_ 1 1#1
  let main_v67 : IVec S_ 1 := (fun x v => Host.reduce IntOp.andi x v reducesTo_S16384_S_d0 h_S_) main_v66 main_c_25
  fn_part4 (F := F) main_v63 main_v67

def fn_part2 {F : FTy → Type} [FloatOps F] (main_arg7 : FVec F S25x16 .f32) (main_arg8 : FVec F S2048x16 .f32) (main_arg9 : FVec F S2048 .f32) (main_arg10 : FVec F S2048 .f32) (main_arg11 : FVec F S2048 .f32) (main_arg12 : FVec F S16384x2048 .f32) (main_arg13 : FVec F S16384 .f32) (main_v33 : IVec S_ 1) : IVec S_ 1 :=
  let main_v34 : FVec F S25x16 .f32 := Host.absf main_arg7
  let main_cst_12 : FVec F S_ .f32 := constant S_ .f32 0x7F800000#32
  let main_v35 : FVec F S25x16 .f32 := broadcastInDim S25x16 ![] bcast_S_S25x16 main_cst_12
  let main_v36 : IVec S25x16 1 := cmpf .olt main_v34 main_v35
  let main_c_13 : IVec S_ 1 := constantI S_ 1 1#1
  let main_v37 : IVec S_ 1 := (fun x v => Host.reduce IntOp.andi x v reducesTo_S25x16_S_d0_1 h_S_) main_v36 main_c_13
  let main_v38 : IVec S_ 1 := andi main_v33 main_v37
  let main_v39 : FVec F S2048x16 .f32 := Host.absf main_arg8
  let main_cst_14 : FVec F S_ .f32 := constant S_ .f32 0x7F800000#32
  let main_v40 : FVec F S2048x16 .f32 := broadcastInDim S2048x16 ![] bcast_S_S2048x16 main_cst_14
  let main_v41 : IVec S2048x16 1 := cmpf .olt main_v39 main_v40
  let main_c_15 : IVec S_ 1 := constantI S_ 1 1#1
  let main_v42 : IVec S_ 1 := (fun x v => Host.reduce IntOp.andi x v reducesTo_S2048x16_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S2048 .f32) (main_arg5 : FVec F S16x2048 .f32) (main_arg6 : FVec F S16 .f32) (main_arg7 : FVec F S25x16 .f32) (main_arg8 : FVec F S2048x16 .f32) (main_arg9 : FVec F S2048 .f32) (main_arg10 : FVec F S2048 .f32) (main_arg11 : FVec F S2048 .f32) (main_arg12 : FVec F S16384x2048 .f32) (main_arg13 : FVec F S16384 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S16x2048 .f32 := Host.absf main_arg5
  let main_cst_8 : FVec F S_ .f32 := constant S_ .f32 0x7F800000#32
  let main_v25 : FVec F S16x2048 .f32 := broadcastInDim S16x2048 ![] bcast_S_S16x2048 main_cst_8
  let main_v26 : IVec S16x2048 1 := cmpf .olt main_v24 main_v25
  let main_c_9 : IVec S_ 1 := constantI S_ 1 1#1
  let main_v27 : IVec S_ 1 := (fun x v => Host.reduce IntOp.andi x v reducesTo_S16x2048_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x64x16x16 .f32) (main_arg1 : FVec F S2048x16384 .f32) (main_arg2 : FVec F S2048 .f32) (main_arg3 : FVec F S2048 .f32) (main_arg4 : FVec F S2048 .f32) (main_arg5 : FVec F S16x2048 .f32) (main_arg6 : FVec F S16 .f32) (main_arg7 : FVec F S25x16 .f32) (main_arg8 : FVec F S2048x16 .f32) (main_arg9 : FVec F S2048 .f32) (main_arg10 : FVec F S2048 .f32) (main_arg11 : FVec F S2048 .f32) (main_arg12 : FVec F S16384x2048 .f32) (main_arg13 : FVec F S16384 .f32) : IVec S_ 1 :=
  let main_v0 : FVec F S1024x64x16x16 .f32 := Host.absf main_arg0
  let main_cst : FVec F S_ .f32 := constant S_ .f32 0x7F800000#32
  let main_v1 : FVec F S1024x64x16x16 .f32 := broadcastInDim S1024x64x16x16 ![] bcast_S_S1024x64x16x16 main_cst
  let main_v2 : IVec S1024x64x16x16 1 := cmpf .olt main_v0 main_v1
  let main_c : IVec S_ 1 := constantI S_ 1 1#1
  let main_v3 : IVec S_ 1 := (fun x v => Host.reduce IntOp.andi x v reducesTo_S1024x64x16x16_S_d0_1_2_3 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x64x16x16 : Shape := ⟨4, ![1024, 64, 16, 16]⟩
abbrev S2048x16384 : Shape := ⟨2, ![2048, 16384]⟩
abbrev S2048 : Shape := ⟨1, ![2048]⟩
abbrev S16x2048 : Shape := ⟨2, ![16, 2048]⟩
abbrev S16 : Shape := ⟨1, ![16]⟩
abbrev S25x16 : Shape := ⟨2, ![25, 16]⟩
abbrev S2048x16 : Shape := ⟨2, ![2048, 16]⟩
abbrev S16384x2048 : Shape := ⟨2, ![16384, 2048]⟩
abbrev S16384 : Shape := ⟨1, ![16384]⟩
abbrev S1024x16384 : Shape := ⟨2, ![1024, 16384]⟩
abbrev S1024x2048 : Shape := ⟨2, ![1024, 2048]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S1024x16 : Shape := ⟨2, ![1024, 16]⟩
abbrev S1x16 : Shape := ⟨2, ![1, 16]⟩
abbrev S16x25 : Shape := ⟨2, ![16, 25]⟩
abbrev S1024x25 : Shape := ⟨2, ![1024, 25]⟩
abbrev S_ : Shape := ⟨0, ![]⟩
abbrev S1024x1 : Shape := ⟨2, ![1024, 1]⟩
abbrev S1x2048 : Shape := ⟨2, ![1, 2048]⟩

abbrev nBuf : Space → Nat
  | .hbm => 66
  | .vmem => 22
  | .smem => 0
  | _ => 0

abbrev bufTy : (tb : Table) → Fin (tcTables nBuf tb) → BufTy
  | .hbm, ⟨0, _⟩ => ⟨S1024x64x16x16, .f32⟩
  | .hbm, ⟨1, _⟩ => ⟨S2048x16384, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S16x2048, .f32⟩
  | .hbm, ⟨6, _⟩ => ⟨S16, .f32⟩
  | .hbm, ⟨7, _⟩ => ⟨S25x16, .f32⟩
  | .hbm, ⟨8, _⟩ => ⟨S2048x16, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S16384x2048, .f32⟩
  | .hbm, ⟨13, _⟩ => ⟨S16384, .f32⟩
  | .hbm, ⟨14, _⟩ => ⟨S1024x16384, .f32⟩
  | .hbm, ⟨15, _⟩ => ⟨S1024x2048, .f32⟩
  | .hbm, ⟨16, _⟩ => ⟨S2048x16, .f32⟩
  | .hbm, ⟨17, _⟩ => ⟨S1024x16, .f32⟩
  | .hbm, ⟨18, _⟩ => ⟨S1x16, .f32⟩
  | .hbm, ⟨19, _⟩ => ⟨S1024x16, .f32⟩
  | .hbm, ⟨20, _⟩ => ⟨S1024x16, .f32⟩
  | .hbm, ⟨21, _⟩ => ⟨S16x25, .f32⟩
  | .hbm, ⟨22, _⟩ => ⟨S1024x25, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024x25, .f32⟩
  | .hbm, ⟨30, _⟩ => ⟨S1024x25, .f32⟩
  | .hbm, ⟨31, _⟩ => ⟨S1024x25, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x25, .f32⟩
  | .hbm, ⟨36, _⟩ => ⟨S1024x25, .f32⟩
  | .hbm, ⟨37, _⟩ => ⟨S_, .f32⟩
  | .hbm, ⟨38, _⟩ => ⟨S1024x25, .f32⟩
  | .hbm, ⟨39, _⟩ => ⟨S1024x25, .f32⟩
  | .hbm, ⟨40, _⟩ => ⟨S_, .f32⟩
  | .hbm, ⟨41, _⟩ => ⟨S1024x25, .f32⟩
  | .hbm, ⟨42, _⟩ => ⟨S1024x25, .f32⟩
  | .hbm, ⟨43, _⟩ => ⟨S1024x25, .f32⟩
  | .hbm, ⟨44, _⟩ => ⟨S1024x25, .f32⟩
  | .hbm, ⟨45, _⟩ => ⟨S_, .f32⟩
  | .hbm, ⟨46, _⟩ => ⟨S1024x25, .f32⟩
  | .hbm, ⟨47, _⟩ => ⟨S1024x25, .f32⟩
  | .hbm, ⟨48, _⟩ => ⟨S1024x25, .f32⟩
  | .hbm, ⟨49, _⟩ => ⟨S1024x25, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S_, .f32⟩
  | .hbm, ⟨54, _⟩ => ⟨S1024x1, .f32⟩
  | .hbm, ⟨55, _⟩ => ⟨S1024x1, .f32⟩
  | .hbm, ⟨56, _⟩ => ⟨S1024x25, .f32⟩
  | .hbm, ⟨57, _⟩ => ⟨S1024x25, .f32⟩
  | .hbm, ⟨58, _⟩ => ⟨S1024x16, .f32⟩
  | .hbm, ⟨59, _⟩ => ⟨S16x2048, .f32⟩
  | .hbm, ⟨60, _⟩ => ⟨S1024x2048, .f32⟩
  | .hbm, ⟨61, _⟩ => ⟨S1x2048, .f32⟩
  | .hbm, ⟨62, _⟩ => ⟨S1024x2048, .f32⟩
  | .hbm, ⟨63, _⟩ => ⟨S1024x2048, .f32⟩
  | .hbm, ⟨64, _⟩ => ⟨S1024x16384, .f32⟩
  | .hbm, ⟨65, _⟩ => ⟨S1024x64x16x16, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .f32⟩
  | .local _ .vmem, ⟨14, _⟩ => ⟨S2048, .f32⟩
  | .local _ .vmem, ⟨15, _⟩ => ⟨S2048, .f32⟩
  | .local _ .vmem, ⟨16, _⟩ => ⟨S1024x2048, .f32⟩
  | .local _ .vmem, ⟨17, _⟩ => ⟨S1024x2048, .f32⟩
  | .local _ .vmem, ⟨18, _⟩ => ⟨S1024, .f32⟩
  | .local _ .vmem, ⟨19, _⟩ => ⟨S1024, .f32⟩
  | .local _ .vmem, ⟨20, _⟩ => ⟨S1024x1024, .f32⟩
  | .local _ .vmem, ⟨21, _⟩ => ⟨S1024x1024, .f32⟩
  | _, _ => ⟨S1024x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1024x64x16x16_S1024x16384 : S1024x64x16x16.ShapeCasts S1024x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  transposes_S1024x2048_p1_0_S2048x1024 : S1024x2048.Transposes [1, 0] S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [0] S1024
  transposes_S16x2048_S2048x16_1_0 : S16x2048.Transposes [1, 0] S2048x16
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  transposes_S25x16_S16x25_1_0 : S25x16.Transposes [1, 0] S16x25
  reducesTo_S1024x25_S1024_d1 : S1024x25.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x25_0_1 : S1024x1.BroadcastsInDim S1024x25 (![0, 1] : Fin 2 → Fin S1024x25.rank)
  bcast_S_S1024x25 : S_.BroadcastsInDim S1024x25 (![] : Fin 0 → Fin S1024x25.rank)
  bcast_S_S1024x1 : S_.BroadcastsInDim S1024x1 (![] : Fin 0 → Fin S1024x1.rank)
  transposes_S2048x16_S16x2048_1_0 : S2048x16.Transposes [1, 0] S16x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  reduces_S1024x2048_S2048 : S1024x2048.Reduces [0] S2048
  shapeCasts_S2048_S1x2048 : S2048.ShapeCasts S1x2048
  broadcasts_S1x2048_S1024x2048 : S1x2048.Broadcasts S1024x2048
  inb_S2048_S2048_0 : ∀ a, (![0] : Fin 1 → Nat) a + S2048.size a ≤ S2048.size a
  h_S2048 : 0 < S2048.numel
  shapeCasts_S1024x16384_S1024x64x16x16 : S1024x16384.ShapeCasts S1024x64x16x16
  dot_S1024x2048_S2048x1024_S1024x1024_1_0_0_1_n_n_wf : DotDims.WF S1024x2048 S2048x1024 S1024x1024 [1] [0] [0] [1] [] []
  dot_S1024x2048_S2048x16_S1024x16_1_0_0_1_n_n_wf : DotDims.WF S1024x2048 S2048x16 S1024x16 [1] [0] [0] [1] [] []
  dot_S1024x16_S16x25_S1024x25_1_0_0_1_n_n_wf : DotDims.WF S1024x16 S16x25 S1024x25 [1] [0] [0] [1] [] []
  dot_S1024x25_S25x16_S1024x16_1_0_0_1_n_n_wf : DotDims.WF S1024x25 S25x16 S1024x16 [1] [0] [0] [1] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x16384.size a
  hwx0_0 : ∀ i : grid0.Coords, EltTy.bits .f32 = 32 ∨ (Rect.block (s := S1024x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x16384.size a
  hwx0_1 : ∀ i : grid0.Coords, EltTy.bits .f32 = 32 ∨ (Rect.block (s := S2048x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S2048.size a
  hwx0_2 : ∀ i : grid0.Coords, EltTy.bits .f32 = 32 ∨ (Rect.block (s := S2048) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S2048.size a
  hwx0_3 : ∀ i : grid0.Coords, EltTy.bits .f32 = 32 ∨ (Rect.block (s := S2048) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S2048.size a
  hwx0_4 : ∀ i : grid0.Coords, EltTy.bits .f32 = 32 ∨ (Rect.block (s := S2048) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x2048.size a
  hwx0_5 : ∀ i : grid0.Coords, EltTy.bits .f32 = 32 ∨ (Rect.block (s := S1024x2048) S1024x1024.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x2048.size a
  hwx1_0 : ∀ i : grid1.Coords, EltTy.bits .f32 = 32 ∨ (Rect.block (s := S1024x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S2048.size a
  hwx1_1 : ∀ i : grid1.Coords, EltTy.bits .f32 = 32 ∨ (Rect.block (s := S2048) S2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x2048.size a
  hwx1_3 : ∀ i : grid1.Coords, EltTy.bits .f32 = 32 ∨ (Rect.block (s := S16384x2048) S1024x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S16384.size a
  hwx1_4 : ∀ i : grid1.Coords, EltTy.bits .f32 = 32 ∨ (Rect.block (s := S16384) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x16384.size a
  hwx1_5 : ∀ i : grid1.Coords, EltTy.bits .f32 = 32 ∨ (Rect.block (s := S1024x16384) S1024x1024.size (cc1_transform_5 i) (hinb1_5 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S1024x16_S16x25_S1024x25_1_0_0_1_n_n : DotDims S1024x16 S16x25 S1024x25 where
  lhsContracting := [1]
  rhsContracting := [0]
  lhsNonContracting := [0]
  rhsNonContracting := [1]
  lhsBatch := []
  rhsBatch := []
  wf := dot_S1024x16_S16x25_S1024x25_1_0_0_1_n_n_wf
def dot_S1024x25_S25x16_S1024x16_1_0_0_1_n_n : DotDims S1024x25 S25x16 S1024x16 where
  lhsContracting := [1]
  rhsContracting := [0]
  lhsNonContracting := [0]
  rhsNonContracting := [1]
  lhsBatch := []
  rhsBatch := []
  wf := dot_S1024x25_S25x16_S1024x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v40) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S1024x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x64x16x16 : Shape := ⟨4, ![1024, 64, 16, 16]⟩
abbrev S2048x16384 : Shape := ⟨2, ![2048, 16384]⟩
abbrev S2048 : Shape := ⟨1, ![2048]⟩
abbrev S16x2048 : Shape := ⟨2, ![16, 2048]⟩
abbrev S16 : Shape := ⟨1, ![16]⟩
abbrev S25x16 : Shape := ⟨2, ![25, 16]⟩
abbrev S2048x16 : Shape := ⟨2, ![2048, 16]⟩
abbrev S16384x2048 : Shape := ⟨2, ![16384, 2048]⟩
abbrev S16384 : Shape := ⟨1, ![16384]⟩
abbrev S1024x16384 : Shape := ⟨2, ![1024, 16384]⟩
abbrev S1024x2048 : Shape := ⟨2, ![1024, 2048]⟩
abbrev S1x2048 : Shape := ⟨2, ![1, 2048]⟩
abbrev S_ : Shape := ⟨0, ![]⟩
abbrev S1024x16 : Shape := ⟨2, ![1024, 16]⟩
abbrev S1x16 : Shape := ⟨2, ![1, 16]⟩
abbrev S16x25 : Shape := ⟨2, ![16, 25]⟩
abbrev S1024x25 : Shape := ⟨2, ![1024, 25]⟩
abbrev S1024 : Shape := ⟨1, ![1024]⟩
abbrev S1024x1 : Shape := ⟨2, ![1024, 1]⟩
abbrev S1x16384 : Shape := ⟨2, ![1, 16384]⟩

abbrev nBuf : Space → Nat
  | .hbm => 140
  | .vmem => 0
  | .smem => 0
  | _ => 0

abbrev hbmTy0_0 (i : Nat) : BufTy := match i % 128 with
  | 0 => ⟨S1024x64x16x16, .f32⟩
  | 1 => ⟨S2048x16384, .f32⟩
  | 2 => ⟨S2048, .f32⟩
  | 3 => ⟨S2048, .f32⟩
  | 4 => ⟨S2048, .f32⟩
  | 5 => ⟨S16x2048, .f32⟩
  | 6 => ⟨S16, .f32⟩
  | 7 => ⟨S25x16, .f32⟩
  | 8 => ⟨S2048x16, .f32⟩
  | 9 => ⟨S2048, .f32⟩
  | 10 => ⟨S2048, .f32⟩
  | 11 => ⟨S2048, .f32⟩
  | 12 => ⟨S16384x2048, .f32⟩
  | 13 => ⟨S16384, .f32⟩
  | 14 => ⟨S1024x16384, .f32⟩
  | 15 => ⟨S16384x2048, .f32⟩
  | 16 => ⟨S1024x2048, .f32⟩
  | 17 => ⟨S1x2048, .f32⟩
  | 18 => ⟨S1024x2048, .f32⟩
  | 19 => ⟨S1024x2048, .f32⟩
  | 20 => ⟨S_, .f32⟩
  | 21 => ⟨S2048, .f32⟩
  | 22 => ⟨S_, .f32⟩
  | 23 => ⟨S2048, .f32⟩
  | 24 => ⟨S2048, .f32⟩
  | 25 => ⟨S1x2048, .f32⟩
  | 26 => ⟨S1024x2048, .f32⟩
  | 27 => ⟨S1024x2048, .f32⟩
  | 28 => ⟨S1024x2048, .f32⟩
  | 29 => ⟨S_, .f32⟩
  | 30 => ⟨S2048, .f32⟩
  | 31 => ⟨S_, .f32⟩
  | 32 => ⟨S2048, .f32⟩
  | 33 => ⟨S2048, .f32⟩
  | 34 => ⟨S1x2048, .f32⟩
  | 35 => ⟨S1024x2048, .f32⟩
  | 36 => ⟨S1024x2048, .f32⟩
  | 37 => ⟨S_, .f32⟩
  | 38 => ⟨S2048, .f32⟩
  | 39 => ⟨S2048, .f32⟩
  | 40 => ⟨S2048, .f32⟩
  | 41 => ⟨S1x2048, .f32⟩
  | 42 => ⟨S1024x2048, .f32⟩
  | 43 => ⟨S1024x2048, .f32⟩
  | 44 => ⟨S1x2048, .f32⟩
  | 45 => ⟨S1024x2048, .f32⟩
  | 46 => ⟨S1024x2048, .f32⟩
  | 47 => ⟨S1x2048, .f32⟩
  | 48 => ⟨S1024x2048, .f32⟩
  | 49 => ⟨S1024x2048, .f32⟩
  | 50 => ⟨S_, .f32⟩
  | 51 => ⟨S1024x2048, .f32⟩
  | 52 => ⟨S1024x2048, .f32⟩
  | 53 => ⟨S2048x16, .f32⟩
  | 54 => ⟨S1024x16, .f32⟩
  | 55 => ⟨S1x16, .f32⟩
  | 56 => ⟨S1024x16, .f32⟩
  | 57 => ⟨S1024x16, .f32⟩
  | 58 => ⟨S16x25, .f32⟩
  | 59 => ⟨S1024x25, .f32⟩
  | 60 => ⟨S_, .f32⟩
  | 61 => ⟨S1024, .f32⟩
  | 62 => ⟨S_, .f32⟩
  | 63 => ⟨S1024, .f32⟩
  | 64 => ⟨S1024, .f32⟩
  | 65 => ⟨S1024x1, .f32⟩
  | 66 => ⟨S1024x25, .f32⟩
  | 67 => ⟨S1024x25, .f32⟩
  | 68 => ⟨S1024x25, .f32⟩
  | 69 => ⟨S_, .f32⟩
  | 70 => ⟨S1024, .f32⟩
  | 71 => ⟨S1024x1, .f32⟩
  | 72 => ⟨S1024x25, .f32⟩
  | 73 => ⟨S1024x25, .f32⟩
  | 74 => ⟨S_, .f32⟩
  | 75 => ⟨S1024x25, .f32⟩
  | 76 => ⟨S1024x25, .f32⟩
  | 77 => ⟨S_, .f32⟩
  | 78 => ⟨S1024x25, .f32⟩
  | 79 => ⟨S1024x25, .f32⟩
  | 80 => ⟨S1024x25, .f32⟩
  | 81 => ⟨S1024x25, .f32⟩
  | 82 => ⟨S_, .f32⟩
  | 83 => ⟨S1024x25, .f32⟩
  | 84 => ⟨S1024x25, .f32⟩
  | 85 => ⟨S1024x25, .f32⟩
  | 86 => ⟨S1024x25, .f32⟩
  | 87 => ⟨S_, .f32⟩
  | 88 => ⟨S1024, .f32⟩
  | 89 => ⟨S1024x1, .f32⟩
  | 90 => ⟨S_, .f32⟩
  | 91 => ⟨S1024x1, .f32⟩
  | 92 => ⟨S1024x1, .f32⟩
  | 93 => ⟨S1024x25, .f32⟩
  | 94 => ⟨S1024x25, .f32⟩
  | 95 => ⟨S1024x16, .f32⟩
  | 96 => ⟨S16x2048, .f32⟩
  | 97 => ⟨S1024x2048, .f32⟩
  | 98 => ⟨S1x2048, .f32⟩
  | 99 => ⟨S1024x2048, .f32⟩
  | 100 => ⟨S1024x2048, .f32⟩
  | 101 => ⟨S_, .f32⟩
  | 102 => ⟨S2048, .f32⟩
  | 103 => ⟨S_, .f32⟩
  | 104 => ⟨S2048, .f32⟩
  | 105 => ⟨S2048, .f32⟩
  | 106 => ⟨S1x2048, .f32⟩
  | 107 => ⟨S1024x2048, .f32⟩
  | 108 => ⟨S1024x2048, .f32⟩
  | 109 => ⟨S1024x2048, .f32⟩
  | 110 => ⟨S_, .f32⟩
  | 111 => ⟨S2048, .f32⟩
  | 112 => ⟨S_, .f32⟩
  | 113 => ⟨S2048, .f32⟩
  | 114 => ⟨S2048, .f32⟩
  | 115 => ⟨S1x2048, .f32⟩
  | 116 => ⟨S1024x2048, .f32⟩
  | 117 => ⟨S1024x2048, .f32⟩
  | 118 => ⟨S_, .f32⟩
  | 119 => ⟨S2048, .f32⟩
  | 120 => ⟨S2048, .f32⟩
  | 121 => ⟨S2048, .f32⟩
  | 122 => ⟨S1x2048, .f32⟩
  | 123 => ⟨S1024x2048, .f32⟩
  | 124 => ⟨S1024x2048, .f32⟩
  | 125 => ⟨S1x2048, .f32⟩
  | 126 => ⟨S1024x2048, .f32⟩
  | 127 => ⟨S1024x2048, .f32⟩
  | _ => ⟨S1024x64x16x16, .f32⟩

abbrev hbmTy0_1 (i : Nat) : BufTy := match i % 128 with
  | 0 => ⟨S1x2048, .f32⟩
  | 1 => ⟨S1024x2048, .f32⟩
  | 2 => ⟨S1024x2048, .f32⟩
  | 3 => ⟨S_, .f32⟩
  | 4 => ⟨S1024x2048, .f32⟩
  | 5 => ⟨S1024x2048, .f32⟩
  | 6 => ⟨S2048x16384, .f32⟩
  | 7 => ⟨S1024x16384, .f32⟩
  | 8 => ⟨S1x16384, .f32⟩
  | 9 => ⟨S1024x16384, .f32⟩
  | 10 => ⟨S1024x16384, .f32⟩
  | 11 => ⟨S1024x64x16x16, .f32⟩
  | _ => ⟨S1024x64x16x16, .f32⟩

abbrev hbmTy (i : Nat) : BufTy := match i / 128 with
  | 0 => hbmTy0_0 i
  | 1 => hbmTy0_1 i
  | _ => ⟨S1024x64x16x16, .f32⟩

abbrev bufTy : (tb : Table) → Fin (tcTables nBuf tb) → BufTy
  | .hbm, ⟨i, _⟩ => hbmTy i
  | _, _ => ⟨S1024x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call2_cst : Ref sig .tc := ⟨.hbm, 131, rfl⟩
abbrev main_call2_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  shapeCasts_S1024x64x16x16_S1024x16384 : S1024x64x16x16.ShapeCasts S1024x16384
  transposes_S2048x16384_S16384x2048_1_0 : S2048x16384.Transposes [1, 0] S16384x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  reducesTo_S1024x2048_S2048_d0 : S1024x2048.ReducesTo [0] S2048
  h_S_ : 0 < S_.numel
  bcast_S_S2048 : S_.BroadcastsInDim S2048 (![] : Fin 0 → Fin S2048.rank)
  bcast_S_S1024x2048 : S_.BroadcastsInDim S1024x2048 (![] : Fin 0 → Fin S1024x2048.rank)
  transposes_S16x2048_S2048x16_1_0 : S16x2048.Transposes [1, 0] S2048x16
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  transposes_S25x16_S16x25_1_0 : S25x16.Transposes [1, 0] S16x25
  reducesTo_S1024x25_S1024_d1 : S1024x25.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x25_0_1 : S1024x1.BroadcastsInDim S1024x25 (![0, 1] : Fin 2 → Fin S1024x25.rank)
  bcast_S_S1024x25 : S_.BroadcastsInDim S1024x25 (![] : Fin 0 → Fin S1024x25.rank)
  bcast_S_S1024x1 : S_.BroadcastsInDim S1024x1 (![] : Fin 0 → Fin S1024x1.rank)
  transposes_S2048x16_S16x2048_1_0 : S2048x16.Transposes [1, 0] S16x2048
  transposes_S16384x2048_S2048x16384_1_0 : S16384x2048.Transposes [1, 0] S2048x16384
  bcast_S16384_S1x16384_1 : S16384.BroadcastsInDim S1x16384 (![1] : Fin 1 → Fin S1x16384.rank)
  bcast_S1x16384_S1024x16384_0_1 : S1x16384.BroadcastsInDim S1024x16384 (![0, 1] : Fin 2 → Fin S1024x16384.rank)
  shapeCasts_S1024x16384_S1024x64x16x16 : S1024x16384.ShapeCasts S1024x64x16x16
  dot_S1024x16384_S16384x2048_S1024x2048_1_0_0_1_n_n_wf : DotDims.WF S1024x16384 S16384x2048 S1024x2048 [1] [0] [0] [1] [] []
  dot_S1024x2048_S2048x16_S1024x16_1_0_0_1_n_n_wf : DotDims.WF S1024x2048 S2048x16 S1024x16 [1] [0] [0] [1] [] []
  dot_S1024x16_S16x25_S1024x25_1_0_0_1_n_n_wf : DotDims.WF S1024x16 S16x25 S1024x25 [1] [0] [0] [1] [] []
  dot_S1024x25_S25x16_S1024x16_1_0_0_1_n_n_wf : DotDims.WF S1024x25 S25x16 S1024x16 [1] [0] [0] [1] [] []
  dot_S1024x16_S16x2048_S1024x2048_1_0_0_1_n_n_wf : DotDims.WF S1024x16 S16x2048 S1024x2048 [1] [0] [0] [1] [] []
  dot_S1024x2048_S2048x16384_S1024x16384_1_0_0_1_n_n_wf : DotDims.WF S1024x2048 S2048x16384 S1024x16384 [1] [0] [0] [1] [] []

variable [Facts₀]

def dot_S1024x16384_S16384x2048_S1024x2048_1_0_0_1_n_n : DotDims S1024x16384 S16384x2048 S1024x2048 where
  lhsContracting := [1]
  rhsContracting := [0]
  lhsNonContracting := [0]
  rhsNonContracting := [1]
  lhsBatch := []
  rhsBatch := []
  wf := dot_S1024x16384_S16384x2048_S1024x2048_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S1024x16_S16x25_S1024x25_1_0_0_1_n_n : DotDims S1024x16 S16x25 S1024x25 where
  lhsContracting := [1]
  rhsContracting := [0]
  lhsNonContracting := [0]
  rhsNonContracting := [1]
  lhsBatch := []
  rhsBatch := []
  wf := dot_S1024x16_S16x25_S1024x25_1_0_0_1_n_n_wf
def dot_S1024x25_S25x16_S1024x16_1_0_0_1_n_n : DotDims S1024x25 S25x16 S1024x16 where
  lhsContracting := [1]
  rhsContracting := [0]
  lhsNonContracting := [0]
  rhsNonContracting := [1]
  lhsBatch := []
  rhsBatch := []
  wf := dot_S1024x25_S25x16_S1024x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf
def dot_S1024x2048_S2048x16384_S1024x16384_1_0_0_1_n_n : DotDims S1024x2048 S2048x16384 S1024x16384 where
  lhsContracting := [1]
  rhsContracting := [0]
  lhsNonContracting := [0]
  rhsNonContracting := [1]
  lhsBatch := []
  rhsBatch := []
  wf := dot_S1024x2048_S2048x16384_S1024x16384_1_0_0_1_n_n_wf

class Facts : Prop extends Facts₀ where

variable [Facts]
-- ==== Proof.KR0Runs.lean ====
import proofs.«104290_j46119358825052_2_alg».proof.Proof.Gen.Kernel.Launch
import proofs.«104290_j46119358825052_2_alg».proof.Proof.Gen.Kernel.Skeleton
import proofs.«104290_j46119358825052_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder kernel: its control cases and one whole-body run per case

The kernel body has two conditionals on the inner grid coordinate `k`: the first (`k = 0`) resets the
accumulator, the second (`k = 7`) runs the epilogue. Three assignments of them occur on the grid:
A (`k = 0`), B (`0 < k < 7`), C (`k = 7`). -/

/-! ## The two conditions, in closed form over the grid -/

/-- The condition of the first conditional, as the skeleton spells it: the inner coordinate is zero. -/
abbrev cond0 (i : grid0.Coords) : Prop := (Scalar.cmpi .ne (Scalar.extui (Scalar.cmpi .eq (BitVec.ofNat 32 (i 1).val) 0#32)) 0#32) = 1#1
/-- It holds exactly at the points whose position is a multiple of 8. -/
theorem hcond0 : ∀ t : Fin cfg0.N, cond0 (grid0.coords t) ↔ t.val % 8 = 0 :=
  (by decide +kernel : ∀ t : Fin grid0.N, cond0 (grid0.coords t) ↔ t.val % 8 = 0)

/-- The condition of the second conditional: the inner coordinate is the last one. -/
abbrev cond1 (i : grid0.Coords) : Prop := k0_cond2 i = 1#1
/-- It holds exactly at the points whose position is 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

/-- The five input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last inner step the output window is idle: nothing is stored into it, -/
theorem idle5 : ∀ t : Fin cfg0.N, ¬cond1 (grid0.coords t) → cfg0.idle 5 (grid0.coords t) = true := by decide +kernel
/-- and its block is not written back there. -/
theorem noFlush5 : ∀ t : Fin cfg0.N, ¬cond1 (grid0.coords t) → (cfg0.win 5).flush t = false := by decide +kernel
/-- At the last inner step the output window is live. -/
theorem live5 : ∀ t : Fin cfg0.N, cond1 (grid0.coords t) → cfg0.idle 5 (grid0.coords t) = false := by decide +kernel

/-! ## The memrefs the body is called with -/

/-- One staging buffer of the output window, through which its contents are stated (the choice does not matter). -/
abbrev VO : View sig .tc .vmem S1024x1024 .f32 := (Memref.whole cc0_stg5_0 : Memref sig .tc .vmem S1024x1024 .f32).view
/-- Each window's current staging memref at point `t`, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
/-- The accumulator: a whole scoped buffer of the kernel's own, passed beside the windows. -/
abbrev scM : Memref sig .tc .vmem S1024x1024 .f32 := Memref.whole cc0_scratch0
/-- The accumulator as a view: what it holds is stated through it. -/
abbrev VS : View sig .tc .vmem S1024x1024 .f32 := scM.view

/-- The core's scoped buffers that belong to the second region (its staging buffers), each whole at some contents:
    the encoder never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's resting invariant with the accumulator singled out as a memref owned at some contents, beside the
    second region's buffers and the generator register. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-! ## The whole-body runs -/

set_option maxHeartbeats 1000000 in
/-- CASE A (the inner coordinate is zero). On whole memrefs, the two matmul operands' at contents `x0`, `x1` and the
    accumulator at anything, the body runs to the continuation holding the operands' as they were and the accumulator
    with the pieces `LS` written: the zero splat, then the sum over it. The other four memrefs are not touched. -/
noncomputable def runA (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : cond0 i) (hc1 : ¬cond1 i)
    (x0 : Vec F S1024x2048 .f32) (x1 : Vec F S1024x2048 .f32) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- CASE B (the inner coordinate is neither zero nor last). As case A, with the accumulator at the contents `xs` the
    point before left: the one store adds the block product to it. -/
noncomputable def runB (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0 i) (hc1 : ¬cond1 i)
    (x0 : Vec F S1024x2048 .f32) (x1 : Vec F S1024x2048 .f32) (xs : Vec F S1024x1024 .f32) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- CASE C (the inner coordinate is the last). The accumulation as in case B, then the epilogue: it loads the
    accumulator, the three row vectors (at contents `x2`, `x3`, `x4`) and the output buffer (at anything), and stores
    the output; the continuation gets the five inputs' memrefs as they were, the output's with the pieces `L5`
    written and the accumulator's with `LS`. -/
noncomputable def runC (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0 i) (hc1 : cond1 i)
    (x0 : Vec F S1024x2048 .f32) (x1 : Vec F S1024x2048 .f32) (x2 : Vec F S1024 .f32) (x3 : Vec F S1024 .f32) (x4 : Vec F S1024 .f32) (xs : Vec F S1024x1024 .f32) :
    Σ' (L5 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R0

end
-- ==== Proof.KR0Body.lean ====
import proofs.«104290_j46119358825052_2_alg».proof.Proof.Gen.Kernel.Launch
import proofs.«104290_j46119358825052_2_alg».proof.Proof.Gen.Kernel.Skeleton
import proofs.«104290_j46119358825052_2_alg».proof.Proof.Gen.Kernel.Points
import proofs.«104290_j46119358825052_2_alg».proof.Proof.KR0Runs
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder region, point by point: what the buffers hold, the invariant, the proof data, the body obligation

Everything here is stated at the contents `V` the buffers hold when the region is entered — a parameter. -/

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    window's block index has not moved), for any proof data whose array is `V`'s and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output buffer -/

/-- The run of case A at point `t`: on the point's memrefs and the two operand blocks there. -/
def atA (c : Dev nD) (t : Fin cfg0.N) (h0 : t.val % 8 = 0) :=
  runA (F := F) c (grid0.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => by have := (hcond1 t).mp h; omega) (iblk V c 0 t) (iblk V c 1 t)
/-- The run of case B at point `t`, over the accumulator's contents `xs` before the point. -/
def atB (c : Dev nD) (t : Fin cfg0.N) (h0 : ¬t.val % 8 = 0) (h1 : ¬t.val % 8 = 7) (xs : Vec F S1024x1024 .f32) :=
  runB (F := F) c (grid0.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) xs
/-- The run of case C at point `t`, over the accumulator's contents `xs` before the point. -/
def atC (c : Dev nD) (t : Fin cfg0.N) (h0 : ¬t.val % 8 = 0) (h1 : t.val % 8 = 7) (xs : Vec F S1024x1024 .f32) :=
  runC (F := F) c (grid0.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) xs

/-- Each case's pieces for the accumulator tile it, so they cover it. -/
theorem scoverA (c : Dev nD) (t : Fin cfg0.N) (h0 : t.val % 8 = 0) (y : S1024x1024.Idx) :
    ∃ pc ∈ (atA V c t h0).1, y ∈ pc.1.set := by
  unfold atA; exact View.cover_of_tiledL _ S1024x1024.size (by sl_kernel_rfl) y
theorem scoverB (c : Dev nD) (t : Fin cfg0.N) (h0 : ¬t.val % 8 = 0) (h1 : ¬t.val % 8 = 7) (xs : Vec F S1024x1024 .f32) (y : S1024x1024.Idx) :
    ∃ pc ∈ (atB V c t h0 h1 xs).1, y ∈ pc.1.set := by
  unfold atB; exact View.cover_of_tiledL _ S1024x1024.size (by sl_kernel_rfl) y
theorem scoverC (c : Dev nD) (t : Fin cfg0.N) (h0 : ¬t.val % 8 = 0) (h1 : t.val % 8 = 7) (xs : Vec F S1024x1024 .f32) (y : S1024x1024.Idx) :
    ∃ pc ∈ (atC V c t h0 h1 xs).2.1, y ∈ pc.1.set := by
  unfold atC; exact View.cover_of_tiledL _ S1024x1024.size (by sl_kernel_rfl) y
/-- Case C's one store into the output buffer covers it. -/
theorem coverC (c : Dev nD) (t : Fin cfg0.N) (h0 : ¬t.val % 8 = 0) (h1 : t.val % 8 = 7) (xs : Vec F S1024x1024 .f32) (y : S1024x1024.Idx) :
    ∃ pc ∈ (atC V c t h0 h1 xs).1, y ∈ pc.1.set := by
  unfold atC; exact View.cover_of_tiledL _ S1024x1024.size (by sl_kernel_rfl) y

/-- What each case leaves in the accumulator: its pieces read back over junk. -/
def accA (c : Dev nD) (t : Fin cfg0.N) (h0 : t.val % 8 = 0) : Vec F S1024x1024 .f32 :=
  VS.read (Elt F) (VS.writes (Elt F) VS.junk (atA V c t h0).1)
def accB (c : Dev nD) (t : Fin cfg0.N) (h0 : ¬t.val % 8 = 0) (h1 : ¬t.val % 8 = 7) (xs : Vec F S1024x1024 .f32) : Vec F S1024x1024 .f32 :=
  VS.read (Elt F) (VS.writes (Elt F) VS.junk (atB V c t h0 h1 xs).1)
def accC (c : Dev nD) (t : Fin cfg0.N) (h0 : ¬t.val % 8 = 0) (h1 : t.val % 8 = 7) (xs : Vec F S1024x1024 .f32) : Vec F S1024x1024 .f32 :=
  VS.read (Elt F) (VS.writes (Elt F) VS.junk (atC V c t h0 h1 xs).2.1)
/-- What case C leaves in the output buffer. -/
def outC (c : Dev nD) (t : Fin cfg0.N) (h0 : ¬t.val % 8 = 0) (h1 : t.val % 8 = 7) (xs : Vec F S1024x1024 .f32) : Vec F S1024x1024 .f32 :=
  VO.read (Elt F) (VO.writes (Elt F) VO.junk (atC V c t h0 h1 xs).1)
/-- At the points where the output window is idle nothing consults its contents: a placeholder. -/
def outIdle : Vec F S1024x1024 .f32 := VO.read (Elt F) VO.junk

/-! ## What the output buffer and the accumulator hold after each point -/

/-- THE ACCUMULATION: (the output window's staging buffer, the accumulator) after the body at position `n` — the case
    the position selects, run over what the position before left in the accumulator. -/
def outsAt (c : Dev nD) : (n : ℕ) → n < cfg0.N → Vec F S1024x1024 .f32 × Vec F S1024x1024 .f32
  | 0, hn => (outIdle, accA V c ⟨0, hn⟩ (Nat.zero_mod _))
  | n + 1, hn =>
    if h0 : (n + 1) % 8 = 0 then
      (outIdle, accA V c ⟨n + 1, hn⟩ h0)
    else
      if h1 : (n + 1) % 8 = 7 then
        (outC V c ⟨n + 1, hn⟩ h0 h1 (outsAt c n (Nat.lt_of_succ_lt hn)).2, accC V c ⟨n + 1, hn⟩ h0 h1 (outsAt c n (Nat.lt_of_succ_lt hn)).2)
      else
        (outIdle, accB V c ⟨n + 1, hn⟩ h0 h1 (outsAt c n (Nat.lt_of_succ_lt hn)).2)

/-- `outsAt` at a point of case A. -/
theorem outsAt_A (c : Dev nD) (t : Fin cfg0.N) (h0 : t.val % 8 = 0) :
    outsAt V c t.val t.isLt = (outIdle, accA V c t h0) := by
  obtain ⟨n, hn⟩ := t
  cases n with
  | zero => exact rfl
  | succ n => exact (dif_pos h0).trans rfl

/-- `outsAt` at a point of case B: over what the point before left. -/
theorem outsAt_B (c : Dev nD) (t : Fin cfg0.N) (h0 : ¬t.val % 8 = 0) (h1 : ¬t.val % 8 = 7) :
    outsAt V c t.val t.isLt = (outIdle, accB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt` at a point of case C: over what the point before left. -/
theorem outsAt_C (c : Dev nD) (t : Fin cfg0.N) (h0 : ¬t.val % 8 = 0) (h1 : t.val % 8 = 7) :
    outsAt V c t.val t.isLt = (outC V c t h0 h1 (outsAt V c (t.val - 1) (Nat.lt_of_le_of_lt (Nat.sub_le _ _) t.isLt)).2, accC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- The region invariant before position `n`: before the first point the resting one (the accumulator at anything);
    afterwards the same with the accumulator at what the point before left in it. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ others (F := F) c) ∗ (∃ r, prngReg c r)) := by
  cases n with
  | zero => exact absurd rfl hz
  | succ n => rfl

/-! ## The proof data -/

/-- The proof data of the encoder's pipeline on core `c`: the arrays as the region finds them; after the body at
    point `t` each input's buffer at its block and the output's at `outsAt`'s first component; the invariant `PhiS`;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (outsAt V c t.val t.isLt).1 := by dsimp only [dat]

/-- Each input's current staging buffer holds its block at every point. -/
theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the position says which case the point is in, so that
    case's run applies; the invariant hands the body the accumulator at what the point before left (at anything at the
    first point) and takes it back at this point's contents (the pieces cover it); the second region's buffers, the
    generator register and the core's debts pass through; where the output window is idle its buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms0 t) fullShare ((dat V c).after 0 t) from by
          unfold Dat.leavesExact; rw [live0 t], after_0]
  rw [show (dat V c).leavesExact 1 t = owns (c : Thread nD τ) (ms1 t) fullShare ((dat V c).after 1 t) from by
          unfold Dat.leavesExact; rw [live1 t], after_1]
  rw [show (dat V c).leavesExact 2 t = owns (c : Thread nD τ) (ms2 t) fullShare ((dat V c).after 2 t) from by
          unfold Dat.leavesExact; rw [live2 t], after_2]
  rw [show (dat V c).leavesExact 3 t = owns (c : Thread nD τ) (ms3 t) fullShare ((dat V c).after 3 t) from by
          unfold Dat.leavesExact; rw [live3 t], after_3]
  rw [show (dat V c).leavesExact 4 t = owns (c : Thread nD τ) (ms4 t) fullShare ((dat V c).after 4 t) from by
          unfold Dat.leavesExact; rw [live4 t], after_4]
  by_cases h0 : t.val % 8 = 0
  · have h1 : ¬t.val % 8 = 7 := by omega
    rw [Dat.leavesExact_idle (dat V c) 5 t (idle5 t (fun h => h1 ((hcond1 t).mp h))) (noFlush5 t (fun h => h1 ((hcond1 t).mp h)))]
    rw [outsAt_A V c t h0]
    unfold accA; (try dsimp only)
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩, ⟨%d3, H3⟩, ⟨%d4, H4⟩, H5⟩
      iapply ((atA V c t h0).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverA V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, H5⟩
      iapply ((atA V c t h0).2 Set.univ _)
      isplitl [H0]; · iexact H0
      isplitl [H1]; · iexact H1
      isplitl [HS]; · iexists _; iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverA V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    by_cases h1 : t.val % 8 = 7
    · rw [show (dat V c).leavesExact 5 t = owns (c : Thread nD τ) (ms5 t) fullShare ((dat V c).after 5 t) from by
          unfold Dat.leavesExact; rw [live5 t ((hcond1 t).mpr h1)], after_5]
      rw [outsAt_C V c t h0 h1]
      unfold outC accC; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atC V c t h0 h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (scoverC V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h0 h1 _)
    · rw [Dat.leavesExact_idle (dat V c) 5 t (idle5 t (fun h => h1 ((hcond1 t).mp h))) (noFlush5 t (fun h => h1 ((hcond1 t).mp h)))]
      rw [outsAt_B V c t h0 h1]
      unfold accB; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, H5⟩
      iapply ((atB V c t h0 h1 _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverB V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the resting one back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Cert.Kernel.R0

end
-- ==== Proof.KR1Body.lean ====
import proofs.«104290_j46119358825052_2_alg».proof.Proof.Gen.Kernel.Launch
import proofs.«104290_j46119358825052_2_alg».proof.Proof.Gen.Kernel.Skeleton
import proofs.«104290_j46119358825052_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # The decoder region's half of the frame proof

The decoder kernel has one control case: it loads its five input buffers whole, loads the output buffer, and
stores the output buffer whole with one payload of the five loaded values. Everything here is stated at a
parameter: the buffers' contents when the region is entered. -/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (an unfetched window's block index has not moved since the last fetch), for any proof data whose array is the
    entry contents and whose body leaves the block in place. One statement per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole, through the unit rectangle at zero offsets -/

abbrev rA : Rect S1024x2048 := Rect.unit (s := S1024x2048) ![0, 0] S1024x2048.size inb_S1024x2048_S1024x2048_0_0
abbrev rB : Rect S2048 := Rect.unit (s := S2048) ![0] S2048.size inb_S2048_S2048_0
abbrev rC : Rect S1024 := Rect.unit (s := S1024) ![0] S1024.size inb_S1024_S1024_0
abbrev rO : Rect S1024x1024 := Rect.unit (s := S1024x1024) ![0, 0] S1024x1024.size inb_S1024x1024_S1024x1024_0_0

/-! ## What the body leaves in the output window's buffer -/

/-- The output buffer after the body, from the input windows' blocks: its one store as a piece, the payload over
    the five loads. -/
def out5 (x0 : Vec F S1024x2048 .f32) (x1 x2 : Vec F S2048 .f32) (x3 : Vec F S1024x2048 .f32) (x4 : Vec F S1024 .f32) :
    Vec F S1024x1024 .f32 :=
  View.canon [⟨rO, k1_pay1 (View.ld x0 rA) (View.ld x1 rB) (View.ld x2 rB) (View.ld x3 rA) (View.ld x4 rC)⟩]

/-- The one store tiles the buffer, so it covers it. -/
theorem cover5 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-- A whole-buffer store of a payload of whole-buffer loads leaves the payload of the buffers. -/
theorem out5_eq (x0 : Vec F S1024x2048 .f32) (x1 x2 : Vec F S2048 .f32) (x3 : Vec F S1024x2048 .f32) (x4 : Vec F S1024 .f32) :
    out5 x0 x1 x2 x3 x4 = k1_pay1 x0 x1 x2 x3 x4 := by
  have hz2 : (![0, 0] : Fin S1024x1024.rank → Nat) = fun _ => 0 := funext fun a => by fin_cases a <;> rfl
  have hzA : (![0, 0] : Fin S1024x2048.rank → Nat) = fun _ => 0 := funext fun a => by fin_cases a <;> rfl
  have hzB : (![0] : Fin S2048.rank → Nat) = fun _ => 0 := funext fun a => by fin_cases a; rfl
  have hzC : (![0] : Fin S1024.rank → Nat) = fun _ => 0 := funext fun a => by fin_cases a; rfl
  unfold out5
  rw [View.canon_unit_zero (S := S1024x1024) hz2, View.ld_unit_zero (S := S1024x2048) hzA, View.ld_unit_zero (S := S1024x2048) hzA,
    View.ld_unit_zero (S := S2048) hzB, View.ld_unit_zero (S := S2048) hzB, View.ld_unit_zero (S := S1024) hzC]

/-! ## The body's triple -/

set_option maxHeartbeats 1000000 in
/-- The kernel body on whole staging memrefs, the inputs' at contents x0 … x4 and the output's at anything, runs to
    the continuation holding the inputs' as they were and the output's at out5 of the inputs'. The load of the
    output buffer reads whatever it holds and its value is not used. -/
theorem sound_kernel (c : Dev nD) (E : Set ℕ) (i : grid1.Coords)
    (arg1 : Memref sig .tc .vmem S1024x2048 .f32) (harg1 : arg1.IsWhole) (arg2 : Memref sig .tc .vmem S2048 .f32) (harg2 : arg2.IsWhole)
    (arg3 : Memref sig .tc .vmem S2048 .f32) (harg3 : arg3.IsWhole) (arg4 : Memref sig .tc .vmem S1024x2048 .f32) (harg4 : arg4.IsWhole)
    (arg5 : Memref sig .tc .vmem S1024 .f32) (harg5 : arg5.IsWhole) (arg6 : Memref sig .tc .vmem S1024x1024 .f32) (harg6 : arg6.IsWhole)
    (x0 : Vec F S1024x2048 .f32) (x1 x2 : Vec F S2048 .f32) (x3 : Vec F S1024x2048 .f32) (x4 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc1__decoder_kernel i arg1 harg1 arg2 harg2 arg3 harg3 arg4 harg4 arg5 harg5 arg6 harg6) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the decoder's pipeline on core c: the arrays as the region finds them; after the body at
    point t each input's buffer at its block and the output's at out5 of the five input blocks; the invariant
    is the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out5 (iblk V c 0 t) (iblk V c 1 t) (iblk V c 2 t) (iblk V c 3 t) (iblk V c 4 t) := by dsimp only [dat]

/-- The invariant is the class's at every point. -/
theorem Phi_eq (c : Dev nD) (t : Fin (cfg1.N + 1)) : (dat V c).Φ t = (Pipeline.ΦA spec1 c : sProp 𝕄) := rfl

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant
    and the core's owed count pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KRun.lean ====
/-
  The program's run. The host program is seven items — a host stretch, the encoder region, three host stretches of the
  latent computation, the decoder region, a last host stretch — and the buffers' contents at each boundary between two
  items are named: a host stretch folds its operations' results over what it found; a region leaves its arrays at what
  its write-backs make of them and every other buffer as it found it. Each region is entered from, and left at, the
  thread state "every unscoped buffer whole at the boundary's contents, the generator register at some state, nothing
  owed". Every weakly fair execution terminates, faulting nowhere, with every unscoped buffer at the last contents.
-/
import proofs.«104290_j46119358825052_2_alg».proof.Proof.Gen.Kernel.Launch
import proofs.«104290_j46119358825052_2_alg».proof.Proof.Gen.Kernel.Skeleton
import proofs.«104290_j46119358825052_2_alg».proof.Proof.Gen.Kernel.Points
import proofs.«104290_j46119358825052_2_alg».proof.Proof.Gen.Kernel.Regions
import proofs.«104290_j46119358825052_2_alg».proof.Proof.KR0Body
import proofs.«104290_j46119358825052_2_alg».proof.Proof.KR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

namespace Cert.Kernel.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the host program -/

/-- A core's buffers when the program starts. -/
abbrev W0 : Dev nD → Valuation τ sig (Elt F) := fun c b => (s₀ m ρ).mem ((c : Dev nD), b)
/-- After the first host stretch (the input reshaped to a matrix): what the encoder region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the encoder region: its arrays at what the write-backs leave, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches of the latent computation: what the decoder region is entered from. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- After the decoder region. -/
def W6 (c : Dev nD) : Valuation τ sig (Elt F) :=
  Pipeline.withArrays spec1 c (W5 m ρ c) fun w => (R1.dat (V5 m ρ) c).arrAt w cfg1.N
theorem W6_arr (c : Dev nD) (w : Fin cfg1.W) :
    W6 m ρ c (Proc.devRef .tc (Pipeline.arrRef spec1 w)) = (R1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (R1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last host stretch (the output reshaped back): the contents the program ends with. -/
abbrev W7 : Dev nD → Valuation τ sig (Elt F) := fun c => StableHlo.after hostOps2 (W6 m ρ c)

/-! ## The proof data of the two regions, and what rides beside the buffers -/

abbrev adm : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V5 m ρ) c
abbrev 𝒱₀ : Variants := Variants.none
abbrev L : GSem nD τ sig → Finset Unit := fun _ => ∅
abbrev lv : GSem nD τ sig → Unit → ℕ := fun _ _ => 0
/-- Beside the buffers every item carries the core's generator register at some state and the fact that it owes nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The two regions as segments -/

set_option backward.isDefEq.respectTransparency.types false in
/-- The encoder region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := R0.hin (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := R0.hout (V1 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder region: entered with every unscoped buffer at `W5`, left with them at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from R1.Phi_eq (V5 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from R1.Phi_eq (V5 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host program as its seven items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, faulting nowhere, and
    ends with every unscoped buffer of every core at `W7`: the launch theorem over the seven items, the last thread
    state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.LibRegionOut.lean ====
/-
  A general lemma about buffer contents: a pallas_call region with ONE output window, seen as one host operation.
  Nothing here mentions a particular program.
-/
import Idealize.ShloMosaic.Lib.Pipeline.FrameSuffix
import Idealize.ShloMosaic.Lib.StableHlo.Run

noncomputable section

namespace Cert.LibRegionOut

open Idealize.ShloMosaic Idealize.ShloMosaic.TcCoe Idealize.SL.Sem

/-- A pipeline of any number of windows of which exactly one, `o`, is written leaves the contents that an operation
    writing only `o`'s array would leave: every other window's array as entered (`hin`), `o`'s array at the operation's
    result (`hout`), and every other buffer untouched (`Pipeline.withArrays` is the contents with the pipeline's arrays
    replaced). -/
theorem withArrays_eq_result {nD : Nat} {τ : Topo} {sig : RefSig} {Val : EltTy → Type} {gr : Nat} {W : Nat}
    (win : Fin W → Pipeline.WinSpec sig gr) (hinj : Function.Injective (Pipeline.arrRef win)) (c : Dev nD)
    (Vin : Valuation τ sig Val) (A : (w : Fin W) → Buf Val ((win w).arr.view.loc (c.tc : Thread nD τ)))
    (op : HloOp τ sig Val) (o : Fin W)
    (hw : op.writes = {Proc.devRef .tc (Pipeline.arrRef win o)})
    (hin : ∀ w, w ≠ o → A w = Vin (Proc.devRef .tc (Pipeline.arrRef win w)))
    (hout : A o = op.result Vin (Proc.devRef .tc (Pipeline.arrRef win o))) :
    Pipeline.withArrays win c Vin A = op.result Vin := by
  funext b
  by_cases h : ∃ w, Proc.devRef .tc (Pipeline.arrRef win w) = b
  · obtain ⟨w, rfl⟩ := h
    rw [Pipeline.withArrays_arr win hinj]
    by_cases hwo : w = o
    · subst hwo; exact hout
    · rw [HloOp.result_of_not_mem _ _ (by
        rw [hw, Finset.mem_singleton]; exact fun e => hwo (hinj (Proc.devRef_injective _ e)))]
      exact hin w hwo
  · unfold Pipeline.withArrays
    rw [dif_neg h, HloOp.result_of_not_mem _ _ (by rw [hw, Finset.mem_singleton]; exact fun e => h ⟨o, e.symm⟩)]

end Cert.LibRegionOut

end
-- ==== Proof.KKernelValue.lean ====
/-
  The program's last contents, read. A region that writes one array leaves what a single host operation writing that
  array would leave, so each boundary's contents is a fold of host operations over the launch contents: the host
  stretches' own, and one operation per region that puts the region's output array in place. A buffer that no host
  stretch and no region writes — every argument — ends as launched.
-/
import proofs.«104290_j46119358825052_2_alg».proof.Proof.KRun
import proofs.«104290_j46119358825052_2_alg».proof.Proof.LibRegionOut
import Idealize.ShloMosaic.Lib.StableHlo.Run

set_option maxRecDepth 16384

noncomputable section

open Idealize.ShloMosaic Idealize.ShloMosaic.TcCoe Idealize.SL.Sem
open Idealize.ShloMosaic.Pipeline (Dat)
open Cert.Kernel Cert.Kernel.Gen

namespace Cert.Kernel.Hand

variable {F : FTy → Type} [FloatOps F]
variable (m : (ℓ : Loc nD τ sig) → Buf (Elt F) ℓ) (ρ : Dev nD → PrngReg)

/-- What the encoder region leaves in its output array. -/
def encOut (c : Dev nD) : (⟨S1024x2048, .f32⟩ : BufTy).Contents (Elt F) := (R0.dat (V1 m ρ) c).arrAt 5 cfg0.N
/-- What the decoder region leaves in its output array. -/
def decOut (c : Dev nD) : (⟨S1024x16384, .f32⟩ : BufTy).Contents (Elt F) := (R1.dat (V5 m ρ) c).arrAt 5 cfg1.N

/-- The encoder region as one operation: it puts `encOut` in its output array and touches nothing else. -/
theorem W2_eq (c : Dev nD) : W2 m ρ c = (StableHlo.nullary main_v1 (encOut m ρ c) : HloOp τ sig (Elt F)).result (W1 m ρ c) := by
  unfold W2
  refine Cert.LibRegionOut.withArrays_eq_result spec0 launch0.win.arr_inj c (W1 m ρ c) _ _ 5 (StableHlo.nullary_writes _ _ _) (fun w hw => ?_) ?_
  · have hin : (cfg0.win w).isOut = false := by
      match w, hw with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    exact ((R0.dat (V1 m ρ) c).arrAt_in w hin _).trans (R0.A_eq (V1 m ρ) c w)
  · exact (StableHlo.nullary_result main_v1 (encOut m ρ c) _ (W1 m ρ c)).symm

/-- The decoder region as one operation. -/
theorem W6_eq (c : Dev nD) : W6 m ρ c = (StableHlo.nullary main_v41 (decOut m ρ c) : HloOp τ sig (Elt F)).result (W5 m ρ c) := by
  unfold W6
  refine Cert.LibRegionOut.withArrays_eq_result spec1 launch1.win.arr_inj c (W5 m ρ c) _ _ 5 (StableHlo.nullary_writes _ _ _) (fun w hw => ?_) ?_
  · have hin : (cfg1.win w).isOut = false := by
      match w, hw with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    exact ((R1.dat (V5 m ρ) c).arrAt_in w hin _).trans (R1.A_eq (V5 m ρ) c w)
  · exact (StableHlo.nullary_result main_v41 (decOut m ρ c) _ (W5 m ρ c)).symm

/-- A buffer that no host stretch writes and that is neither region's output array ends as launched. -/
theorem W7_keep (c : Dev nD) (r : Ref sig .tc) (h0 : r ∉ hostOps0_W) (h1 : r ∉ hostOps1_W) (h11 : r ∉ hostOps1_1_W)
    (h12 : r ∉ hostOps1_2_W) (h2 : r ∉ hostOps2_W) (hv1 : r ≠ main_v1) (hv41 : r ≠ main_v41) :
    W7 m ρ c (Proc.devRef .tc r) = m ((c : Thread nD τ).loc r) := by
  have e7 : W7 m ρ c (Proc.devRef .tc r) = W6 m ρ c (Proc.devRef .tc r) := StableHlo.after_of_writes_sub hostOps2 _ hostOps2_writes h2
  have e6 : W6 m ρ c (Proc.devRef .tc r) = W5 m ρ c (Proc.devRef .tc r) := by
    rw [W6_eq]
    exact HloOp.result_of_not_mem _ _ (by
      rw [StableHlo.nullary_writes, Finset.mem_singleton]; exact fun e => hv41 (Proc.devRef_injective _ e))
  have e5 : W5 m ρ c (Proc.devRef .tc r) = W4 m ρ c (Proc.devRef .tc r) := StableHlo.after_of_writes_sub hostOps1_2 _ hostOps1_2_writes h12
  have e4 : W4 m ρ c (Proc.devRef .tc r) = W3 m ρ c (Proc.devRef .tc r) := StableHlo.after_of_writes_sub hostOps1_1 _ hostOps1_1_writes h11
  have e3 : W3 m ρ c (Proc.devRef .tc r) = W2 m ρ c (Proc.devRef .tc r) := StableHlo.after_of_writes_sub hostOps1 _ hostOps1_writes h1
  have e2 : W2 m ρ c (Proc.devRef .tc r) = W1 m ρ c (Proc.devRef .tc r) := by
    rw [W2_eq]
    exact HloOp.result_of_not_mem _ _ (by
      rw [StableHlo.nullary_writes, Finset.mem_singleton]; exact fun e => hv1 (Proc.devRef_injective _ e))
  have e1 : W1 m ρ c (Proc.devRef .tc r) = W0 m ρ c (Proc.devRef .tc r) := StableHlo.after_of_writes_sub hostOps0 _ hostOps0_writes h0
  exact e7.trans (e6.trans (e5.trans (e4.trans (e3.trans (e2.trans (e1.trans rfl))))))

end Cert.Kernel.Hand

end
-- ==== Proof.R0Runs.lean ====
import proofs.«104290_j46119358825052_2_alg».proof.Proof.Gen.KernelIdeal.Launch
import proofs.«104290_j46119358825052_2_alg».proof.Proof.Gen.KernelIdeal.Skeleton
import proofs.«104290_j46119358825052_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder kernel: its control cases and one whole-body run per case

The kernel body has two conditionals on the inner grid coordinate `k`: the first (`k = 0`) resets the
accumulator, the second (`k = 7`) runs the epilogue. Three assignments of them occur on the grid:
A (`k = 0`), B (`0 < k < 7`), C (`k = 7`). -/

/-! ## The two conditions, in closed form over the grid -/

/-- The condition of the first conditional, as the skeleton spells it: the inner coordinate is zero. -/
abbrev cond0 (i : grid0.Coords) : Prop := (Scalar.cmpi .ne (Scalar.extui (Scalar.cmpi .eq (BitVec.ofNat 32 (i 1).val) 0#32)) 0#32) = 1#1
/-- It holds exactly at the points whose position is a multiple of 8. -/
theorem hcond0 : ∀ t : Fin cfg0.N, cond0 (grid0.coords t) ↔ t.val % 8 = 0 :=
  (by decide +kernel : ∀ t : Fin grid0.N, cond0 (grid0.coords t) ↔ t.val % 8 = 0)

/-- The condition of the second conditional: the inner coordinate is the last one. -/
abbrev cond1 (i : grid0.Coords) : Prop := k0_cond2 i = 1#1
/-- It holds exactly at the points whose position is 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

/-- The five input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last inner step the output window is idle: nothing is stored into it, -/
theorem idle5 : ∀ t : Fin cfg0.N, ¬cond1 (grid0.coords t) → cfg0.idle 5 (grid0.coords t) = true := by decide +kernel
/-- and its block is not written back there. -/
theorem noFlush5 : ∀ t : Fin cfg0.N, ¬cond1 (grid0.coords t) → (cfg0.win 5).flush t = false := by decide +kernel
/-- At the last inner step the output window is live. -/
theorem live5 : ∀ t : Fin cfg0.N, cond1 (grid0.coords t) → cfg0.idle 5 (grid0.coords t) = false := by decide +kernel

/-! ## The memrefs the body is called with -/

/-- One staging buffer of the output window, through which its contents are stated (the choice does not matter). -/
abbrev VO : View sig .tc .vmem S1024x1024 .f32 := (Memref.whole cc0_stg5_0 : Memref sig .tc .vmem S1024x1024 .f32).view
/-- Each window's current staging memref at point `t`, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
/-- The accumulator: a whole scoped buffer of the kernel's own, passed beside the windows. -/
abbrev scM : Memref sig .tc .vmem S1024x1024 .f32 := Memref.whole cc0_scratch0
/-- The accumulator as a view: what it holds is stated through it. -/
abbrev VS : View sig .tc .vmem S1024x1024 .f32 := scM.view

/-- The core's scoped buffers that belong to the second region (its staging buffers), each whole at some contents:
    the encoder never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's resting invariant with the accumulator singled out as a memref owned at some contents, beside the
    second region's buffers and the generator register. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-! ## The whole-body runs -/

set_option maxHeartbeats 1000000 in
/-- CASE A (the inner coordinate is zero). On whole memrefs, the two matmul operands' at contents `x0`, `x1` and the
    accumulator at anything, the body runs to the continuation holding the operands' as they were and the accumulator
    with the pieces `LS` written: the zero splat, then the sum over it. The other four memrefs are not touched. -/
noncomputable def runA (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : cond0 i) (hc1 : ¬cond1 i)
    (x0 : Vec F S1024x2048 .f32) (x1 : Vec F S1024x2048 .f32) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- CASE B (the inner coordinate is neither zero nor last). As case A, with the accumulator at the contents `xs` the
    point before left: the one store adds the block product to it. -/
noncomputable def runB (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0 i) (hc1 : ¬cond1 i)
    (x0 : Vec F S1024x2048 .f32) (x1 : Vec F S1024x2048 .f32) (xs : Vec F S1024x1024 .f32) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- CASE C (the inner coordinate is the last). The accumulation as in case B, then the epilogue: it loads the
    accumulator, the three row vectors (at contents `x2`, `x3`, `x4`) and the output buffer (at anything), and stores
    the output; the continuation gets the five inputs' memrefs as they were, the output's with the pieces `L5`
    written and the accumulator's with `LS`. -/
noncomputable def runC (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0 i) (hc1 : cond1 i)
    (x0 : Vec F S1024x2048 .f32) (x1 : Vec F S1024x2048 .f32) (x2 : Vec F S1024 .f32) (x3 : Vec F S1024 .f32) (x4 : Vec F S1024 .f32) (xs : Vec F S1024x1024 .f32) :
    Σ' (L5 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R0

end
-- ==== Proof.R0Body.lean ====
import proofs.«104290_j46119358825052_2_alg».proof.Proof.Gen.KernelIdeal.Launch
import proofs.«104290_j46119358825052_2_alg».proof.Proof.Gen.KernelIdeal.Skeleton
import proofs.«104290_j46119358825052_2_alg».proof.Proof.Gen.KernelIdeal.Points
import proofs.«104290_j46119358825052_2_alg».proof.Proof.R0Runs
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder region, point by point: what the buffers hold, the invariant, the proof data, the body obligation

Everything here is stated at the contents `V` the buffers hold when the region is entered — a parameter. -/

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    window's block index has not moved), for any proof data whose array is `V`'s and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output buffer -/

/-- The run of case A at point `t`: on the point's memrefs and the two operand blocks there. -/
def atA (c : Dev nD) (t : Fin cfg0.N) (h0 : t.val % 8 = 0) :=
  runA (F := F) c (grid0.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => by have := (hcond1 t).mp h; omega) (iblk V c 0 t) (iblk V c 1 t)
/-- The run of case B at point `t`, over the accumulator's contents `xs` before the point. -/
def atB (c : Dev nD) (t : Fin cfg0.N) (h0 : ¬t.val % 8 = 0) (h1 : ¬t.val % 8 = 7) (xs : Vec F S1024x1024 .f32) :=
  runB (F := F) c (grid0.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) xs
/-- The run of case C at point `t`, over the accumulator's contents `xs` before the point. -/
def atC (c : Dev nD) (t : Fin cfg0.N) (h0 : ¬t.val % 8 = 0) (h1 : t.val % 8 = 7) (xs : Vec F S1024x1024 .f32) :=
  runC (F := F) c (grid0.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) xs

/-- Each case's pieces for the accumulator tile it, so they cover it. -/
theorem scoverA (c : Dev nD) (t : Fin cfg0.N) (h0 : t.val % 8 = 0) (y : S1024x1024.Idx) :
    ∃ pc ∈ (atA V c t h0).1, y ∈ pc.1.set := by
  unfold atA; exact View.cover_of_tiledL _ S1024x1024.size (by sl_kernel_rfl) y
theorem scoverB (c : Dev nD) (t : Fin cfg0.N) (h0 : ¬t.val % 8 = 0) (h1 : ¬t.val % 8 = 7) (xs : Vec F S1024x1024 .f32) (y : S1024x1024.Idx) :
    ∃ pc ∈ (atB V c t h0 h1 xs).1, y ∈ pc.1.set := by
  unfold atB; exact View.cover_of_tiledL _ S1024x1024.size (by sl_kernel_rfl) y
theorem scoverC (c : Dev nD) (t : Fin cfg0.N) (h0 : ¬t.val % 8 = 0) (h1 : t.val % 8 = 7) (xs : Vec F S1024x1024 .f32) (y : S1024x1024.Idx) :
    ∃ pc ∈ (atC V c t h0 h1 xs).2.1, y ∈ pc.1.set := by
  unfold atC; exact View.cover_of_tiledL _ S1024x1024.size (by sl_kernel_rfl) y
/-- Case C's one store into the output buffer covers it. -/
theorem coverC (c : Dev nD) (t : Fin cfg0.N) (h0 : ¬t.val % 8 = 0) (h1 : t.val % 8 = 7) (xs : Vec F S1024x1024 .f32) (y : S1024x1024.Idx) :
    ∃ pc ∈ (atC V c t h0 h1 xs).1, y ∈ pc.1.set := by
  unfold atC; exact View.cover_of_tiledL _ S1024x1024.size (by sl_kernel_rfl) y

/-- What each case leaves in the accumulator: its pieces read back over junk. -/
def accA (c : Dev nD) (t : Fin cfg0.N) (h0 : t.val % 8 = 0) : Vec F S1024x1024 .f32 :=
  VS.read (Elt F) (VS.writes (Elt F) VS.junk (atA V c t h0).1)
def accB (c : Dev nD) (t : Fin cfg0.N) (h0 : ¬t.val % 8 = 0) (h1 : ¬t.val % 8 = 7) (xs : Vec F S1024x1024 .f32) : Vec F S1024x1024 .f32 :=
  VS.read (Elt F) (VS.writes (Elt F) VS.junk (atB V c t h0 h1 xs).1)
def accC (c : Dev nD) (t : Fin cfg0.N) (h0 : ¬t.val % 8 = 0) (h1 : t.val % 8 = 7) (xs : Vec F S1024x1024 .f32) : Vec F S1024x1024 .f32 :=
  VS.read (Elt F) (VS.writes (Elt F) VS.junk (atC V c t h0 h1 xs).2.1)
/-- What case C leaves in the output buffer. -/
def outC (c : Dev nD) (t : Fin cfg0.N) (h0 : ¬t.val % 8 = 0) (h1 : t.val % 8 = 7) (xs : Vec F S1024x1024 .f32) : Vec F S1024x1024 .f32 :=
  VO.read (Elt F) (VO.writes (Elt F) VO.junk (atC V c t h0 h1 xs).1)
/-- At the points where the output window is idle nothing consults its contents: a placeholder. -/
def outIdle : Vec F S1024x1024 .f32 := VO.read (Elt F) VO.junk

/-! ## What the output buffer and the accumulator hold after each point -/

/-- THE ACCUMULATION: (the output window's staging buffer, the accumulator) after the body at position `n` — the case
    the position selects, run over what the position before left in the accumulator. -/
def outsAt (c : Dev nD) : (n : ℕ) → n < cfg0.N → Vec F S1024x1024 .f32 × Vec F S1024x1024 .f32
  | 0, hn => (outIdle, accA V c ⟨0, hn⟩ (Nat.zero_mod _))
  | n + 1, hn =>
    if h0 : (n + 1) % 8 = 0 then
      (outIdle, accA V c ⟨n + 1, hn⟩ h0)
    else
      if h1 : (n + 1) % 8 = 7 then
        (outC V c ⟨n + 1, hn⟩ h0 h1 (outsAt c n (Nat.lt_of_succ_lt hn)).2, accC V c ⟨n + 1, hn⟩ h0 h1 (outsAt c n (Nat.lt_of_succ_lt hn)).2)
      else
        (outIdle, accB V c ⟨n + 1, hn⟩ h0 h1 (outsAt c n (Nat.lt_of_succ_lt hn)).2)

/-- `outsAt` at a point of case A. -/
theorem outsAt_A (c : Dev nD) (t : Fin cfg0.N) (h0 : t.val % 8 = 0) :
    outsAt V c t.val t.isLt = (outIdle, accA V c t h0) := by
  obtain ⟨n, hn⟩ := t
  cases n with
  | zero => exact rfl
  | succ n => exact (dif_pos h0).trans rfl

/-- `outsAt` at a point of case B: over what the point before left. -/
theorem outsAt_B (c : Dev nD) (t : Fin cfg0.N) (h0 : ¬t.val % 8 = 0) (h1 : ¬t.val % 8 = 7) :
    outsAt V c t.val t.isLt = (outIdle, accB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt` at a point of case C: over what the point before left. -/
theorem outsAt_C (c : Dev nD) (t : Fin cfg0.N) (h0 : ¬t.val % 8 = 0) (h1 : t.val % 8 = 7) :
    outsAt V c t.val t.isLt = (outC V c t h0 h1 (outsAt V c (t.val - 1) (Nat.lt_of_le_of_lt (Nat.sub_le _ _) t.isLt)).2, accC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- The region invariant before position `n`: before the first point the resting one (the accumulator at anything);
    afterwards the same with the accumulator at what the point before left in it. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ others (F := F) c) ∗ (∃ r, prngReg c r)) := by
  cases n with
  | zero => exact absurd rfl hz
  | succ n => rfl

/-! ## The proof data -/

/-- The proof data of the encoder's pipeline on core `c`: the arrays as the region finds them; after the body at
    point `t` each input's buffer at its block and the output's at `outsAt`'s first component; the invariant `PhiS`;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (outsAt V c t.val t.isLt).1 := by dsimp only [dat]

/-- Each input's current staging buffer holds its block at every point. -/
theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the position says which case the point is in, so that
    case's run applies; the invariant hands the body the accumulator at what the point before left (at anything at the
    first point) and takes it back at this point's contents (the pieces cover it); the second region's buffers, the
    generator register and the core's debts pass through; where the output window is idle its buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms0 t) fullShare ((dat V c).after 0 t) from by
          unfold Dat.leavesExact; rw [live0 t], after_0]
  rw [show (dat V c).leavesExact 1 t = owns (c : Thread nD τ) (ms1 t) fullShare ((dat V c).after 1 t) from by
          unfold Dat.leavesExact; rw [live1 t], after_1]
  rw [show (dat V c).leavesExact 2 t = owns (c : Thread nD τ) (ms2 t) fullShare ((dat V c).after 2 t) from by
          unfold Dat.leavesExact; rw [live2 t], after_2]
  rw [show (dat V c).leavesExact 3 t = owns (c : Thread nD τ) (ms3 t) fullShare ((dat V c).after 3 t) from by
          unfold Dat.leavesExact; rw [live3 t], after_3]
  rw [show (dat V c).leavesExact 4 t = owns (c : Thread nD τ) (ms4 t) fullShare ((dat V c).after 4 t) from by
          unfold Dat.leavesExact; rw [live4 t], after_4]
  by_cases h0 : t.val % 8 = 0
  · have h1 : ¬t.val % 8 = 7 := by omega
    rw [Dat.leavesExact_idle (dat V c) 5 t (idle5 t (fun h => h1 ((hcond1 t).mp h))) (noFlush5 t (fun h => h1 ((hcond1 t).mp h)))]
    rw [outsAt_A V c t h0]
    unfold accA; (try dsimp only)
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩, ⟨%d3, H3⟩, ⟨%d4, H4⟩, H5⟩
      iapply ((atA V c t h0).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverA V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, H5⟩
      iapply ((atA V c t h0).2 Set.univ _)
      isplitl [H0]; · iexact H0
      isplitl [H1]; · iexact H1
      isplitl [HS]; · iexists _; iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverA V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    by_cases h1 : t.val % 8 = 7
    · rw [show (dat V c).leavesExact 5 t = owns (c : Thread nD τ) (ms5 t) fullShare ((dat V c).after 5 t) from by
          unfold Dat.leavesExact; rw [live5 t ((hcond1 t).mpr h1)], after_5]
      rw [outsAt_C V c t h0 h1]
      unfold outC accC; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atC V c t h0 h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (scoverC V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h0 h1 _)
    · rw [Dat.leavesExact_idle (dat V c) 5 t (idle5 t (fun h => h1 ((hcond1 t).mp h))) (noFlush5 t (fun h => h1 ((hcond1 t).mp h)))]
      rw [outsAt_B V c t h0 h1]
      unfold accB; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, H5⟩
      iapply ((atB V c t h0 h1 _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverB V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the resting one back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Cert.KernelIdeal.R0

end
-- ==== Proof.R1Body.lean ====
import proofs.«104290_j46119358825052_2_alg».proof.Proof.Gen.KernelIdeal.Launch
import proofs.«104290_j46119358825052_2_alg».proof.Proof.Gen.KernelIdeal.Skeleton
import proofs.«104290_j46119358825052_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # The decoder region's half of the frame proof

The decoder kernel has one control case: it loads its five input buffers whole, loads the output buffer, and
stores the output buffer whole with one payload of the five loaded values. Everything here is stated at a
parameter: the buffers' contents when the region is entered. -/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (an unfetched window's block index has not moved since the last fetch), for any proof data whose array is the
    entry contents and whose body leaves the block in place. One statement per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole, through the unit rectangle at zero offsets -/

abbrev rA : Rect S1024x2048 := Rect.unit (s := S1024x2048) ![0, 0] S1024x2048.size inb_S1024x2048_S1024x2048_0_0
abbrev rB : Rect S2048 := Rect.unit (s := S2048) ![0] S2048.size inb_S2048_S2048_0
abbrev rC : Rect S1024 := Rect.unit (s := S1024) ![0] S1024.size inb_S1024_S1024_0
abbrev rO : Rect S1024x1024 := Rect.unit (s := S1024x1024) ![0, 0] S1024x1024.size inb_S1024x1024_S1024x1024_0_0

/-! ## What the body leaves in the output window's buffer -/

/-- The output buffer after the body, from the input windows' blocks: its one store as a piece, the payload over
    the five loads. -/
def out5 (x0 : Vec F S1024x2048 .f32) (x1 x2 : Vec F S2048 .f32) (x3 : Vec F S1024x2048 .f32) (x4 : Vec F S1024 .f32) :
    Vec F S1024x1024 .f32 :=
  View.canon [⟨rO, k1_pay1 (View.ld x0 rA) (View.ld x1 rB) (View.ld x2 rB) (View.ld x3 rA) (View.ld x4 rC)⟩]

/-- The one store tiles the buffer, so it covers it. -/
theorem cover5 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-- A whole-buffer store of a payload of whole-buffer loads leaves the payload of the buffers. -/
theorem out5_eq (x0 : Vec F S1024x2048 .f32) (x1 x2 : Vec F S2048 .f32) (x3 : Vec F S1024x2048 .f32) (x4 : Vec F S1024 .f32) :
    out5 x0 x1 x2 x3 x4 = k1_pay1 x0 x1 x2 x3 x4 := by
  have hz2 : (![0, 0] : Fin S1024x1024.rank → Nat) = fun _ => 0 := funext fun a => by fin_cases a <;> rfl
  have hzA : (![0, 0] : Fin S1024x2048.rank → Nat) = fun _ => 0 := funext fun a => by fin_cases a <;> rfl
  have hzB : (![0] : Fin S2048.rank → Nat) = fun _ => 0 := funext fun a => by fin_cases a; rfl
  have hzC : (![0] : Fin S1024.rank → Nat) = fun _ => 0 := funext fun a => by fin_cases a; rfl
  unfold out5
  rw [View.canon_unit_zero (S := S1024x1024) hz2, View.ld_unit_zero (S := S1024x2048) hzA, View.ld_unit_zero (S := S1024x2048) hzA,
    View.ld_unit_zero (S := S2048) hzB, View.ld_unit_zero (S := S2048) hzB, View.ld_unit_zero (S := S1024) hzC]

/-! ## The body's triple -/

set_option maxHeartbeats 1000000 in
/-- The kernel body on whole staging memrefs, the inputs' at contents x0 … x4 and the output's at anything, runs to
    the continuation holding the inputs' as they were and the output's at out5 of the inputs'. The load of the
    output buffer reads whatever it holds and its value is not used. -/
theorem sound_kernel (c : Dev nD) (E : Set ℕ) (i : grid1.Coords)
    (arg1 : Memref sig .tc .vmem S1024x2048 .f32) (harg1 : arg1.IsWhole) (arg2 : Memref sig .tc .vmem S2048 .f32) (harg2 : arg2.IsWhole)
    (arg3 : Memref sig .tc .vmem S2048 .f32) (harg3 : arg3.IsWhole) (arg4 : Memref sig .tc .vmem S1024x2048 .f32) (harg4 : arg4.IsWhole)
    (arg5 : Memref sig .tc .vmem S1024 .f32) (harg5 : arg5.IsWhole) (arg6 : Memref sig .tc .vmem S1024x1024 .f32) (harg6 : arg6.IsWhole)
    (x0 : Vec F S1024x2048 .f32) (x1 x2 : Vec F S2048 .f32) (x3 : Vec F S1024x2048 .f32) (x4 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc1__decoder_kernel i arg1 harg1 arg2 harg2 arg3 harg3 arg4 harg4 arg5 harg5 arg6 harg6) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the decoder's pipeline on core c: the arrays as the region finds them; after the body at
    point t each input's buffer at its block and the output's at out5 of the five input blocks; the invariant
    is the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out5 (iblk V c 0 t) (iblk V c 1 t) (iblk V c 2 t) (iblk V c 3 t) (iblk V c 4 t) := by dsimp only [dat]

/-- The invariant is the class's at every point. -/
theorem Phi_eq (c : Dev nD) (t : Fin (cfg1.N + 1)) : (dat V c).Φ t = (Pipeline.ΦA spec1 c : sProp 𝕄) := rfl

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant
    and the core's owed count pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.Run.lean ====
/-
  The program's run. The host program is seven items — a host stretch, the encoder region, three host stretches of the
  latent computation, the decoder region, a last host stretch — and the buffers' contents at each boundary between two
  items are named: a host stretch folds its operations' results over what it found; a region leaves its arrays at what
  its write-backs make of them and every other buffer as it found it. Each region is entered from, and left at, the
  thread state "every unscoped buffer whole at the boundary's contents, the generator register at some state, nothing
  owed". Every weakly fair execution terminates, faulting nowhere, with every unscoped buffer at the last contents.
-/
import proofs.«104290_j46119358825052_2_alg».proof.Proof.Gen.KernelIdeal.Launch
import proofs.«104290_j46119358825052_2_alg».proof.Proof.Gen.KernelIdeal.Skeleton
import proofs.«104290_j46119358825052_2_alg».proof.Proof.Gen.KernelIdeal.Points
import proofs.«104290_j46119358825052_2_alg».proof.Proof.Gen.KernelIdeal.Regions
import proofs.«104290_j46119358825052_2_alg».proof.Proof.R0Body
import proofs.«104290_j46119358825052_2_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.KernelIdeal.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the host program -/

/-- A core's buffers when the program starts. -/
abbrev W0 : Dev nD → Valuation τ sig (Elt F) := fun c b => (s₀ m ρ).mem ((c : Dev nD), b)
/-- After the first host stretch (the input reshaped to a matrix): what the encoder region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the encoder region: its arrays at what the write-backs leave, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches of the latent computation: what the decoder region is entered from. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- After the decoder region. -/
def W6 (c : Dev nD) : Valuation τ sig (Elt F) :=
  Pipeline.withArrays spec1 c (W5 m ρ c) fun w => (R1.dat (V5 m ρ) c).arrAt w cfg1.N
theorem W6_arr (c : Dev nD) (w : Fin cfg1.W) :
    W6 m ρ c (Proc.devRef .tc (Pipeline.arrRef spec1 w)) = (R1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (R1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last host stretch (the output reshaped back): the contents the program ends with. -/
abbrev W7 : Dev nD → Valuation τ sig (Elt F) := fun c => StableHlo.after hostOps2 (W6 m ρ c)

/-! ## The proof data of the two regions, and what rides beside the buffers -/

abbrev adm : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V5 m ρ) c
abbrev 𝒱₀ : Variants := Variants.none
abbrev L : GSem nD τ sig → Finset Unit := fun _ => ∅
abbrev lv : GSem nD τ sig → Unit → ℕ := fun _ _ => 0
/-- Beside the buffers every item carries the core's generator register at some state and the fact that it owes nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The two regions as segments -/

set_option backward.isDefEq.respectTransparency.types false in
/-- The encoder region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := R0.hin (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := R0.hout (V1 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder region: entered with every unscoped buffer at `W5`, left with them at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from R1.Phi_eq (V5 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from R1.Phi_eq (V5 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host program as its seven items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, faulting nowhere, and
    ends with every unscoped buffer of every core at `W7`: the launch theorem over the seven items, the last thread
    state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KernelValue.lean ====
/-
  The program's last contents, read. A region that writes one array leaves what a single host operation writing that
  array would leave, so each boundary's contents is a fold of host operations over the launch contents: the host
  stretches' own, and one operation per region that puts the region's output array in place. A buffer that no host
  stretch and no region writes — every argument — ends as launched.
-/
import proofs.«104290_j46119358825052_2_alg».proof.Proof.Run
import proofs.«104290_j46119358825052_2_alg».proof.Proof.LibRegionOut
import Idealize.ShloMosaic.Lib.StableHlo.Run

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Hand

variable {F : FTy → Type} [FloatOps F]
variable (m : (ℓ : Loc nD τ sig) → Buf (Elt F) ℓ) (ρ : Dev nD → PrngReg)

/-- What the encoder region leaves in its output array. -/
def encOut (c : Dev nD) : (⟨S1024x2048, .f32⟩ : BufTy).Contents (Elt F) := (R0.dat (V1 m ρ) c).arrAt 5 cfg0.N
/-- What the decoder region leaves in its output array. -/
def decOut (c : Dev nD) : (⟨S1024x16384, .f32⟩ : BufTy).Contents (Elt F) := (R1.dat (V5 m ρ) c).arrAt 5 cfg1.N

/-- The encoder region as one operation: it puts `encOut` in its output array and touches nothing else. -/
theorem W2_eq (c : Dev nD) : W2 m ρ c = (StableHlo.nullary main_v1 (encOut m ρ c) : HloOp τ sig (Elt F)).result (W1 m ρ c) := by
  unfold W2
  refine Cert.LibRegionOut.withArrays_eq_result spec0 launch0.win.arr_inj c (W1 m ρ c) _ _ 5 (StableHlo.nullary_writes _ _ _) (fun w hw => ?_) ?_
  · have hin : (cfg0.win w).isOut = false := by
      match w, hw with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    exact ((R0.dat (V1 m ρ) c).arrAt_in w hin _).trans (R0.A_eq (V1 m ρ) c w)
  · exact (StableHlo.nullary_result main_v1 (encOut m ρ c) _ (W1 m ρ c)).symm

/-- The decoder region as one operation. -/
theorem W6_eq (c : Dev nD) : W6 m ρ c = (StableHlo.nullary main_v41 (decOut m ρ c) : HloOp τ sig (Elt F)).result (W5 m ρ c) := by
  unfold W6
  refine Cert.LibRegionOut.withArrays_eq_result spec1 launch1.win.arr_inj c (W5 m ρ c) _ _ 5 (StableHlo.nullary_writes _ _ _) (fun w hw => ?_) ?_
  · have hin : (cfg1.win w).isOut = false := by
      match w, hw with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    exact ((R1.dat (V5 m ρ) c).arrAt_in w hin _).trans (R1.A_eq (V5 m ρ) c w)
  · exact (StableHlo.nullary_result main_v41 (decOut m ρ c) _ (W5 m ρ c)).symm

/-- A buffer that no host stretch writes and that is neither region's output array ends as launched. -/
theorem W7_keep (c : Dev nD) (r : Ref sig .tc) (h0 : r ∉ hostOps0_W) (h1 : r ∉ hostOps1_W) (h11 : r ∉ hostOps1_1_W)
    (h12 : r ∉ hostOps1_2_W) (h2 : r ∉ hostOps2_W) (hv1 : r ≠ main_v1) (hv41 : r ≠ main_v41) :
    W7 m ρ c (Proc.devRef .tc r) = m ((c : Thread nD τ).loc r) := by
  have e7 : W7 m ρ c (Proc.devRef .tc r) = W6 m ρ c (Proc.devRef .tc r) := StableHlo.after_of_writes_sub hostOps2 _ hostOps2_writes h2
  have e6 : W6 m ρ c (Proc.devRef .tc r) = W5 m ρ c (Proc.devRef .tc r) := by
    rw [W6_eq]
    exact HloOp.result_of_not_mem _ _ (by
      rw [StableHlo.nullary_writes, Finset.mem_singleton]; exact fun e => hv41 (Proc.devRef_injective _ e))
  have e5 : W5 m ρ c (Proc.devRef .tc r) = W4 m ρ c (Proc.devRef .tc r) := StableHlo.after_of_writes_sub hostOps1_2 _ hostOps1_2_writes h12
  have e4 : W4 m ρ c (Proc.devRef .tc r) = W3 m ρ c (Proc.devRef .tc r) := StableHlo.after_of_writes_sub hostOps1_1 _ hostOps1_1_writes h11
  have e3 : W3 m ρ c (Proc.devRef .tc r) = W2 m ρ c (Proc.devRef .tc r) := StableHlo.after_of_writes_sub hostOps1 _ hostOps1_writes h1
  have e2 : W2 m ρ c (Proc.devRef .tc r) = W1 m ρ c (Proc.devRef .tc r) := by
    rw [W2_eq]
    exact HloOp.result_of_not_mem _ _ (by
      rw [StableHlo.nullary_writes, Finset.mem_singleton]; exact fun e => hv1 (Proc.devRef_injective _ e))
  have e1 : W1 m ρ c (Proc.devRef .tc r) = W0 m ρ c (Proc.devRef .tc r) := StableHlo.after_of_writes_sub hostOps0 _ hostOps0_writes h0
  exact e7.trans (e6.trans (e5.trans (e4.trans (e3.trans (e2.trans (e1.trans rfl))))))

end Cert.KernelIdeal.Hand

end
-- ==== Proof.RefRun.lean ====
/-
  The reference program's run, read back. Its host program is a straight line of 126 operations, so every weakly fair
  execution terminates and leaves each buffer at the operations' results folded over the launch contents; a buffer that
  no operation writes — every argument — ends as launched. The fold is kept folded: a result is read out of it stage
  by stage where it is used, never as one composed term of the arguments.
-/
import proofs.«104290_j46119358825052_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 126 operations, in order (a called function's operations stand in its call's place, spelt `TRef.…`). -/
abbrev ops : List (HloOp τ sig (Elt F)) :=
  [ reshape main_arg0 main_v0 rfl shapeCasts_S1024x64x16x16_S1024x16384,
    unary main_arg1 main_v1 ((transpose S16384x2048 [1, 0] · transposes_S2048x16384_S16384x2048_1_0) : (⟨S2048x16384, .f32⟩ : BufTy).Contents (Elt F) → (⟨S16384x2048, .f32⟩ : BufTy).Contents (Elt F)),
    binary main_v0 main_v1 main_v2 ((fun l r => Host.dotGeneral dot_S1024x16384_S16384x2048_S1024x2048_1_0_0_1_n_n none l r) : (⟨S1024x16384, .f32⟩ : BufTy).Contents (Elt F) → (⟨S16384x2048, .f32⟩ : BufTy).Contents (Elt F) → (⟨S1024x2048, .f32⟩ : BufTy).Contents (Elt F)),
    unary main_arg2 main_v3 (broadcastInDim S1x2048 ![1] bcast_S2048_S1x2048_1 : (⟨S2048, .f32⟩ : BufTy).Contents (Elt F) → (⟨S1x2048, .f32⟩ : BufTy).Contents (Elt F)),
    unary main_v3 main_v4 (broadcastInDim S1024x2048 ![0, 1] bcast_S1x2048_S1024x2048_0_1 : (⟨S1x2048, .f32⟩ : BufTy).Contents (Elt F) → (⟨S1024x2048, .f32⟩ : BufTy).Contents (Elt F)),
    binary main_v2 main_v4 main_v5 (addf : (⟨S1024x2048, .f32⟩ : BufTy).Contents (Elt F) → (⟨S1024x2048, .f32⟩ : BufTy).Contents (Elt F) → (⟨S1024x2048, .f32⟩ : BufTy).Contents (Elt F)),
    nullary main_cst (constant S_ .f32 0x00000000#32),
    binary main_v5 main_cst main_v6 ((fun x v => Host.reduceAdd x v reducesTo_S1024x2048_S2048_d0 h_S_) : (⟨S1024x2048, .f32⟩ : BufTy).Contents (Elt F) → (⟨S_, .f32⟩ : BufTy).Contents (Elt F) → (⟨S2048, .f32⟩ : BufTy).Contents (Elt F)),
    nullary main_cst_0 (constant S_ .f32 0x44800000#32),
    unary main_cst_0 main_v7 (broadcastInDim S2048 ![] bcast_S_S2048 : (⟨S_, .f32⟩ : BufTy).Contents (Elt F) → (⟨S2048, .f32⟩ : BufTy).Contents (Elt F)),
    binary main_v6 main_v7 main_v8 (Host.divf : (⟨S2048, .f32⟩ : BufTy).Contents (Elt F) → (⟨S2048, .f32⟩ : BufTy).Contents (Elt F) → (⟨S2048, .f32⟩ : BufTy).Contents (Elt F)),
    unary main_v8 main_v9 (broadcastInDim S1x2048 ![1] bcast_S2048_S1x2048_1 : (⟨S2048, .f32⟩ : BufTy).Contents (Elt F) → (⟨S1x2048, .f32⟩ : BufTy).Contents (Elt F)),
    unary main_v9 main_v10 (broadcastInDim S1024x2048 ![0, 1] bcast_S1x2048_S1024x2048_0_1 : (⟨S1x2048, .f32⟩ : BufTy).Contents (Elt F) → (⟨S1024x2048, .f32⟩ : BufTy).Contents (Elt F)),
    binary main_v5 main_v10 main_v11 (subf : (⟨S1024x2048, .f32⟩ : BufTy).Contents (Elt F) → (⟨S1024x2048, .f32⟩ : BufTy).Contents (Elt F) → (⟨S1024x2048, .f32⟩ : BufTy).Contents (Elt F)),
    binary main_v11 main_v11 main_v12 (mulf : (⟨S1024x2048, .f32⟩ : BufTy).Contents (Elt F) → (⟨S1024x2048, .f32⟩ : BufTy).Contents (Elt F) → (⟨S1024x2048, .f32⟩ : BufTy).Contents (Elt F)),
    nullary main_cst_1 (constant S_ .f32 0x00000000#32),
    binary main_v12 main_cst_1 main_v13 ((fun x v => Host.reduceAdd x v reducesTo_S1024x2048_S2048_d0 h_S_) : (⟨S1024x2048, .f32⟩ : BufTy).Contents (Elt F) → (⟨S_, .f32⟩ : BufTy).Contents (Elt F) → (⟨S2048, .f32⟩ : BufTy).Contents (Elt F)),
    nullary main_cst_2 (constant S_ .f32 0x44800000#32),
    unary main_cst_2 main_v14 (broadcastInDim S2048 ![] bcast_S_S2048 : (⟨S_, .f32⟩ : BufTy).Contents (Elt F) → (⟨S2048, .f32⟩ : BufTy).Contents (Elt F)),
    binary main_v13 main_v14 main_v15 (Host.divf : (⟨S2048, .f32⟩ : BufTy).Contents (Elt F) → (⟨S2048, .f32⟩ : BufTy).Contents (Elt F) → (⟨S2048, .f32⟩ : BufTy).Contents (Elt F)),
    unary main_v8 main_v16 (broadcastInDim S1x2048 ![1] bcast_S2048_S1x2048_1 : (⟨S2048, .f32⟩ : BufTy).Contents (Elt F) → (⟨S1x2048, .f32⟩ : BufTy).Contents (Elt F)),
    unary main_v16 main_v17 (broadcastInDim S1024x2048 ![0, 1] bcast_S1x2048_S1024x2048_0_1 : (⟨S1x2048, .f32⟩ : BufTy).Contents (Elt F) → (⟨S1024x2048, .f32⟩ : BufTy).Contents (Elt F)),
    binary main_v5 main_v17 main_v18 (subf : (⟨S1024x2048, .f32⟩ : BufTy).Contents (Elt F) → (⟨S1024x2048, .f32⟩ : BufTy).Contents (Elt F) → (⟨S1024x2048, .f32⟩ : BufTy).Contents (Elt F)),
    nullary main_cst_3 (constant S_ .f32 0x3727C5AC#32),
    unary main_cst_3 main_v19 (broadcastInDim S2048 ![] bcast_S_S2048 : (⟨S_, .f32⟩ : BufTy).Contents (Elt F) → (⟨S2048, .f32⟩ : BufTy).Contents (Elt F)),
    binary main_v15 main_v19 main_v20 (addf : (⟨S2048, .f32⟩ : BufTy).Contents (Elt F) → (⟨S2048, .f32⟩ : BufTy).Contents (Elt F) → (⟨S2048, .f32⟩ : BufTy).Contents (Elt F)),
    unary main_v20 main_v21 (Host.rsqrt : (⟨S2048, .f32⟩ : BufTy).Contents (Elt F) → (⟨S2048, .f32⟩ : BufTy).Contents (Elt F)),
    unary main_v21 main_v22 (broadcastInDim S1x2048 ![1] bcast_S2048_S1x2048_1 : (⟨S2048, .f32⟩ : BufTy).Contents (Elt F) → (⟨S1x2048, .f32⟩ : BufTy).Contents (Elt F)),
    unary main_v22 main_v23 (broadcastInDim S1024x2048 ![0, 1] bcast_S1x2048_S1024x2048_0_1 : (⟨S1x2048, .f32⟩ : BufTy).Contents (Elt F) → (⟨S1024x2048, .f32⟩ : BufTy).Contents (Elt F)),
    binary main_v18 main_v23 main_v24 (mulf : (⟨S1024x2048, .f32⟩ : BufTy).Contents (Elt F) → (⟨S1024x2048, .f32⟩ : BufTy).Contents (Elt F) → (⟨S1024x2048, .f32⟩ : BufTy).Contents (Elt F)),
    unary main_arg3 main_v25 (broadcastInDim S1x2048 ![1] bcast_S2048_S1x2048_1 : (⟨S2048, .f32⟩ : BufTy).Contents (Elt F) → (⟨S1x2048, .f32⟩ : BufTy).Contents (Elt F)),
    unary main_v25 main_v26 (broadcastInDim S1024x2048 ![0, 1] bcast_S1x2048_S1024x2048_0_1 : (⟨S1x2048, .f32⟩ : BufTy).Contents (Elt F) → (⟨S1024x2048, .f32⟩ : BufTy).Contents (Elt F)),
    binary main_v24 main_v26 main_v27 (mulf : (⟨S1024x2048, .f32⟩ : BufTy).Contents (Elt F) → (⟨S1024x2048, .f32⟩ : BufTy).Contents (Elt F) → (⟨S1024x2048, .f32⟩ : BufTy).Contents (Elt F)),
    unary main_arg4 main_v28 (broadcastInDim S1x2048 ![1] bcast_S2048_S1x2048_1 : (⟨S2048, .f32⟩ : BufTy).Contents (Elt F) → (⟨S1x2048, .f32⟩ : BufTy).Contents (Elt F)),
    unary main_v28 main_v29 (broadcastInDim S1024x2048 ![0, 1] bcast_S1x2048_S1024x2048_0_1 : (⟨S1x2048, .f32⟩ : BufTy).Contents (Elt F) → (⟨S1024x2048, .f32⟩ : BufTy).Contents (Elt F)),
    binary main_v27 main_v29 main_v30 (addf : (⟨S1024x2048, .f32⟩ : BufTy).Contents (Elt F) → (⟨S1024x2048, .f32⟩ : BufTy).Contents (Elt F) → (⟨S1024x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1024x2048, .f32⟩) main_call0_v0) (broadcastInDim S1024x2048 ![] bcast_S_S1024x2048),
    TRef.binary (TRef.of (T := ⟨S1024x2048, .f32⟩) main_v30) (TRef.of (T := ⟨S1024x2048, .f32⟩) main_call0_v0) (TRef.of (T := ⟨S1024x2048, .f32⟩) main_v31) maximumf,
    unary main_arg5 main_v32 ((transpose S2048x16 [1, 0] · transposes_S16x2048_S2048x16_1_0) : (⟨S16x2048, .f32⟩ : BufTy).Contents (Elt F) → (⟨S2048x16, .f32⟩ : BufTy).Contents (Elt F)),
    binary main_v31 main_v32 main_v33 ((fun l r => Host.dotGeneral dot_S1024x2048_S2048x16_S1024x16_1_0_0_1_n_n none l r) : (⟨S1024x2048, .f32⟩ : BufTy).Contents (Elt F) → (⟨S2048x16, .f32⟩ : BufTy).Contents (Elt F) → (⟨S1024x16, .f32⟩ : BufTy).Contents (Elt F)),
    unary main_arg6 main_v34 (broadcastInDim S1x16 ![1] bcast_S16_S1x16_1 : (⟨S16, .f32⟩ : BufTy).Contents (Elt F) → (⟨S1x16, .f32⟩ : BufTy).Contents (Elt F)),
    unary main_v34 main_v35 (broadcastInDim S1024x16 ![0, 1] bcast_S1x16_S1024x16_0_1 : (⟨S1x16, .f32⟩ : BufTy).Contents (Elt F) → (⟨S1024x16, .f32⟩ : BufTy).Contents (Elt F)),
    binary main_v33 main_v35 main_v36 (addf : (⟨S1024x16, .f32⟩ : BufTy).Contents (Elt F) → (⟨S1024x16, .f32⟩ : BufTy).Contents (Elt F) → (⟨S1024x16, .f32⟩ : BufTy).Contents (Elt F)),
    unary main_arg7 main_v37 ((transpose S16x25 [1, 0] · transposes_S25x16_S16x25_1_0) : (⟨S25x16, .f32⟩ : BufTy).Contents (Elt F) → (⟨S16x25, .f32⟩ : BufTy).Contents (Elt F)),
    binary main_v36 main_v37 main_v38 ((fun l r => Host.dotGeneral dot_S1024x16_S16x25_S1024x25_1_0_0_1_n_n none l r) : (⟨S1024x16, .f32⟩ : BufTy).Contents (Elt F) → (⟨S16x25, .f32⟩ : BufTy).Contents (Elt F) → (⟨S1024x25, .f32⟩ : BufTy).Contents (Elt F)),
    nullary main_cst_4 (constant S_ .f32 0xFF800000#32),
    binary main_v38 main_cst_4 main_v39 ((fun x v => Host.reduce FloatOps.maximumf x v reducesTo_S1024x25_S1024_d1 h_S_) : (⟨S1024x25, .f32⟩ : BufTy).Contents (Elt F) → (⟨S_, .f32⟩ : BufTy).Contents (Elt F) → (⟨S1024, .f32⟩ : BufTy).Contents (Elt F)),
    nullary main_cst_5 (constant S_ .f32 0xFF800000#32),
    unary main_cst_5 main_v40 (broadcastInDim S1024 ![] bcast_S_S1024 : (⟨S_, .f32⟩ : BufTy).Contents (Elt F) → (⟨S1024, .f32⟩ : BufTy).Contents (Elt F)),
    binary main_v40 main_v39 main_v41 (maximumf : (⟨S1024, .f32⟩ : BufTy).Contents (Elt F) → (⟨S1024, .f32⟩ : BufTy).Contents (Elt F) → (⟨S1024, .f32⟩ : BufTy).Contents (Elt F)),
    unary main_v41 main_v42 (broadcastInDim S1024x1 ![0] bcast_S1024_S1024x1_0 : (⟨S1024, .f32⟩ : BufTy).Contents (Elt F) → (⟨S1024x1, .f32⟩ : BufTy).Contents (Elt F)),
    unary main_v42 main_v43 (broadcastInDim S1024x25 ![0, 1] bcast_S1024x1_S1024x25_0_1 : (⟨S1024x1, .f32⟩ : BufTy).Contents (Elt F) → (⟨S1024x25, .f32⟩ : BufTy).Contents (Elt F)),
    binary main_v38 main_v43 main_v44 (subf : (⟨S1024x25, .f32⟩ : BufTy).Contents (Elt F) → (⟨S1024x25, .f32⟩ : BufTy).Contents (Elt F) → (⟨S1024x25, .f32⟩ : BufTy).Contents (Elt F)),
    unary main_v44 main_v45 (Host.exp : (⟨S1024x25, .f32⟩ : BufTy).Contents (Elt F) → (⟨S1024x25, .f32⟩ : BufTy).Contents (Elt F)),
    nullary main_cst_6 (constant S_ .f32 0x00000000#32),
    binary main_v45 main_cst_6 main_v46 ((fun x v => Host.reduceAdd x v reducesTo_S1024x25_S1024_d1 h_S_) : (⟨S1024x25, .f32⟩ : BufTy).Contents (Elt F) → (⟨S_, .f32⟩ : BufTy).Contents (Elt F) → (⟨S1024, .f32⟩ : BufTy).Contents (Elt F)),
    unary main_v46 main_v47 (broadcastInDim S1024x1 ![0] bcast_S1024_S1024x1_0 : (⟨S1024, .f32⟩ : BufTy).Contents (Elt F) → (⟨S1024x1, .f32⟩ : BufTy).Contents (Elt F)),
    unary main_v47 main_v48 (broadcastInDim S1024x25 ![0, 1] bcast_S1024x1_S1024x25_0_1 : (⟨S1024x1, .f32⟩ : BufTy).Contents (Elt F) → (⟨S1024x25, .f32⟩ : BufTy).Contents (Elt F)),
    binary main_v45 main_v48 main_v49 (Host.divf : (⟨S1024x25, .f32⟩ : BufTy).Contents (Elt F) → (⟨S1024x25, .f32⟩ : BufTy).Contents (Elt F) → (⟨S1024x25, .f32⟩ : BufTy).Contents (Elt F)),
    nullary main_cst_7 (constant S_ .f32 0x3B23D70A#32),
    unary main_cst_7 main_v50 (broadcastInDim S1024x25 ![] bcast_S_S1024x25 : (⟨S_, .f32⟩ : BufTy).Contents (Elt F) → (⟨S1024x25, .f32⟩ : BufTy).Contents (Elt F)),
    binary main_v49 main_v50 main_v51 (subf : (⟨S1024x25, .f32⟩ : BufTy).Contents (Elt F) → (⟨S1024x25, .f32⟩ : BufTy).Contents (Elt F) → (⟨S1024x25, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x25, .f32⟩) main_call1_v0) (broadcastInDim S1024x25 ![] bcast_S_S1024x25),
    TRef.binary (TRef.of (T := ⟨S1024x25, .f32⟩) main_v51) (TRef.of (T := ⟨S1024x25, .f32⟩) main_call1_v0) (TRef.of (T := ⟨S1024x25, .f32⟩) main_v52) maximumf,
    binary main_v52 main_v49 main_v53 (mulf : (⟨S1024x25, .f32⟩ : BufTy).Contents (Elt F) → (⟨S1024x25, .f32⟩ : BufTy).Contents (Elt F) → (⟨S1024x25, .f32⟩ : BufTy).Contents (Elt F)),
    unary main_v51 main_v54 (Host.absf : (⟨S1024x25, .f32⟩ : BufTy).Contents (Elt F) → (⟨S1024x25, .f32⟩ : BufTy).Contents (Elt F)),
    nullary main_cst_8 (constant S_ .f32 0x2B8CBCCC#32),
    unary main_cst_8 main_v55 (broadcastInDim S1024x25 ![] bcast_S_S1024x25 : (⟨S_, .f32⟩ : BufTy).Contents (Elt F) → (⟨S1024x25, .f32⟩ : BufTy).Contents (Elt F)),
    binary main_v54 main_v55 main_v56 (addf : (⟨S1024x25, .f32⟩ : BufTy).Contents (Elt F) → (⟨S1024x25, .f32⟩ : BufTy).Contents (Elt F) → (⟨S1024x25, .f32⟩ : BufTy).Contents (Elt F)),
    binary main_v53 main_v56 main_v57 (Host.divf : (⟨S1024x25, .f32⟩ : BufTy).Contents (Elt F) → (⟨S1024x25, .f32⟩ : BufTy).Contents (Elt F) → (⟨S1024x25, .f32⟩ : BufTy).Contents (Elt F)),
    unary main_v57 main_v58 (Host.absf : (⟨S1024x25, .f32⟩ : BufTy).Contents (Elt F) → (⟨S1024x25, .f32⟩ : BufTy).Contents (Elt F)),
    nullary main_cst_9 (constant S_ .f32 0x00000000#32),
    binary main_v58 main_cst_9 main_v59 ((fun x v => Host.reduceAdd x v reducesTo_S1024x25_S1024_d1 h_S_) : (⟨S1024x25, .f32⟩ : BufTy).Contents (Elt F) → (⟨S_, .f32⟩ : BufTy).Contents (Elt F) → (⟨S1024, .f32⟩ : BufTy).Contents (Elt F)),
    unary main_v59 main_v60 (broadcastInDim S1024x1 ![0] bcast_S1024_S1024x1_0 : (⟨S1024, .f32⟩ : BufTy).Contents (Elt F) → (⟨S1024x1, .f32⟩ : BufTy).Contents (Elt F)),
    nullary main_cst_10 (constant S_ .f32 0x2B8CBCCC#32),
    unary main_cst_10 main_v61 (broadcastInDim S1024x1 ![] bcast_S_S1024x1 : (⟨S_, .f32⟩ : BufTy).Contents (Elt F) → (⟨S1024x1, .f32⟩ : BufTy).Contents (Elt F)),
    binary main_v60 main_v61 main_v62 (maximumf : (⟨S1024x1, .f32⟩ : BufTy).Contents (Elt F) → (⟨S1024x1, .f32⟩ : BufTy).Contents (Elt F) → (⟨S1024x1, .f32⟩ : BufTy).Contents (Elt F)),
    unary main_v62 main_v63 (broadcastInDim S1024x25 ![0, 1] bcast_S1024x1_S1024x25_0_1 : (⟨S1024x1, .f32⟩ : BufTy).Contents (Elt F) → (⟨S1024x25, .f32⟩ : BufTy).Contents (Elt F)),
    binary main_v57 main_v63 main_v64 (Host.divf : (⟨S1024x25, .f32⟩ : BufTy).Contents (Elt F) → (⟨S1024x25, .f32⟩ : BufTy).Contents (Elt F) → (⟨S1024x25, .f32⟩ : BufTy).Contents (Elt F)),
    binary main_v64 main_arg7 main_v65 ((fun l r => Host.dotGeneral dot_S1024x25_S25x16_S1024x16_1_0_0_1_n_n none l r) : (⟨S1024x25, .f32⟩ : BufTy).Contents (Elt F) → (⟨S25x16, .f32⟩ : BufTy).Contents (Elt F) → (⟨S1024x16, .f32⟩ : BufTy).Contents (Elt F)),
    unary main_arg8 main_v66 ((transpose S16x2048 [1, 0] · transposes_S2048x16_S16x2048_1_0) : (⟨S2048x16, .f32⟩ : BufTy).Contents (Elt F) → (⟨S16x2048, .f32⟩ : BufTy).Contents (Elt F)),
    binary main_v65 main_v66 main_v67 ((fun l r => Host.dotGeneral dot_S1024x16_S16x2048_S1024x2048_1_0_0_1_n_n none l r) : (⟨S1024x16, .f32⟩ : BufTy).Contents (Elt F) → (⟨S16x2048, .f32⟩ : BufTy).Contents (Elt F) → (⟨S1024x2048, .f32⟩ : BufTy).Contents (Elt F)),
    unary main_arg9 main_v68 (broadcastInDim S1x2048 ![1] bcast_S2048_S1x2048_1 : (⟨S2048, .f32⟩ : BufTy).Contents (Elt F) → (⟨S1x2048, .f32⟩ : BufTy).Contents (Elt F)),
    unary main_v68 main_v69 (broadcastInDim S1024x2048 ![0, 1] bcast_S1x2048_S1024x2048_0_1 : (⟨S1x2048, .f32⟩ : BufTy).Contents (Elt F) → (⟨S1024x2048, .f32⟩ : BufTy).Contents (Elt F)),
    binary main_v67 main_v69 main_v70 (addf : (⟨S1024x2048, .f32⟩ : BufTy).Contents (Elt F) → (⟨S1024x2048, .f32⟩ : BufTy).Contents (Elt F) → (⟨S1024x2048, .f32⟩ : BufTy).Contents (Elt F)),
    nullary main_cst_11 (constant S_ .f32 0x00000000#32),
    binary main_v70 main_cst_11 main_v71 ((fun x v => Host.reduceAdd x v reducesTo_S1024x2048_S2048_d0 h_S_) : (⟨S1024x2048, .f32⟩ : BufTy).Contents (Elt F) → (⟨S_, .f32⟩ : BufTy).Contents (Elt F) → (⟨S2048, .f32⟩ : BufTy).Contents (Elt F)),
    nullary main_cst_12 (constant S_ .f32 0x44800000#32),
    unary main_cst_12 main_v72 (broadcastInDim S2048 ![] bcast_S_S2048 : (⟨S_, .f32⟩ : BufTy).Contents (Elt F) → (⟨S2048, .f32⟩ : BufTy).Contents (Elt F)),
    binary main_v71 main_v72 main_v73 (Host.divf : (⟨S2048, .f32⟩ : BufTy).Contents (Elt F) → (⟨S2048, .f32⟩ : BufTy).Contents (Elt F) → (⟨S2048, .f32⟩ : BufTy).Contents (Elt F)),
    unary main_v73 main_v74 (broadcastInDim S1x2048 ![1] bcast_S2048_S1x2048_1 : (⟨S2048, .f32⟩ : BufTy).Contents (Elt F) → (⟨S1x2048, .f32⟩ : BufTy).Contents (Elt F)),
    unary main_v74 main_v75 (broadcastInDim S1024x2048 ![0, 1] bcast_S1x2048_S1024x2048_0_1 : (⟨S1x2048, .f32⟩ : BufTy).Contents (Elt F) → (⟨S1024x2048, .f32⟩ : BufTy).Contents (Elt F)),
    binary main_v70 main_v75 main_v76 (subf : (⟨S1024x2048, .f32⟩ : BufTy).Contents (Elt F) → (⟨S1024x2048, .f32⟩ : BufTy).Contents (Elt F) → (⟨S1024x2048, .f32⟩ : BufTy).Contents (Elt F)),
    binary main_v76 main_v76 main_v77 (mulf : (⟨S1024x2048, .f32⟩ : BufTy).Contents (Elt F) → (⟨S1024x2048, .f32⟩ : BufTy).Contents (Elt F) → (⟨S1024x2048, .f32⟩ : BufTy).Contents (Elt F)),
    nullary main_cst_13 (constant S_ .f32 0x00000000#32),
    binary main_v77 main_cst_13 main_v78 ((fun x v => Host.reduceAdd x v reducesTo_S1024x2048_S2048_d0 h_S_) : (⟨S1024x2048, .f32⟩ : BufTy).Contents (Elt F) → (⟨S_, .f32⟩ : BufTy).Contents (Elt F) → (⟨S2048, .f32⟩ : BufTy).Contents (Elt F)),
    nullary main_cst_14 (constant S_ .f32 0x44800000#32),
    unary main_cst_14 main_v79 (broadcastInDim S2048 ![] bcast_S_S2048 : (⟨S_, .f32⟩ : BufTy).Contents (Elt F) → (⟨S2048, .f32⟩ : BufTy).Contents (Elt F)),
    binary main_v78 main_v79 main_v80 (Host.divf : (⟨S2048, .f32⟩ : BufTy).Contents (Elt F) → (⟨S2048, .f32⟩ : BufTy).Contents (Elt F) → (⟨S2048, .f32⟩ : BufTy).Contents (Elt F)),
    unary main_v73 main_v81 (broadcastInDim S1x2048 ![1] bcast_S2048_S1x2048_1 : (⟨S2048, .f32⟩ : BufTy).Contents (Elt F) → (⟨S1x2048, .f32⟩ : BufTy).Contents (Elt F)),
    unary main_v81 main_v82 (broadcastInDim S1024x2048 ![0, 1] bcast_S1x2048_S1024x2048_0_1 : (⟨S1x2048, .f32⟩ : BufTy).Contents (Elt F) → (⟨S1024x2048, .f32⟩ : BufTy).Contents (Elt F)),
    binary main_v70 main_v82 main_v83 (subf : (⟨S1024x2048, .f32⟩ : BufTy).Contents (Elt F) → (⟨S1024x2048, .f32⟩ : BufTy).Contents (Elt F) → (⟨S1024x2048, .f32⟩ : BufTy).Contents (Elt F)),
    nullary main_cst_15 (constant S_ .f32 0x3727C5AC#32),
    unary main_cst_15 main_v84 (broadcastInDim S2048 ![] bcast_S_S2048 : (⟨S_, .f32⟩ : BufTy).Contents (Elt F) → (⟨S2048, .f32⟩ : BufTy).Contents (Elt F)),
    binary main_v80 main_v84 main_v85 (addf : (⟨S2048, .f32⟩ : BufTy).Contents (Elt F) → (⟨S2048, .f32⟩ : BufTy).Contents (Elt F) → (⟨S2048, .f32⟩ : BufTy).Contents (Elt F)),
    unary main_v85 main_v86 (Host.rsqrt : (⟨S2048, .f32⟩ : BufTy).Contents (Elt F) → (⟨S2048, .f32⟩ : BufTy).Contents (Elt F)),
    unary main_v86 main_v87 (broadcastInDim S1x2048 ![1] bcast_S2048_S1x2048_1 : (⟨S2048, .f32⟩ : BufTy).Contents (Elt F) → (⟨S1x2048, .f32⟩ : BufTy).Contents (Elt F)),
    unary main_v87 main_v88 (broadcastInDim S1024x2048 ![0, 1] bcast_S1x2048_S1024x2048_0_1 : (⟨S1x2048, .f32⟩ : BufTy).Contents (Elt F) → (⟨S1024x2048, .f32⟩ : BufTy).Contents (Elt F)),
    binary main_v83 main_v88 main_v89 (mulf : (⟨S1024x2048, .f32⟩ : BufTy).Contents (Elt F) → (⟨S1024x2048, .f32⟩ : BufTy).Contents (Elt F) → (⟨S1024x2048, .f32⟩ : BufTy).Contents (Elt F)),
    unary main_arg10 main_v90 (broadcastInDim S1x2048 ![1] bcast_S2048_S1x2048_1 : (⟨S2048, .f32⟩ : BufTy).Contents (Elt F) → (⟨S1x2048, .f32⟩ : BufTy).Contents (Elt F)),
    unary main_v90 main_v91 (broadcastInDim S1024x2048 ![0, 1] bcast_S1x2048_S1024x2048_0_1 : (⟨S1x2048, .f32⟩ : BufTy).Contents (Elt F) → (⟨S1024x2048, .f32⟩ : BufTy).Contents (Elt F)),
    binary main_v89 main_v91 main_v92 (mulf : (⟨S1024x2048, .f32⟩ : BufTy).Contents (Elt F) → (⟨S1024x2048, .f32⟩ : BufTy).Contents (Elt F) → (⟨S1024x2048, .f32⟩ : BufTy).Contents (Elt F)),
    unary main_arg11 main_v93 (broadcastInDim S1x2048 ![1] bcast_S2048_S1x2048_1 : (⟨S2048, .f32⟩ : BufTy).Contents (Elt F) → (⟨S1x2048, .f32⟩ : BufTy).Contents (Elt F)),
    unary main_v93 main_v94 (broadcastInDim S1024x2048 ![0, 1] bcast_S1x2048_S1024x2048_0_1 : (⟨S1x2048, .f32⟩ : BufTy).Contents (Elt F) → (⟨S1024x2048, .f32⟩ : BufTy).Contents (Elt F)),
    binary main_v92 main_v94 main_v95 (addf : (⟨S1024x2048, .f32⟩ : BufTy).Contents (Elt F) → (⟨S1024x2048, .f32⟩ : BufTy).Contents (Elt F) → (⟨S1024x2048, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x2048, .f32⟩) main_call2_v0) (broadcastInDim S1024x2048 ![] bcast_S_S1024x2048),
    TRef.binary (TRef.of (T := ⟨S1024x2048, .f32⟩) main_v95) (TRef.of (T := ⟨S1024x2048, .f32⟩) main_call2_v0) (TRef.of (T := ⟨S1024x2048, .f32⟩) main_v96) maximumf,
    unary main_arg12 main_v97 ((transpose S2048x16384 [1, 0] · transposes_S16384x2048_S2048x16384_1_0) : (⟨S16384x2048, .f32⟩ : BufTy).Contents (Elt F) → (⟨S2048x16384, .f32⟩ : BufTy).Contents (Elt F)),
    binary main_v96 main_v97 main_v98 ((fun l r => Host.dotGeneral dot_S1024x2048_S2048x16384_S1024x16384_1_0_0_1_n_n none l r) : (⟨S1024x2048, .f32⟩ : BufTy).Contents (Elt F) → (⟨S2048x16384, .f32⟩ : BufTy).Contents (Elt F) → (⟨S1024x16384, .f32⟩ : BufTy).Contents (Elt F)),
    unary main_arg13 main_v99 (broadcastInDim S1x16384 ![1] bcast_S16384_S1x16384_1 : (⟨S16384, .f32⟩ : BufTy).Contents (Elt F) → (⟨S1x16384, .f32⟩ : BufTy).Contents (Elt F)),
    unary main_v99 main_v100 (broadcastInDim S1024x16384 ![0, 1] bcast_S1x16384_S1024x16384_0_1 : (⟨S1x16384, .f32⟩ : BufTy).Contents (Elt F) → (⟨S1024x16384, .f32⟩ : BufTy).Contents (Elt F)),
    binary main_v98 main_v100 main_v101 (addf : (⟨S1024x16384, .f32⟩ : BufTy).Contents (Elt F) → (⟨S1024x16384, .f32⟩ : BufTy).Contents (Elt F) → (⟨S1024x16384, .f32⟩ : BufTy).Contents (Elt F)),
    reshape main_v101 main_v102 rfl shapeCasts_S1024x16384_S1024x64x16x16 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub ..⟩

/-- The buffers the operations write, in order: one per operation. -/
abbrev written : List (Ref sig .tc) :=
  [main_v0, main_v1, main_v2, main_v3, main_v4, main_v5, main_cst, main_v6, main_cst_0, main_v7, main_v8, main_v9, main_v10, main_v11, main_v12, main_cst_1, main_v13, main_cst_2, main_v14, main_v15, main_v16, main_v17, main_v18, main_cst_3, main_v19, main_v20, main_v21, main_v22, main_v23, main_v24, main_v25, main_v26, main_v27, main_v28, main_v29, main_v30, main_call0_cst, main_call0_v0, main_v31, main_v32, main_v33, main_v34, main_v35, main_v36, main_v37, main_v38, main_cst_4, main_v39, main_cst_5, main_v40, main_v41, main_v42, main_v43, main_v44, main_v45, main_cst_6, main_v46, main_v47, main_v48, main_v49, main_cst_7, main_v50, main_v51, main_call1_cst, main_call1_v0, main_v52, main_v53, main_v54, main_cst_8, main_v55, main_v56, main_v57, main_v58, main_cst_9, main_v59, main_v60, main_cst_10, main_v61, main_v62, main_v63, main_v64, main_v65, main_v66, main_v67, main_v68, main_v69, main_v70, main_cst_11, main_v71, main_cst_12, main_v72, main_v73, main_v74, main_v75, main_v76, main_v77, main_cst_13, main_v78, main_cst_14, main_v79, main_v80, main_v81, main_v82, main_v83, main_cst_15, main_v84, main_v85, main_v86, main_v87, main_v88, main_v89, main_v90, main_v91, main_v92, main_v93, main_v94, main_v95, main_call2_cst, main_call2_v0, main_v96, main_v97, main_v98, main_v99, main_v100, main_v101, main_v102]

set_option maxRecDepth 8192 in
set_option maxHeartbeats 4000000 in
/-- Each operation writes only its own result buffer, which is in the list. -/
theorem ops_writes : (ops : List (HloOp τ sig (Elt F))).Forall fun op => op.writes ⊆ (written.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))

/-- A buffer outside that list holds after the run what it held before. -/
theorem keeps (V : Valuation τ sig (Elt F)) (r : Ref sig .tc) (h : r ∉ written) :
    after ops V (Proc.devRef .tc r) = V (Proc.devRef .tc r) :=
  after_of_writes_sub ops V ops_writes h

/-- From any memory with zero counters every weakly fair execution of the reference terminates, and each buffer ends at
    the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.EncSpec.lean ====
/-
  The encoder's value, index by index, on the extended reals: a linear layer over 16384 inputs, then a
  normalisation of each output column over its 1024 rows (mean and variance taken down the column), a scale and a
  shift per column, and a rectifier.  Stated once as a function of the five argument arrays; nothing here mentions a
  program.
-/
import Idealize.ShloMosaic.PureOps.Ideal
import Idealize.ShloMosaic.Lib.ValueIdx

noncomputable section

open scoped BigOperators

namespace Cert.Enc

open Idealize.ShloMosaic Idealize.ShloMosaic.ValueIdx

/-- The mean of a column of 1024 values: their sum divided by 1024 (the word 0x44800000 is 1024). -/
def colMean (h : Fin 1024 → EReal) : EReal :=
  Ideal.div (∑ r : Fin 1024, h r) (Ideal.ofBits .f32 0x44800000#32)

/-- The variance of a column of 1024 values: the mean of the squared deviations from the column's mean. -/
def colVar (h : Fin 1024 → EReal) : EReal :=
  Ideal.div (∑ r : Fin 1024, (h r - colMean h) * (h r - colMean h)) (Ideal.ofBits .f32 0x44800000#32)

/-- A column normalised, scaled by g, shifted by be and rectified, read at row r: the deviation from the column's mean
    times the reciprocal square root of (variance + epsilon), times g, plus be, and the maximum of that with zero
    (the word 0x3727C5AC is epsilon, the word 0 is zero). -/
def normRelu (h : Fin 1024 → EReal) (g be : EReal) (r : Fin 1024) : EReal :=
  max ((h r - colMean h) * Ideal.rsqrt (colVar h + Ideal.ofBits .f32 0x3727C5AC#32) * g + be)
    (Ideal.ofBits .f32 0x00000000#32)

/-- The linear layer at (r, j): row r of x against row j of W over all 16384 inputs, plus the bias of column j. -/
def lin (x : FVec Ideal ⟨2, ![1024, 16384]⟩ .f32) (W : FVec Ideal ⟨2, ![2048, 16384]⟩ .f32) (b : FVec Ideal ⟨1, ![2048]⟩ .f32)
    (r : Fin 1024) (j : Fin 2048) : EReal :=
  (∑ c : Fin 16384, x (ix2 r c) * W (ix2 j c)) + b (ix1 j)

/-- The encoder at (r, j): column j of the linear layer, normalised over its 1024 rows, scaled by g j, shifted by
    be j and rectified, read at row r. -/
def encSpec (x : FVec Ideal ⟨2, ![1024, 16384]⟩ .f32) (W : FVec Ideal ⟨2, ![2048, 16384]⟩ .f32)
    (b g be : FVec Ideal ⟨1, ![2048]⟩ .f32) : Fin 1024 → Fin 2048 → EReal :=
  fun r j => normRelu (fun r' => lin x W b r' j) (g (ix1 j)) (be (ix1 j)) r

end Cert.Enc

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibRowBlock.lean ====
/-
  General facts about row blocks, at the ideal values.  A matrix product's entry (r, j) is the sum over k of A(r,k)·B(k,j):
  it needs one row of the left operand, so a block of rows times a matrix is that block of rows of the whole product.
  And a length-n vector written as one row and repeated down the rows reads, at (r, j), its entry j — whether the
  repeating is a kernel's shape cast and broadcast or the host's two broadcasts.  Nothing here mentions a program.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.RowBlockLib

open Idealize.ShloMosaic Idealize.ShloMosaic.ValueIdx Idealize.ShloMosaic.Pipeline

/-- Row a of a block of rows times a matrix is row a' of the whole matrix times it, when the block's row a is the whole
    matrix's row a'. -/
theorem dotGeneral_plain_row {M m k n : Nat} {φ₁ φ₁' φ₂ φ₂' : FTy} (prec prec' : Option ContractPrecision)
    (A : FVec Ideal ⟨2, ![M, k]⟩ φ₁) (Ab : FVec Ideal ⟨2, ![m, k]⟩ φ₁') (B : FVec Ideal ⟨2, ![k, n]⟩ φ₂) (Bb : FVec Ideal ⟨2, ![k, n]⟩ φ₂')
    (a : Fin m) (a' : Fin M) (b : Fin n)
    (hA : ∀ c : Fin k, (Ab (ix2 a c) : EReal) = A (ix2 a' c)) (hB : ∀ c : Fin k, (Bb (ix2 c b) : EReal) = B (ix2 c b)) :
    (Host.dotGeneral (DotDims.plain m k n) prec Ab Bb (ix2 a b) : EReal) = Host.dotGeneral (DotDims.plain M k n) prec' A B (ix2 a' b) := by
  rw [StackMember.dotGeneral_plain_apply, StackMember.dotGeneral_plain_apply]
  exact Finset.sum_congr rfl fun c _ => by rw [hA c, hB c]

/-- A length-n vector stored as one row and broadcast down m rows reads, at (p, j), the vector's entry j. -/
theorem bias_rows_apply {α : Type} {m n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (j : Fin n) :
    broadcastTo ⟨2, ![m, n]⟩ (shapeCast ⟨2, ![1, n]⟩ v h1) h2 (ix2 p j) = v (ix1 j) := by
  refine (broadcastTo_apply _ h2 (ix2 p j) (ix2 (0 : Fin 1) j) fun ax => ?_).trans ?_
  · match ax with
    | ⟨0, _⟩ => show (0 : Nat) = if (1 : Nat) = 1 then 0 else p.val; rw [if_pos rfl]
    | ⟨1, _⟩ => show j.val = if n = 1 then 0 else j.val; rw [if_neg hn]
  · refine (shapeCast_addUnit_apply ![n] v h1 (ix2 (0 : Fin 1) j)).trans (congrArg v (funext fun a => ?_))
    match a with
    | ⟨0, _⟩ => rfl

/-- The same read of the host's two broadcasts ([n] to [1, n] along axis 1, then to [M, n]). -/
theorem bias_rows_host_apply {α : Type} {M n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![M, n]⟩ ![0, 1])
    (r : Fin M) (j : Fin n) :
    broadcastInDim ⟨2, ![M, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else r.val; rw [if_pos rfl]
    | ⟨1, _⟩ => show j.val = if n = 1 then 0 else j.val; rw [if_neg hn]
  · match a with
    | ⟨0, _⟩ => show j.val = if n = 1 then 0 else j.val; rw [if_neg hn]

end Cert.RowBlockLib

end
-- ==== Proof.EncRef.lean ====
/-
  The reference's encoder at the ideal values: the host's chain of operations — one product over all 16384 inputs, the
  bias repeated down the rows, the column means and variances by sums down the rows, the reciprocal square root, scale,
  shift and rectifier — wrapped as one function of the five arrays, and read index by index as the specification.
-/
import proofs.«104290_j46119358825052_2_alg».proof.Proof.Gen.ReferenceIdeal
import proofs.«104290_j46119358825052_2_alg».proof.Proof.EncSpec
import proofs.«104290_j46119358825052_2_alg».proof.Proof.LibRowOps
import proofs.«104290_j46119358825052_2_alg».proof.Proof.LibRowBlock
import Idealize.ShloMosaic.Lib.ValueLayout
import Idealize.ShloMosaic.Lib.IdealHost

noncomputable section

open scoped BigOperators

namespace Cert.Enc

open Idealize.ShloMosaic Idealize.ShloMosaic.ValueIdx Cert.ReferenceIdeal Cert.ReferenceIdeal.Facts₀

/-! ## The host's chain, wrapped -/

/-- A length-2048 vector repeated down the 1024 rows by the host's two broadcasts ([2048] to [1, 2048] to [1024, 2048]). -/
def refRows (v : FVec Ideal S2048 .f32) : FVec Ideal S1024x2048 .f32 :=
  broadcastInDim S1024x2048 ![0, 1] bcast_S1x2048_S1024x2048_0_1 (broadcastInDim S1x2048 ![1] bcast_S2048_S1x2048_1 v)

/-- The column means of a 1024 × 2048 array: the host's sum down the rows from the zero scalar, divided by the splat of
    1024. -/
def refMean (h : FVec Ideal S1024x2048 .f32) : FVec Ideal S2048 .f32 :=
  Host.divf (F := Ideal)
    (Host.reduceAdd (F := Ideal) h (constant (F := Ideal) S_ .f32 0x00000000#32) reducesTo_S1024x2048_S2048_d0 h_S_)
    (broadcastInDim S2048 ![] bcast_S_S2048 (constant (F := Ideal) S_ .f32 0x44800000#32))

/-- The linear layer: x times the transposed W, one product over all 16384 inputs, plus the bias repeated down the
    rows. -/
def refLin (x : FVec Ideal S1024x16384 .f32) (W : FVec Ideal S2048x16384 .f32) (b : FVec Ideal S2048 .f32) :
    FVec Ideal S1024x2048 .f32 :=
  addf
    (Host.dotGeneral (F := Ideal) dot_S1024x16384_S16384x2048_S1024x2048_1_0_0_1_n_n none x
      (transpose S16384x2048 [1, 0] W transposes_S2048x16384_S16384x2048_1_0))
    (refRows b)

/-- The normalisation over the rows, scale, shift and rectifier: the deviation from the column means, times the
    reciprocal square root of the column variances plus epsilon, times g, plus be, and the maximum with the zero splat. -/
def refNormRelu (h : FVec Ideal S1024x2048 .f32) (g be : FVec Ideal S2048 .f32) : FVec Ideal S1024x2048 .f32 :=
  maximumf
    (addf
      (mulf
        (mulf (subf h (refRows (refMean h)))
          (refRows (Host.rsqrt (F := Ideal)
            (addf (refMean (mulf (subf h (refRows (refMean h))) (subf h (refRows (refMean h)))))
              (broadcastInDim S2048 ![] bcast_S_S2048 (constant (F := Ideal) S_ .f32 0x3727C5AC#32))))))
        (refRows g))
      (refRows be))
    (broadcastInDim S1024x2048 ![] bcast_S_S1024x2048 (constant (F := Ideal) S_ .f32 0x00000000#32))

/-- The reference's encoder: the linear layer, normalised, scaled, shifted and rectified. -/
def encRef (x : FVec Ideal S1024x16384 .f32) (W : FVec Ideal S2048x16384 .f32) (b g be : FVec Ideal S2048 .f32) :
    FVec Ideal S1024x2048 .f32 :=
  refNormRelu (refLin x W b) g be

/-! ## Each piece read at an index -/

/-- The repeated vector at (r, j) is its entry j. -/
theorem refRows_apply (v : FVec Ideal S2048 .f32) (r : Fin 1024) (j : Fin 2048) : refRows v (ix2 r j) = v (ix1 j) :=
  RowBlockLib.bias_rows_host_apply (by decide) v bcast_S2048_S1x2048_1 bcast_S1x2048_S1024x2048_0_1 r j

/-- The host's sum down the rows from the zero scalar, read at column j, is the sum over the rows of the array at
    (row, j). -/
theorem colsumHost_apply (src : FVec Ideal S1024x2048 .f32) (j : Fin 2048) :
    Host.reduceAdd (F := Ideal) src (constant (F := Ideal) S_ .f32 0x00000000#32) reducesTo_S1024x2048_S2048_d0 h_S_ (ix1 j)
      = ∑ r : Fin 1024, src (ix2 r j) := by
  rw [hostReduceAdd_apply,
    Ideal.hostReduceAdd_single reducesTo_S1024x2048_S2048_d0 (by decide : S1024x2048.Reduces [0] S2048),
    constant_apply, Ideal.ofBits_zero_f32, zero_add]
  refine Finset.sum_congr rfl fun r _ => congrArg src (funext fun a => ?_)
  match a with
  | ⟨0, _⟩ => rfl
  | ⟨1, _⟩ => rfl

/-- The column means at column j are the mean of that column. -/
theorem refMean_apply (h : FVec Ideal S1024x2048 .f32) (j : Fin 2048) :
    refMean h (ix1 j) = colMean (fun r => h (ix2 r j)) := by
  unfold refMean colMean
  rw [hostDivf_apply, colsumHost_apply, broadcastInDim_scalar_apply, constant_apply]

/-- The host's reciprocal square root of a vector at an index is the extended reals' of the element. -/
theorem hostRsqrt_apply {s : Shape} (a : FVec Ideal s .f32) (i : s.Idx) : Host.rsqrt a i = Ideal.rsqrt (a i) := rfl

/-- The linear layer at (r, j): the transposed W read at (c, j) is W at (j, c), and the product is the sum over the
    16384 inputs. -/
theorem refLin_apply (x : FVec Ideal S1024x16384 .f32) (W : FVec Ideal S2048x16384 .f32) (b : FVec Ideal S2048 .f32)
    (r : Fin 1024) (j : Fin 2048) : refLin x W b (ix2 r j) = lin x W b r j := by
  unfold refLin lin
  rw [addf_apply, refRows_apply,
    RowLib.dotDims_eq_plain dot_S1024x16384_S16384x2048_S1024x2048_1_0_0_1_n_n rfl rfl rfl rfl rfl rfl,
    StackMember.dotGeneral_plain_apply]
  refine congrArg (· + b (ix1 j)) (Finset.sum_congr rfl fun c _ => ?_)
  rw [transpose_ix2_apply]

/-- The normalised, scaled, shifted and rectified array at (r, j) is column j so treated, read at row r. -/
theorem refNormRelu_apply (h : FVec Ideal S1024x2048 .f32) (g be : FVec Ideal S2048 .f32) (r : Fin 1024) (j : Fin 2048) :
    refNormRelu h g be (ix2 r j) = normRelu (fun r' => h (ix2 r' j)) (g (ix1 j)) (be (ix1 j)) r := by
  unfold refNormRelu
  simp only [maximumf_apply, addf_apply, mulf_apply, subf_apply, refRows_apply, hostRsqrt_apply, refMean_apply,
    broadcastInDim_scalar_apply, constant_apply]
  rfl

/-! ## The reference's encoder is the specification -/

theorem enc_ref (x : FVec Ideal S1024x16384 .f32) (W : FVec Ideal S2048x16384 .f32) (b g be : FVec Ideal S2048 .f32)
    (r : Fin 1024) (J : Fin 2048) : encRef x W b g be (ix2 r J) = encSpec x W b g be r J := by
  unfold encRef encSpec
  rw [refNormRelu_apply]
  exact congrArg (fun h => normRelu h _ _ r) (funext fun r' => refLin_apply x W b r' J)

end Cert.Enc

end
-- ==== Proof.RefStages.lean ====
/-
  The reference's 126 operations as three stages — the encoder (the first 39 operations, through the first
  batch-normalised and rectified array), the latent computation (the next 48, through the decoder's pre-normalisation
  array) and the decoder (the last 39) — so that each stage is read as a function of what the stage before left, and no
  stage's result is ever substituted into the next one's term. Running two lists one after the other is running their
  concatenation.
-/
import proofs.«104290_j46119358825052_2_alg».proof.Proof.RefRun
import proofs.«104290_j46119358825052_2_alg».proof.Proof.EncRef

noncomputable section

namespace Cert.ReferenceIdeal.Hand

open Cert.ReferenceIdeal Cert.ReferenceIdeal.Gen Idealize.ShloMosaic Idealize.ShloMosaic.TcCoe Idealize.SL.Sem Idealize.ShloMosaic.StableHlo

/-- The contents after two lists of operations run in order are the contents after their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

variable {F : FTy → Type} [FloatOps F]

/-- The encoder stage, the latent stage, the decoder stage. -/
abbrev opsEnc : List (HloOp τ sig (Elt F)) := ops.take 39
abbrev opsMid : List (HloOp τ sig (Elt F)) := (ops.drop 39).take 48
abbrev opsDec : List (HloOp τ sig (Elt F)) := ops.drop 87

/-- The whole program is the three stages in order. -/
theorem after_stages (V : Valuation τ sig (Elt F)) :
    after ops V = after opsDec (after opsMid (after opsEnc V)) := by
  rw [← after_append, ← after_append]
  exact congrArg (fun l => after l V) (by
    show ops = ops.take 39 ++ (ops.drop 39).take 48 ++ ops.drop 87
    rw [show (ops : List (HloOp τ sig (Elt F))).drop 87 = (ops.drop 39).drop 48 from by rw [List.drop_drop],
      List.append_assoc, List.take_append_drop, List.take_append_drop])

set_option maxRecDepth 8192 in
set_option maxHeartbeats 4000000 in
/-- The encoder stage leaves, in its last buffer, the encoder's array function of the reshaped input and the first four
    parameter arrays. -/
theorem enc_stage (V : Valuation τ sig (Elt Ideal)) :
    after (opsEnc (F := Ideal)) V (Proc.devRef .tc main_v31)
      = Cert.Enc.encRef (shapeCast _ (V (Proc.devRef .tc main_arg0)) shapeCasts_S1024x64x16x16_S1024x16384)
          (V (Proc.devRef .tc main_arg1)) (V (Proc.devRef .tc main_arg2)) (V (Proc.devRef .tc main_arg3)) (V (Proc.devRef .tc main_arg4)) := by
  simp only [opsEnc, ops, List.take]
  after_results_simp
  rfl

/-! ## What a stage leaves alone -/

/-- A run of some of the program's operations leaves every buffer outside the written list as it found it. -/
theorem keeps_sub (l : List (HloOp τ sig (Elt F))) (hl : ∀ op ∈ l, op ∈ (ops : List (HloOp τ sig (Elt F))))
    (V : Valuation τ sig (Elt F)) (r : Ref sig .tc) (h : r ∉ written) :
    after l V (Proc.devRef .tc r) = V (Proc.devRef .tc r) :=
  after_of_forall_not_mem l V fun op hop hb => by
    obtain ⟨y, hy, he⟩ := List.mem_map.mp (List.mem_toFinset.mp ((List.forall_iff_forall_mem.mp ops_writes) op (hl op hop) hb))
    exact h (Proc.devRef_injective _ he ▸ hy)

theorem keeps_enc (V : Valuation τ sig (Elt F)) (r : Ref sig .tc) (h : r ∉ written) :
    after opsEnc V (Proc.devRef .tc r) = V (Proc.devRef .tc r) :=
  keeps_sub _ (fun _ ho => List.mem_of_mem_take ho) V r h
theorem keeps_mid (V : Valuation τ sig (Elt F)) (r : Ref sig .tc) (h : r ∉ written) :
    after opsMid V (Proc.devRef .tc r) = V (Proc.devRef .tc r) :=
  keeps_sub _ (fun _ ho => List.mem_of_mem_drop (List.mem_of_mem_take ho)) V r h

/-- The buffers the decoder stage writes. -/
abbrev writtenDec : List (Ref sig .tc) :=
  [main_cst_11, main_v71, main_cst_12, main_v72, main_v73, main_v74, main_v75, main_v76, main_v77, main_cst_13, main_v78, main_cst_14, main_v79, main_v80, main_v81, main_v82, main_v83, main_cst_15, main_v84, main_v85, main_v86, main_v87, main_v88, main_v89, main_v90, main_v91, main_v92, main_v93, main_v94, main_v95, main_call2_cst, main_call2_v0, main_v96, main_v97, main_v98, main_v99, main_v100, main_v101, main_v102]

set_option maxRecDepth 8192 in
set_option maxHeartbeats 4000000 in
theorem opsDec_writes : (opsDec : List (HloOp τ sig (Elt F))).Forall fun op => op.writes ⊆ (writtenDec.map (Proc.devRef (τ := τ) .tc)).toFinset := by
  simp only [opsDec, ops, List.drop, List.Forall]
  repeat' apply And.intro
  all_goals (simp only [nullary_writes, unary_writes, binary_writes, reshape_writes, Finset.singleton_subset_iff, List.mem_toFinset]; exact List.mem_map_of_mem (by decide))

/-- The decoder stage leaves what the latent stage produced as it found it. -/
theorem keeps_dec (V : Valuation τ sig (Elt F)) (r : Ref sig .tc) (h : r ∉ writtenDec) :
    after opsDec V (Proc.devRef .tc r) = V (Proc.devRef .tc r) :=
  after_of_writes_sub opsDec V opsDec_writes h

end Cert.ReferenceIdeal.Hand

end
-- ==== Proof.DecSpec.lean ====
import Idealize.ShloMosaic.PureOps.Ideal
import Idealize.ShloMosaic.Lib.ValueIdx

/-! # The decoder as one function on the extended reals

Batch normalisation of each column of a 1024 × 2048 array over its 1024 rows (the mean and the variance of the
centred values, each a sum started from the zero word and divided by the word for 1024; the reciprocal square root
of the variance plus the word for 1e-5; a scale and a shift per column), the positive part, then the product with
the transpose of a 16384 × 2048 matrix and a bias per output column. Stated index by index. No program is
mentioned here. -/

noncomputable section

open scoped BigOperators

namespace Cert.Dec

open Idealize.ShloMosaic Idealize.ShloMosaic.ValueIdx

/-- Output column j of the block of 1024 columns that grid point n writes. -/
abbrev outCol (n : Fin 16) (j : Fin 1024) : Fin 16384 := ⟨1024 * n.val + j.val, by have := n.isLt; have := j.isLt; omega⟩

/-- The mean of column k over the 1024 rows. -/
def colMean (h : FVec Ideal ⟨2, ![1024, 2048]⟩ .f32) (k : Fin 2048) : EReal :=
  Ideal.div (Ideal.ofBits .f32 0x00000000#32 + ∑ i : Fin 1024, h (ix2 i k)) (Ideal.ofBits .f32 0x44800000#32)

/-- The variance of column k: the mean of the squares of the centred values. -/
def colVar (h : FVec Ideal ⟨2, ![1024, 2048]⟩ .f32) (k : Fin 2048) : EReal :=
  Ideal.div (Ideal.ofBits .f32 0x00000000#32 + ∑ i : Fin 1024, (h (ix2 i k) - colMean h k) * (h (ix2 i k) - colMean h k))
    (Ideal.ofBits .f32 0x44800000#32)

/-- The normalised, scaled, shifted entry (r, k), cut at zero from below. -/
def bnRelu (h : FVec Ideal ⟨2, ![1024, 2048]⟩ .f32) (g be : FVec Ideal ⟨1, ![2048]⟩ .f32) (r : Fin 1024) (k : Fin 2048) : EReal :=
  max ((h (ix2 r k) - colMean h k) * Ideal.rsqrt (colVar h k + Ideal.ofBits .f32 0x3727C5AC#32) * g (ix1 k) + be (ix1 k))
    (Ideal.ofBits .f32 0x00000000#32)

/-- The decoder's output entry (r, J): row r of the normalised array against row J of the weight matrix, plus the
    bias of column J. -/
def decSpec (h : FVec Ideal ⟨2, ![1024, 2048]⟩ .f32) (g be : FVec Ideal ⟨1, ![2048]⟩ .f32)
    (W : FVec Ideal ⟨2, ![16384, 2048]⟩ .f32) (b : FVec Ideal ⟨1, ![16384]⟩ .f32) (r : Fin 1024) (J : Fin 16384) : EReal :=
  (∑ k : Fin 2048, bnRelu h g be r k * W (ix2 J k)) + b (ix1 J)

end Cert.Dec

end
-- ==== Proof.DecRef.lean ====
import proofs.«104290_j46119358825052_2_alg».proof.ReferenceIdeal
import proofs.«104290_j46119358825052_2_alg».proof.Proof.Gen.ReferenceIdeal
import proofs.«104290_j46119358825052_2_alg».proof.Proof.DecSpec
import proofs.«104290_j46119358825052_2_alg».proof.Proof.LibRowBlock
import proofs.«104290_j46119358825052_2_alg».proof.Proof.LibRowOps
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

/-! # The reference's decoder, read index by index

The reference's host operations from the array before the batch normalisation to the decoder's output, wrapped as
one function of that array, the scale, the shift, the weight matrix and the bias; and the proof that, at the ideal
values, its entry (r, J) is the decoder's specification. -/

set_option maxRecDepth 16384

noncomputable section

open scoped BigOperators

namespace Cert.Dec

open Cert.ReferenceIdeal Cert.ReferenceIdeal.Gen
open Idealize.ShloMosaic Idealize.ShloMosaic.ValueIdx

/-- The column means: the sum down the rows from the zero word, divided by the word for 1024. -/
def refMean (h : FVec Ideal S1024x2048 .f32) : FVec Ideal S2048 .f32 :=
  Host.divf (F := Ideal) (Host.reduceAdd (F := Ideal) h (constant (F := Ideal) S_ .f32 0x00000000#32) reducesTo_S1024x2048_S2048_d0 h_S_)
    (broadcastInDim S2048 ![] bcast_S_S2048 (constant (F := Ideal) S_ .f32 0x44800000#32))

/-- The array with its column means subtracted. -/
def refCentred (h : FVec Ideal S1024x2048 .f32) : FVec Ideal S1024x2048 .f32 :=
  subf h (broadcastInDim S1024x2048 ![0, 1] bcast_S1x2048_S1024x2048_0_1 (broadcastInDim S1x2048 ![1] bcast_S2048_S1x2048_1 (refMean h)))

/-- The column variances: the mean of the squares of the centred values. -/
def refVar (h : FVec Ideal S1024x2048 .f32) : FVec Ideal S2048 .f32 :=
  Host.divf (F := Ideal) (Host.reduceAdd (F := Ideal) (mulf (refCentred h) (refCentred h)) (constant (F := Ideal) S_ .f32 0x00000000#32) reducesTo_S1024x2048_S2048_d0 h_S_)
    (broadcastInDim S2048 ![] bcast_S_S2048 (constant (F := Ideal) S_ .f32 0x44800000#32))

/-- The normalised, scaled, shifted array, cut at zero from below. -/
def refBn (h : FVec Ideal S1024x2048 .f32) (g be : FVec Ideal S2048 .f32) : FVec Ideal S1024x2048 .f32 :=
  maximumf
    (addf
      (mulf
        (mulf (refCentred h)
          (broadcastInDim S1024x2048 ![0, 1] bcast_S1x2048_S1024x2048_0_1 (broadcastInDim S1x2048 ![1] bcast_S2048_S1x2048_1
            (Host.rsqrt (F := Ideal) (addf (refVar h) (broadcastInDim S2048 ![] bcast_S_S2048 (constant (F := Ideal) S_ .f32 0x3727C5AC#32)))))))
        (broadcastInDim S1024x2048 ![0, 1] bcast_S1x2048_S1024x2048_0_1 (broadcastInDim S1x2048 ![1] bcast_S2048_S1x2048_1 g)))
      (broadcastInDim S1024x2048 ![0, 1] bcast_S1x2048_S1024x2048_0_1 (broadcastInDim S1x2048 ![1] bcast_S2048_S1x2048_1 be)))
    (broadcastInDim S1024x2048 ![] bcast_S_S1024x2048 (constant (F := Ideal) S_ .f32 0x00000000#32))

/-- The reference's decoder: the normalised array times the transposed weight matrix, plus the bias row. -/
def decRef (h : FVec Ideal S1024x2048 .f32) (g be : FVec Ideal S2048 .f32) (W : FVec Ideal S16384x2048 .f32)
    (b : FVec Ideal S16384 .f32) : FVec Ideal S1024x16384 .f32 :=
  addf
    (Host.dotGeneral (F := Ideal) dot_S1024x2048_S2048x16384_S1024x16384_1_0_0_1_n_n none (refBn h g be)
      (transpose S2048x16384 [1, 0] W transposes_S16384x2048_S2048x16384_1_0))
    (broadcastInDim S1024x16384 ![0, 1] bcast_S1x16384_S1024x16384_0_1 (broadcastInDim S1x16384 ![1] bcast_S16384_S1x16384_1 b))

/-! ## The operations read at an index -/

/-- The host's sum down the rows, read at column k: the initial value plus the sum of the column. -/
theorem colSum_ref (v : FVec Ideal S1024x2048 .f32) (init : FVec Ideal S_ .f32) (k : Fin 2048) :
    Host.reduceAdd (F := Ideal) v init reducesTo_S1024x2048_S2048_d0 h_S_ (ix1 k)
      = init (Shape.Idx.first h_S_) + ∑ i : Fin 1024, v (ix2 i k) := by
  simp only [Host.reduceAdd, Ideal.hostReduceAdd_def]
  rw [Ideal.hostReduceAdd_single reducesTo_S1024x2048_S2048_d0 (by decide)]
  refine congrArg (_ + ·) (Finset.sum_congr rfl fun i _ => ?_)
  exact congrArg v (funext fun a => Fin.ext (by match a with | ⟨0, _⟩ => rfl | ⟨1, _⟩ => rfl))

/-- A scalar constant spread over a shape reads the constant's value everywhere. -/
theorem splat_ref {s : Shape} (c : BitVec 32) (hb : S_.BroadcastsInDim s (![] : Fin 0 → Fin s.rank)) (i : s.Idx) :
    broadcastInDim s ![] hb (constant (F := Ideal) S_ .f32 c) i = Ideal.ofBits .f32 c :=
  broadcastInDim_apply _ hb _ i ix0 (fun a => a.elim0)

/-- The host's reciprocal square root and quotient of vectors, read at an index. -/
theorem hostRsqrt_idx {s : Shape} (v : FVec Ideal s .f32) (i : s.Idx) : Host.rsqrt (F := Ideal) v i = Ideal.rsqrt (v i) := rfl
theorem hostDivf_idx {s : Shape} (u v : FVec Ideal s .f32) (i : s.Idx) : Host.divf (F := Ideal) u v i = Ideal.div (u i) (v i) := rfl

theorem plainDref : dot_S1024x2048_S2048x16384_S1024x16384_1_0_0_1_n_n = DotDims.plain 1024 2048 16384 :=
  Cert.RowLib.dotDims_eq_plain _ rfl rfl rfl rfl rfl rfl

theorem refMean_apply (h : FVec Ideal S1024x2048 .f32) (k : Fin 2048) : refMean h (ix1 k) = colMean h k := by
  unfold refMean colMean
  rw [hostDivf_idx, colSum_ref, splat_ref]
  rfl

theorem refBn_apply (h : FVec Ideal S1024x2048 .f32) (g be : FVec Ideal S2048 .f32) (r : Fin 1024) (k : Fin 2048) :
    refBn h g be (ix2 r k) = bnRelu h g be r k := by
  unfold refBn refVar refCentred bnRelu colVar
  simp only [maximumf_apply, addf_apply, mulf_apply, subf_apply, hostDivf_idx, hostRsqrt_idx, splat_ref, colSum_ref,
    Cert.RowBlockLib.bias_rows_host_apply (by decide : (2048 : ℕ) ≠ 1), refMean_apply, constant_apply]
  rw [splat_ref, splat_ref, splat_ref]

/-- The reference's decoder at (r, J) is the decoder's specification: the product is the sum over the contracted
    coordinate, the transposed weight matrix reads (J, k) at (k, J), and the bias row reads its entry J. -/
theorem decRef_eq_decSpec (h : FVec Ideal S1024x2048 .f32) (g be : FVec Ideal S2048 .f32) (W : FVec Ideal S16384x2048 .f32)
    (b : FVec Ideal S16384 .f32) (r : Fin 1024) (J : Fin 16384) :
    decRef h g be W b (ix2 r J) = decSpec h g be W b r J := by
  unfold decRef decSpec
  rw [addf_apply, plainDref, StackMember.dotGeneral_plain_apply, Cert.RowBlockLib.bias_rows_host_apply (by decide)]
  refine congrArg (· + _) (Finset.sum_congr rfl fun k _ => ?_)
  rw [refBn_apply, transpose_ix2_apply]

end Cert.Dec

end
-- ==== Proof.RefDecStage.lean ====
/-
  The reference's decoder stage, read: its last 39 operations take the pre-normalisation array and the last four
  parameter arrays to the decoder's array function of them, reshaped to the output's four axes.
-/
import proofs.«104290_j46119358825052_2_alg».proof.Proof.RefStages
import proofs.«104290_j46119358825052_2_alg».proof.Proof.DecRef

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
theorem dec_stage (V : Valuation τ sig (Elt Ideal)) :
    after (opsDec (F := Ideal)) V (Proc.devRef .tc main_v102)
      = shapeCast _ (Cert.Dec.decRef (V (Proc.devRef .tc main_v70)) (V (Proc.devRef .tc main_arg10)) (V (Proc.devRef .tc main_arg11))
          (V (Proc.devRef .tc main_arg12)) (V (Proc.devRef .tc main_arg13))) shapeCasts_S1024x16384_S1024x64x16x16 := by
  simp only [opsDec, ops, List.drop]
  after_results_simp
  rfl

end Cert.ReferenceIdeal.Hand

end
-- ==== Proof.Mid.lean ====
/-
  The latent computation is the same host operations in both programs — the projection to the latent space, the softmax
  addressing of the memory, the hard shrinkage and its renormalisation, the read-out and the decoder's first linear map —
  applied to the encoder's output and to five parameter arrays. So from contents that agree on those six arrays, the
  kernel program's three latent host stretches and the reference's latent stage leave the same four arrays: the latent
  code, the attention weights, the read-out, and the decoder's pre-normalisation input. The encoder's output stays a
  variable throughout.
-/
import proofs.«104290_j46119358825052_2_alg».proof.Proof.Gen.KernelIdeal.Launch
import proofs.«104290_j46119358825052_2_alg».proof.Proof.RefStages

noncomputable section

namespace Cert.Bridge

open Idealize.ShloMosaic Idealize.ShloMosaic.TcCoe Idealize.SL.Sem Idealize.ShloMosaic.StableHlo

set_option maxRecDepth 16384 in
set_option maxHeartbeats 8000000 in
theorem mid_agree (X : Valuation Cert.KernelIdeal.τ Cert.KernelIdeal.sig (Elt Ideal))
    (Y : Valuation Cert.ReferenceIdeal.τ Cert.ReferenceIdeal.sig (Elt Ideal))
    (hE : X (Proc.devRef .tc Cert.KernelIdeal.main_v1) = Y (Proc.devRef .tc Cert.ReferenceIdeal.main_v31))
    (h5 : X (Proc.devRef .tc Cert.KernelIdeal.main_arg5) = Y (Proc.devRef .tc Cert.ReferenceIdeal.main_arg5))
    (h6 : X (Proc.devRef .tc Cert.KernelIdeal.main_arg6) = Y (Proc.devRef .tc Cert.ReferenceIdeal.main_arg6))
    (h7 : X (Proc.devRef .tc Cert.KernelIdeal.main_arg7) = Y (Proc.devRef .tc Cert.ReferenceIdeal.main_arg7))
    (h8 : X (Proc.devRef .tc Cert.KernelIdeal.main_arg8) = Y (Proc.devRef .tc Cert.ReferenceIdeal.main_arg8))
    (h9 : X (Proc.devRef .tc Cert.KernelIdeal.main_arg9) = Y (Proc.devRef .tc Cert.ReferenceIdeal.main_arg9)) :
    after Cert.KernelIdeal.Gen.hostOps1_2 (after Cert.KernelIdeal.Gen.hostOps1_1 (after Cert.KernelIdeal.Gen.hostOps1 X)) (Proc.devRef .tc Cert.KernelIdeal.main_v6)
        = after (Cert.ReferenceIdeal.Hand.opsMid (F := Ideal)) Y (Proc.devRef .tc Cert.ReferenceIdeal.main_v36)
      ∧ after Cert.KernelIdeal.Gen.hostOps1_2 (after Cert.KernelIdeal.Gen.hostOps1_1 (after Cert.KernelIdeal.Gen.hostOps1 X)) (Proc.devRef .tc Cert.KernelIdeal.main_v34)
        = after (Cert.ReferenceIdeal.Hand.opsMid (F := Ideal)) Y (Proc.devRef .tc Cert.ReferenceIdeal.main_v64)
      ∧ after Cert.KernelIdeal.Gen.hostOps1_2 (after Cert.KernelIdeal.Gen.hostOps1_1 (after Cert.KernelIdeal.Gen.hostOps1 X)) (Proc.devRef .tc Cert.KernelIdeal.main_v35)
        = after (Cert.ReferenceIdeal.Hand.opsMid (F := Ideal)) Y (Proc.devRef .tc Cert.ReferenceIdeal.main_v65)
      ∧ after Cert.KernelIdeal.Gen.hostOps1_2 (after Cert.KernelIdeal.Gen.hostOps1_1 (after Cert.KernelIdeal.Gen.hostOps1 X)) (Proc.devRef .tc Cert.KernelIdeal.main_v40)
        = after (Cert.ReferenceIdeal.Hand.opsMid (F := Ideal)) Y (Proc.devRef .tc Cert.ReferenceIdeal.main_v70) := by
  refine ⟨?_, ?_, ?_, ?_⟩ <;>
  · simp only [Cert.KernelIdeal.Gen.hostOps1, Cert.KernelIdeal.Gen.hostOps1_1, Cert.KernelIdeal.Gen.hostOps1_2,
      Cert.ReferenceIdeal.Hand.opsMid, Cert.ReferenceIdeal.Hand.ops, List.take, List.drop]
    after_results_simp
    try rw [hE]
    try rw [h5]
    try rw [h6]
    try rw [h7]
    try rw [h8]
    try rw [h9]
    rfl

end Cert.Bridge

end
-- ==== Proof.R0Closed.lean ====
import proofs.«104290_j46119358825052_2_alg».proof.Proof.Gen.KernelIdeal.Launch
import proofs.«104290_j46119358825052_2_alg».proof.Proof.Gen.KernelIdeal.Skeleton
import proofs.«104290_j46119358825052_2_alg».proof.Proof.Gen.KernelIdeal.Points
import proofs.«104290_j46119358825052_2_alg».proof.Proof.R0Body
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder region in closed form

What the runs found, read back as values: the accumulator after a point is the block product added to what it held
(to the zero splat at the first inner step), and the output buffer at the last inner step is the epilogue of the
accumulator and the three row vectors. Each store of the body covers its whole buffer, and each load reads a whole
buffer, so a buffer's contents after the body is the payload of its last store. -/

variable (V : (c : Dev nD) → (b : Ref sig .tc) → Buf (Elt F) ((c : Thread nD τ).loc b))

/-- The zero offsets of the whole-buffer rectangles, as constant functions. -/
theorem hz2 : (![0, 0] : Fin 2 → Nat) = fun _ => 0 := funext fun a => by fin_cases a <;> rfl
theorem hz1 : (![0] : Fin 1 → Nat) = fun _ => 0 := funext fun a => by fin_cases a <;> rfl

/-! ## One lemma per found piece -/

/-- Case A leaves in the accumulator the block product added to the zero splat: the second store's payload, whose
    read-back of the first store is that store's payload. -/
theorem accA_eq (c : Dev nD) (t : Fin cfg0.N) (h0 : t.val % 8 = 0) :
    accA V c t h0 = k0_pay2 (iblk V c 0 t) (iblk V c 1 t) (k0_pay1 (F := F)) := by
  unfold accA
  rw [View.read_writes_eq_canon _ _ _ (scoverA V c t h0)]
  unfold atA runA
  dsimp only
  sl_unfold_words
  rw [View.canon_cons_unit_zero (S := S1024x1024) hz2, View.readCov_unit_zero (S := S1024x1024) _ hz2]
  simp only [View.readAt_eq_ld, (hs0 t).read_unread, (hs1 t).read_unread, (hs2 t).read_unread, (hs3 t).read_unread, (hs4 t).read_unread, (Memref.isWhole_whole cc0_scratch0).read_unread, View.ld_unit_zero (S := S1024x2048) hz2, View.ld_unit_zero (S := S1024x1024) hz2, View.ld_unit_zero (S := S1024) hz1]

/-- Case B leaves in the accumulator the block product added to what it held. -/
theorem accB_eq (c : Dev nD) (t : Fin cfg0.N) (h0 : ¬t.val % 8 = 0) (h1 : ¬t.val % 8 = 7) (xs : Vec F S1024x1024 .f32) :
    accB V c t h0 h1 xs = k0_pay2 (iblk V c 0 t) (iblk V c 1 t) xs := by
  unfold accB
  rw [View.read_writes_eq_canon _ _ _ (scoverB V c t h0 h1 xs)]
  unfold atB runB
  dsimp only
  sl_unfold_words
  rw [View.canon_unit_zero (S := S1024x1024) hz2]
  simp only [View.readAt_eq_ld, (hs0 t).read_unread, (hs1 t).read_unread, (hs2 t).read_unread, (hs3 t).read_unread, (hs4 t).read_unread, (Memref.isWhole_whole cc0_scratch0).read_unread, View.ld_unit_zero (S := S1024x2048) hz2, View.ld_unit_zero (S := S1024x1024) hz2, View.ld_unit_zero (S := S1024) hz1]

/-- Case C leaves the same in the accumulator. -/
theorem accC_eq (c : Dev nD) (t : Fin cfg0.N) (h0 : ¬t.val % 8 = 0) (h1 : t.val % 8 = 7) (xs : Vec F S1024x1024 .f32) :
    accC V c t h0 h1 xs = k0_pay2 (iblk V c 0 t) (iblk V c 1 t) xs := by
  unfold accC
  rw [View.read_writes_eq_canon _ _ _ (scoverC V c t h0 h1 xs)]
  unfold atC runC
  dsimp only
  sl_unfold_words
  rw [View.canon_unit_zero (S := S1024x1024) hz2]
  simp only [View.readAt_eq_ld, (hs0 t).read_unread, (hs1 t).read_unread, (hs2 t).read_unread, (hs3 t).read_unread, (hs4 t).read_unread, (Memref.isWhole_whole cc0_scratch0).read_unread, View.ld_unit_zero (S := S1024x2048) hz2, View.ld_unit_zero (S := S1024x1024) hz2, View.ld_unit_zero (S := S1024) hz1]

/-- Case C leaves in the output buffer the epilogue of the accumulator as the point's own store left it and of the
    three row vectors' blocks. -/
theorem outC_eq (c : Dev nD) (t : Fin cfg0.N) (h0 : ¬t.val % 8 = 0) (h1 : t.val % 8 = 7) (xs : Vec F S1024x1024 .f32) :
    outC V c t h0 h1 xs = k0_pay3 (k0_pay2 (iblk V c 0 t) (iblk V c 1 t) xs) (iblk V c 2 t) (iblk V c 3 t) (iblk V c 4 t) := by
  unfold outC
  rw [View.read_writes_eq_canon _ _ _ (coverC V c t h0 h1 xs)]
  unfold atC runC
  dsimp only
  sl_unfold_words
  rw [View.canon_unit_zero (S := S1024x1024) hz2, View.readCov_unit_zero (S := S1024x1024) _ hz2]
  simp only [View.readAt_eq_ld, (hs0 t).read_unread, (hs1 t).read_unread, (hs2 t).read_unread, (hs3 t).read_unread, (hs4 t).read_unread, (Memref.isWhole_whole cc0_scratch0).read_unread, View.ld_unit_zero (S := S1024x2048) hz2, View.ld_unit_zero (S := S1024x1024) hz2, View.ld_unit_zero (S := S1024) hz1]

/-! ## The accumulation, point by point -/

/-- At the first inner step the accumulator ends at the block product added to the zero splat. -/
theorem acc_first (c : Dev nD) (t : Fin cfg0.N) (h : t.val % 8 = 0) :
    (outsAt V c t.val t.isLt).2 = k0_pay2 (iblk V c 0 t) (iblk V c 1 t) (k0_pay1 (F := F)) := by
  rw [outsAt_A V c t h]
  dsimp only
  exact accA_eq V c t h

/-- At every other inner step it ends at the block product added to what the point before left. -/
theorem acc_next (c : Dev nD) (t : Fin cfg0.N) (h : t.val % 8 ≠ 0) :
    (outsAt V c t.val t.isLt).2 = k0_pay2 (iblk V c 0 t) (iblk V c 1 t) (outsAt V c (t.val - 1) (by omega)).2 := by
  by_cases h1 : t.val % 8 = 7
  · rw [outsAt_C V c t h h1]
    dsimp only
    exact accC_eq V c t h h1 (outsAt V c (t.val - 1) (Nat.lt_of_le_of_lt (Nat.sub_le _ _) t.isLt)).2
  · rw [outsAt_B V c t h h1]
    dsimp only
    exact accB_eq V c t h h1 (outsAt V c (t.val - 1) (Nat.lt_of_le_of_lt (Nat.sub_le _ _) t.isLt)).2

/-- At the last inner step the output buffer ends at the epilogue of the accumulator's final contents. -/
theorem out_last (c : Dev nD) (t : Fin cfg0.N) (h : t.val % 8 = 7) :
    (outsAt V c t.val t.isLt).1 = k0_pay3 (outsAt V c t.val t.isLt).2 (iblk V c 2 t) (iblk V c 3 t) (iblk V c 4 t) := by
  have h0 : ¬t.val % 8 = 0 := by omega
  rw [outsAt_C V c t h0 h]
  dsimp only
  rw [accC_eq V c t h0 h (outsAt V c (t.val - 1) (Nat.lt_of_le_of_lt (Nat.sub_le _ _) t.isLt)).2]
  exact outC_eq V c t h0 h (outsAt V c (t.val - 1) (Nat.lt_of_le_of_lt (Nat.sub_le _ _) t.isLt)).2

end Cert.KernelIdeal.R0

end
-- ==== Proof.Blocks.lean ====
/-
  Each window's block at a grid point, read at explicit coordinates as entries of the window's array: an element of the
  block at point `t` sits, on every axis, at the block's index there times the block's extent plus its own coordinate.
  The encoder region's 16 points are column block `t / 8` of the weights at contraction block `t % 8`; the decoder
  region's 16 points are the row blocks of the output weights.
-/
import proofs.«104290_j46119358825052_2_alg».proof.Proof.Gen.KernelIdeal.Launch
import proofs.«104290_j46119358825052_2_alg».proof.Proof.Gen.KernelIdeal.Points
import Idealize.ShloMosaic.Lib.Pipeline.Value
import Idealize.ShloMosaic.Lib.ValueIdx

set_option maxRecDepth 16384

noncomputable section

open Idealize.ShloMosaic Idealize.ShloMosaic.TcCoe Idealize.SL.Sem
open Cert.KernelIdeal Cert.KernelIdeal.Gen

namespace Cert.KernelIdeal.Blocks

variable {F : FTy → Type} [FloatOps F]
variable (V : (c : Dev nD) → (b : Ref sig .tc) → Buf (Elt F) ((c : Thread nD τ).loc b))

open Idealize.ShloMosaic.ValueIdx

/-! ## The encoder region: point `t` of its 16 works on column block `t / 8` of the weights at contraction block `t % 8` -/

/-- The block index of each window of the encoder region at each grid point. -/
theorem idx0 : ∀ t : Fin grid0.N,
    win0_0.index t 0 = 0 ∧ win0_0.index t 1 = t.val % 8 ∧ win0_1.index t 0 = t.val / 8 ∧ win0_1.index t 1 = t.val % 8
      ∧ win0_2.index t 0 = t.val / 8 ∧ win0_3.index t 0 = t.val / 8 ∧ win0_4.index t 0 = t.val / 8
      ∧ win0_5.index t 0 = 0 ∧ win0_5.index t 1 = t.val / 8 := by decide +kernel

/-- The input's block at point `t`: all 1024 rows, columns `2048 (t % 8) + q`. -/
theorem blk0_0 (c : Dev nD) (t : Fin cfg0.N) (r : Fin 1024) (q : Fin 2048) (hq : 2048 * (t.val % 8) + q.val < 16384) :
    (((cfg0.win 0).blk t).view.read (Elt F) (V c (Pipeline.arrRef spec0 0)) : Vec F S1024x2048 .f32) (ix2 r q)
      = (V c main_v0 : S1024x16384.Idx → Elt F .f32) (ix2 r ⟨2048 * (t.val % 8) + q.val, hq⟩) := by
  rw [View.read_apply]
  show V c main_v0 _ = V c main_v0 _
  refine congrArg _ (funext fun a => Fin.ext ?_)
  match a with
  | ⟨0, _⟩ => show win0_0.index t 0 * 1024 + 1 * r.val = r.val; rw [(idx0 t).1]; omega
  | ⟨1, _⟩ => show win0_0.index t 1 * 2048 + 1 * q.val = 2048 * (t.val % 8) + q.val; rw [(idx0 t).2.1]; omega

/-- The weights' block at point `t`: rows `1024 (t / 8) + j`, columns `2048 (t % 8) + q`. -/
theorem blk0_1 (c : Dev nD) (t : Fin cfg0.N) (j : Fin 1024) (q : Fin 2048) (hj : 1024 * (t.val / 8) + j.val < 2048)
    (hq : 2048 * (t.val % 8) + q.val < 16384) :
    (((cfg0.win 1).blk t).view.read (Elt F) (V c (Pipeline.arrRef spec0 1)) : Vec F S1024x2048 .f32) (ix2 j q)
      = (V c main_arg1 : S2048x16384.Idx → Elt F .f32) (ix2 ⟨1024 * (t.val / 8) + j.val, hj⟩ ⟨2048 * (t.val % 8) + q.val, hq⟩) := by
  rw [View.read_apply]
  show V c main_arg1 _ = V c main_arg1 _
  refine congrArg _ (funext fun a => Fin.ext ?_)
  match a with
  | ⟨0, _⟩ => show win0_1.index t 0 * 1024 + 1 * j.val = 1024 * (t.val / 8) + j.val; rw [(idx0 t).2.2.1]; omega
  | ⟨1, _⟩ => show win0_1.index t 1 * 2048 + 1 * q.val = 2048 * (t.val % 8) + q.val; rw [(idx0 t).2.2.2.1]; omega

/-- The bias block at point `t`: entries `1024 (t / 8) + j`. -/
theorem blk0_2 (c : Dev nD) (t : Fin cfg0.N) (j : Fin 1024) (hj : 1024 * (t.val / 8) + j.val < 2048) :
    (((cfg0.win 2).blk t).view.read (Elt F) (V c (Pipeline.arrRef spec0 2)) : Vec F S1024 .f32) (ix1 j)
      = (V c main_arg2 : S2048.Idx → Elt F .f32) (ix1 ⟨1024 * (t.val / 8) + j.val, hj⟩) := by
  rw [View.read_apply]
  show V c main_arg2 _ = V c main_arg2 _
  refine congrArg _ (funext fun a => Fin.ext ?_)
  match a with
  | ⟨0, _⟩ => show win0_2.index t 0 * 1024 + 1 * j.val = 1024 * (t.val / 8) + j.val; rw [(idx0 t).2.2.2.2.1]; omega

/-- The scale block at point `t`. -/
theorem blk0_3 (c : Dev nD) (t : Fin cfg0.N) (j : Fin 1024) (hj : 1024 * (t.val / 8) + j.val < 2048) :
    (((cfg0.win 3).blk t).view.read (Elt F) (V c (Pipeline.arrRef spec0 3)) : Vec F S1024 .f32) (ix1 j)
      = (V c main_arg3 : S2048.Idx → Elt F .f32) (ix1 ⟨1024 * (t.val / 8) + j.val, hj⟩) := by
  rw [View.read_apply]
  show V c main_arg3 _ = V c main_arg3 _
  refine congrArg _ (funext fun a => Fin.ext ?_)
  match a with
  | ⟨0, _⟩ => show win0_3.index t 0 * 1024 + 1 * j.val = 1024 * (t.val / 8) + j.val; rw [(idx0 t).2.2.2.2.2.1]; omega

/-- The shift block at point `t`. -/
theorem blk0_4 (c : Dev nD) (t : Fin cfg0.N) (j : Fin 1024) (hj : 1024 * (t.val / 8) + j.val < 2048) :
    (((cfg0.win 4).blk t).view.read (Elt F) (V c (Pipeline.arrRef spec0 4)) : Vec F S1024 .f32) (ix1 j)
      = (V c main_arg4 : S2048.Idx → Elt F .f32) (ix1 ⟨1024 * (t.val / 8) + j.val, hj⟩) := by
  rw [View.read_apply]
  show V c main_arg4 _ = V c main_arg4 _
  refine congrArg _ (funext fun a => Fin.ext ?_)
  match a with
  | ⟨0, _⟩ => show win0_4.index t 0 * 1024 + 1 * j.val = 1024 * (t.val / 8) + j.val; rw [(idx0 t).2.2.2.2.2.2.1]; omega

/-! ## The decoder region: point `t` of its 16 works on row block `t` of the output weights -/

theorem idx1 : ∀ t : Fin grid1.N,
    win1_0.index t 0 = 0 ∧ win1_0.index t 1 = 0 ∧ win1_1.index t 0 = 0 ∧ win1_2.index t 0 = 0
      ∧ win1_3.index t 0 = t.val ∧ win1_3.index t 1 = 0 ∧ win1_4.index t 0 = t.val
      ∧ win1_5.index t 0 = 0 ∧ win1_5.index t 1 = t.val := by decide +kernel

/-- The decoder's resident input is the whole array at every point. -/
theorem blk1_0 (c : Dev nD) (t : Fin cfg1.N) (r : Fin 1024) (k : Fin 2048) :
    (((cfg1.win 0).blk t).view.read (Elt F) (V c (Pipeline.arrRef spec1 0)) : Vec F S1024x2048 .f32) (ix2 r k)
      = (V c main_v40 : S1024x2048.Idx → Elt F .f32) (ix2 r k) := by
  rw [View.read_apply]
  show V c main_v40 _ = V c main_v40 _
  refine congrArg _ (funext fun a => Fin.ext ?_)
  match a with
  | ⟨0, _⟩ => show win1_0.index t 0 * 1024 + 1 * r.val = r.val; rw [(idx1 t).1]; omega
  | ⟨1, _⟩ => show win1_0.index t 1 * 2048 + 1 * k.val = k.val; rw [(idx1 t).2.1]; omega

theorem blk1_1 (c : Dev nD) (t : Fin cfg1.N) (k : Fin 2048) :
    (((cfg1.win 1).blk t).view.read (Elt F) (V c (Pipeline.arrRef spec1 1)) : Vec F S2048 .f32) (ix1 k)
      = (V c main_arg10 : S2048.Idx → Elt F .f32) (ix1 k) := by
  rw [View.read_apply]
  show V c main_arg10 _ = V c main_arg10 _
  refine congrArg _ (funext fun a => Fin.ext ?_)
  match a with
  | ⟨0, _⟩ => show win1_1.index t 0 * 2048 + 1 * k.val = k.val; rw [(idx1 t).2.2.1]; omega

theorem blk1_2 (c : Dev nD) (t : Fin cfg1.N) (k : Fin 2048) :
    (((cfg1.win 2).blk t).view.read (Elt F) (V c (Pipeline.arrRef spec1 2)) : Vec F S2048 .f32) (ix1 k)
      = (V c main_arg11 : S2048.Idx → Elt F .f32) (ix1 k) := by
  rw [View.read_apply]
  show V c main_arg11 _ = V c main_arg11 _
  refine congrArg _ (funext fun a => Fin.ext ?_)
  match a with
  | ⟨0, _⟩ => show win1_2.index t 0 * 2048 + 1 * k.val = k.val; rw [(idx1 t).2.2.2.1]; omega

/-- The output weights' block at point `t`: rows `1024 t + j`. -/
theorem blk1_3 (c : Dev nD) (t : Fin cfg1.N) (j : Fin 1024) (k : Fin 2048) (hj : 1024 * t.val + j.val < 16384) :
    (((cfg1.win 3).blk t).view.read (Elt F) (V c (Pipeline.arrRef spec1 3)) : Vec F S1024x2048 .f32) (ix2 j k)
      = (V c main_arg12 : S16384x2048.Idx → Elt F .f32) (ix2 ⟨1024 * t.val + j.val, hj⟩ k) := by
  rw [View.read_apply]
  show V c main_arg12 _ = V c main_arg12 _
  refine congrArg _ (funext fun a => Fin.ext ?_)
  match a with
  | ⟨0, _⟩ => show win1_3.index t 0 * 1024 + 1 * j.val = 1024 * t.val + j.val; rw [(idx1 t).2.2.2.2.1]; omega
  | ⟨1, _⟩ => show win1_3.index t 1 * 2048 + 1 * k.val = k.val; rw [(idx1 t).2.2.2.2.2.1]; omega

/-- The output bias block at point `t`. -/
theorem blk1_4 (c : Dev nD) (t : Fin cfg1.N) (j : Fin 1024) (hj : 1024 * t.val + j.val < 16384) :
    (((cfg1.win 4).blk t).view.read (Elt F) (V c (Pipeline.arrRef spec1 4)) : Vec F S1024 .f32) (ix1 j)
      = (V c main_arg13 : S16384.Idx → Elt F .f32) (ix1 ⟨1024 * t.val + j.val, hj⟩) := by
  rw [View.read_apply]
  show V c main_arg13 _ = V c main_arg13 _
  refine congrArg _ (funext fun a => Fin.ext ?_)
  match a with
  | ⟨0, _⟩ => show win1_4.index t 0 * 1024 + 1 * j.val = 1024 * t.val + j.val; rw [(idx1 t).2.2.2.2.2.2.1]; omega

end Cert.KernelIdeal.Blocks

end
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.LibAccumulate.lean ====
/-
  Accumulated sums. A quantity that starts as 0 + f 0 and has f (n + 1) added at step n + 1 is, after step n, the
  sum of f over the first n + 1 naturals. Stated for any commutative additive monoid (the extended reals are one),
  unbounded and for a recursion that only runs below a bound; then for an accumulation over the consecutive blocks of
  a blocked index range, whose last value is the whole sum (16 blocks of 256, 11 blocks of 384).
-/
import proofs.«104290_j46119358825052_2_alg».proof.Proof.LibBlockSum

namespace Cert.LibAccumulate

open Finset

variable {M : Type*} [AddCommMonoid M]

/-- g 0 = 0 + f 0 and g (n + 1) = g n + f (n + 1) give g n = Σ_{j ≤ n} f j. -/
theorem partial_sums (f g : ℕ → M) (h0 : g 0 = 0 + f 0) (hs : ∀ n, g (n + 1) = g n + f (n + 1)) (n : ℕ) :
    g n = ∑ j ∈ range (n + 1), f j := by
  induction n with
  | zero => rw [h0, zero_add, Finset.sum_range_one]
  | succ n ih => rw [hs, ih, Finset.sum_range_succ f (n + 1)]

/-- The same when the recursion is only known below a bound N. -/
theorem partial_sums_lt (N : ℕ) (f g : ℕ → M) (h0 : g 0 = 0 + f 0)
    (hs : ∀ n, n + 1 < N → g (n + 1) = g n + f (n + 1)) (n : ℕ) (hn : n < N) :
    g n = ∑ j ∈ range (n + 1), f j := by
  induction n with
  | zero => rw [h0, zero_add, Finset.sum_range_one]
  | succ n ih => rw [hs n hn, ih (by omega), Finset.sum_range_succ f (n + 1)]

/-- After the last step the accumulated value is the sum over all N steps. -/
theorem total_sum (N : ℕ) (f g : ℕ → M) (h0 : g 0 = 0 + f 0)
    (hs : ∀ n, n + 1 < N → g (n + 1) = g n + f (n + 1)) (n : ℕ) (hn : n + 1 = N) :
    g n = ∑ j : Fin N, f j.val := by
  rw [partial_sums_lt N f g h0 hs n (by omega), hn, Fin.sum_univ_eq_sum_range (fun j => f j) N]

/-- The same with the steps and the accumulated values indexed by Fin N. -/
theorem total_sum_fin (N : ℕ) (f g : Fin N → M) (n : ℕ) (hn : n + 1 = N)
    (h0 : g ⟨0, by omega⟩ = 0 + f ⟨0, by omega⟩)
    (hs : ∀ (k : ℕ) (hk : k + 1 < N), g ⟨k + 1, hk⟩ = g ⟨k, by omega⟩ + f ⟨k + 1, hk⟩) :
    g ⟨n, by omega⟩ = ∑ j : Fin N, f j := by
  have key := total_sum N (fun k => if hk : k < N then f ⟨k, hk⟩ else 0) (fun k => if hk : k < N then g ⟨k, hk⟩ else 0)
    (by rw [dif_pos (by omega), dif_pos (by omega)]; exact h0)
    (fun k hk => by rw [dif_pos hk, dif_pos (by omega), dif_pos hk]; exact hs k hk) n hn
  rw [dif_pos (by omega)] at key
  rw [key]
  exact Finset.sum_congr rfl fun j _ => by rw [dif_pos j.isLt]

/-- Partial value of the accumulation indexed by Fin N: after step k it is the sum of the first k + 1 terms. -/
theorem partial_sums_fin (N : ℕ) (f g : Fin N → M) (hN : 0 < N) (h0 : g ⟨0, hN⟩ = 0 + f ⟨0, hN⟩)
    (hs : ∀ (k : ℕ) (hk : k + 1 < N), g ⟨k + 1, hk⟩ = g ⟨k, by omega⟩ + f ⟨k + 1, hk⟩) (k : Fin N) :
    g k = ∑ j ∈ range (k.val + 1), (if hj : j < N then f ⟨j, hj⟩ else 0) := by
  have key := partial_sums_lt N (fun k => if hk : k < N then f ⟨k, hk⟩ else 0)
    (fun k => if hk : k < N then g ⟨k, hk⟩ else 0)
    (by rw [dif_pos hN, dif_pos hN]; exact h0)
    (fun k hk => by rw [dif_pos hk, dif_pos (by omega), dif_pos hk]; exact hs k hk) k.val k.isLt
  rw [dif_pos k.isLt] at key
  exact key

/-! ## Accumulating the blocks of a blocked range -/

/-- An accumulation over the a blocks of b consecutive indices of a family over Fin n, n = a * b: starting from
    0 + (block 0's sum) and adding block k + 1's sum at step k + 1, the value after the last step is the whole sum. -/
theorem total_of_blocks {n : ℕ} (a b : ℕ) (hn : a * b = n) (F : Fin n → M) (g : Fin a → M) (m : ℕ) (hm : m + 1 = a)
    (h0 : g ⟨0, by omega⟩ = 0 + ∑ l : Fin b, F ⟨b * 0 + l.val, hn ▸ LibBlockSum.block_index_lt (by omega) l.isLt⟩)
    (hs : ∀ (k : ℕ) (hk : k + 1 < a), g ⟨k + 1, hk⟩
      = g ⟨k, by omega⟩ + ∑ l : Fin b, F ⟨b * (k + 1) + l.val, hn ▸ LibBlockSum.block_index_lt hk l.isLt⟩) :
    g ⟨m, by omega⟩ = ∑ i : Fin n, F i := by
  rw [← LibBlockSum.sum_fin_blocks_of_eq a b hn F]
  exact total_sum_fin a (fun j => ∑ l : Fin b, F ⟨b * j.val + l.val, hn ▸ LibBlockSum.block_index_lt j.isLt l.isLt⟩) g
    m hm h0 hs

/-- Sixteen blocks of 256: the sixteenth accumulated value is the sum over all 4096 indices. -/
theorem total_16_256 (F : Fin 4096 → M) (g : Fin 16 → M)
    (h0 : g 0 = 0 + ∑ l : Fin 256, F ⟨256 * 0 + l.val, by omega⟩)
    (hs : ∀ (k : ℕ) (hk : k + 1 < 16), g ⟨k + 1, hk⟩
      = g ⟨k, by omega⟩ + ∑ l : Fin 256, F ⟨256 * (k + 1) + l.val, by omega⟩) :
    g 15 = ∑ i : Fin 4096, F i :=
  total_of_blocks 16 256 rfl F g 15 rfl h0 hs

/-- Eleven blocks of 384: the eleventh accumulated value is the sum over all 4224 indices. -/
theorem total_11_384 (F : Fin 4224 → M) (g : Fin 11 → M)
    (h0 : g 0 = 0 + ∑ l : Fin 384, F ⟨384 * 0 + l.val, by omega⟩)
    (hs : ∀ (k : ℕ) (hk : k + 1 < 11), g ⟨k + 1, hk⟩
      = g ⟨k, by omega⟩ + ∑ l : Fin 384, F ⟨384 * (k + 1) + l.val, by omega⟩) :
    g 10 = ∑ i : Fin 4224, F i :=
  total_of_blocks 11 384 rfl F g 10 rfl h0 hs

end Cert.LibAccumulate
-- ==== Proof.EncKernel.lean ====
/-
  The encoder kernel's value at the ideal values: the accumulated block products are the whole linear layer, and the
  final step's normalisation, scale, shift and rectifier are the specification's, column by column.
-/
import proofs.«104290_j46119358825052_2_alg».proof.Proof.Gen.KernelIdeal.Skeleton
import proofs.«104290_j46119358825052_2_alg».proof.Proof.EncSpec
import proofs.«104290_j46119358825052_2_alg».proof.Proof.LibAccumulate
import proofs.«104290_j46119358825052_2_alg».proof.Proof.LibRowOps
import proofs.«104290_j46119358825052_2_alg».proof.Proof.LibRowBlock
import Idealize.ShloMosaic.Lib.ValueLayout

noncomputable section

open scoped BigOperators

namespace Cert.Enc

open Idealize.ShloMosaic Idealize.ShloMosaic.ValueIdx Cert.KernelIdeal

/-! ## The accumulation step at an index -/

/-- The accumulator's start value is zero everywhere. -/
theorem pay1_apply (i : S1024x1024.Idx) : Gen.k0_pay1 (F := Ideal) i = 0 := by
  unfold Gen.k0_pay1
  rw [shapeCast_self]
  exact Ideal.ofBits_zero_f32

/-- One accumulation step at (r, j): the old accumulator there plus row r of the x block against row j of the W block
    (the change of format is the identity, the transposed block read at (c, j) is the block at (j, c), and the product
    into the zero splat is the plain sum of products). -/
theorem pay2_apply (v3 v6 : FVec Ideal S1024x2048 .f32) (v8 : FVec Ideal S1024x1024 .f32) (r j : Fin 1024) :
    Gen.k0_pay2 (F := Ideal) v3 v6 v8 (ix2 r j) = v8 (ix2 r j) + ∑ c : Fin 2048, v3 (ix2 r c) * v6 (ix2 j c) := by
  unfold Gen.k0_pay2
  rw [shapeCast_self, shapeCast_self, addf_apply,
    RowLib.dotDims_eq_plain dot_S1024x2048_S2048x1024_S1024x1024_1_0_0_1_n_n rfl rfl rfl rfl rfl rfl,
    RowLib.matmul_plain_zero_ix2]
  refine congrArg (v8 (ix2 r j) + ·) (Finset.sum_congr rfl fun c _ => ?_)
  rw [truncf_apply, transpose_ix2_apply, truncf_apply]

/-! ## The accumulated blocks are the whole product -/

/-- After the eighth step the accumulator at (r, j) is row r of x against row 1024 m + j of W over all 16384 inputs:
    the eight block sums of 2048 consecutive inputs, started from zero, make the whole sum. -/
theorem acc_total (m : Fin 2) (x : FVec Ideal ⟨2, ![1024, 16384]⟩ .f32) (W : FVec Ideal ⟨2, ![2048, 16384]⟩ .f32)
    (xb wb : Fin 8 → FVec Ideal S1024x2048 .f32) (acc : Fin 8 → FVec Ideal S1024x1024 .f32)
    (hx : ∀ (k : Fin 8) (r : Fin 1024) (c : Fin 2048), xb k (ix2 r c) = x (ix2 r ⟨2048 * k.val + c.val, by omega⟩))
    (hw : ∀ (k : Fin 8) (j : Fin 1024) (c : Fin 2048),
      wb k (ix2 j c) = W (ix2 ⟨1024 * m.val + j.val, by omega⟩ ⟨2048 * k.val + c.val, by omega⟩))
    (h0 : acc 0 = Gen.k0_pay2 (F := Ideal) (xb 0) (wb 0) (Gen.k0_pay1 (F := Ideal)))
    (hs : ∀ (k : ℕ) (hk : k + 1 < 8),
      acc ⟨k + 1, hk⟩ = Gen.k0_pay2 (F := Ideal) (xb ⟨k + 1, hk⟩) (wb ⟨k + 1, hk⟩) (acc ⟨k, by omega⟩))
    (r j : Fin 1024) :
    acc 7 (ix2 r j) = ∑ c : Fin 16384, x (ix2 r c) * W (ix2 ⟨1024 * m.val + j.val, by omega⟩ c) := by
  refine LibAccumulate.total_of_blocks 8 2048 rfl
    (fun c => x (ix2 r c) * W (ix2 ⟨1024 * m.val + j.val, by omega⟩ c)) (fun k => acc k (ix2 r j)) 7 rfl ?_ ?_
  · show acc 0 (ix2 r j) = _
    rw [h0, pay2_apply, pay1_apply]
    refine congrArg (0 + ·) (Finset.sum_congr rfl fun l _ => ?_)
    rw [hx, hw]
    rfl
  · intro k hk
    show acc ⟨k + 1, hk⟩ (ix2 r j) = acc ⟨k, _⟩ (ix2 r j) + _
    rw [hs k hk, pay2_apply]
    refine congrArg (_ + ·) (Finset.sum_congr rfl fun l _ => ?_)
    rw [hx, hw]

/-! ## The final step at an index -/

/-- A sum down the rows of a 1024 × 1024 block, read at column j, is the sum over the rows of the block at (row, j). -/
theorem colsum_apply (src : FVec Ideal S1024x1024 .f32) (h : S1024x1024.Reduces [0] S1024) (hφ : FKind.Formats .f32)
    (hacc : (0x00000000#32 : BitVec 32) = 0x00000000#32) (j : Fin 1024) :
    multiReduction (F := Ideal) .add [0] S1024 src 0x00000000#32 h hφ hacc (ix1 j) = ∑ r : Fin 1024, src (ix2 r j) := by
  refine (Ideal.multiReduction_add_single src 0x00000000#32 h hφ hacc (ix1 j)).trans ?_
  refine Finset.sum_congr rfl fun r _ => congrArg src (funext fun a => ?_)
  match a with
  | ⟨0, _⟩ => rfl
  | ⟨1, _⟩ => rfl

/-- The reciprocal square root of a vector at an index is the extended reals' of the element. -/
theorem rsqrt_apply {s : Shape} (a : FVec Ideal s .f32) (i : s.Idx) : rsqrt a i = Ideal.rsqrt (a i) := rfl

/-- A length-1024 vector written as one row and repeated down 1024 rows reads, at (p, j), its entry j. -/
theorem rows_apply (v : FVec Ideal S1024 .f32) (h1 : S1024.ShapeCasts S1x1024) (h2 : S1x1024.Broadcasts S1024x1024)
    (p j : Fin 1024) : broadcastTo S1024x1024 (shapeCast S1x1024 v h1) h2 (ix2 p j) = v (ix1 j) :=
  RowBlockLib.bias_rows_apply (by decide) v h1 h2 p j

/-- The last step's stored value at (r, j): column j of accumulator plus bias, normalised over its 1024 rows, scaled,
    shifted and rectified, read at row r. -/
theorem pay3_apply (v18 : FVec Ideal S1024x1024 .f32) (v19 v41 v45 : FVec Ideal S1024 .f32) (r j : Fin 1024) :
    Gen.k0_pay3 (F := Ideal) v18 v19 v41 v45 (ix2 r j)
      = normRelu (fun r' => v18 (ix2 r' j) + v19 (ix1 j)) (v41 (ix1 j)) (v45 (ix1 j)) r := by
  unfold Gen.k0_pay3
  simp only [maximumf_apply, addf_apply, mulf_apply, subf_apply, divf_apply, broadcast_apply, rows_apply,
    broadcastTo_1b_ab_apply, shapeCast_a_1a_apply, rsqrt_apply, Ideal.ofBits_def]
  rw [colsum_apply, colsum_apply]
  simp only [addf_apply, mulf_apply, subf_apply, divf_apply, broadcast_apply, rows_apply,
    broadcastTo_1b_ab_apply, shapeCast_a_1a_apply, Ideal.ofBits_def]
  rw [colsum_apply]
  simp only [addf_apply, rows_apply]
  rfl

/-! ## The kernel's encoder is the specification -/

/-- The encoder kernel's stored block, column block m, at (r, j) is the specification at (r, 1024 m + j): the
    accumulated blocks are the whole linear layer, the bias, scale and shift blocks are the arrays' entries of column
    1024 m + j, and the last step normalises that column over its 1024 rows. -/
theorem enc_kernel (m : Fin 2) (x : FVec Ideal ⟨2, ![1024, 16384]⟩ .f32) (W : FVec Ideal ⟨2, ![2048, 16384]⟩ .f32)
    (b g be : FVec Ideal ⟨1, ![2048]⟩ .f32)
    (xb wb : Fin 8 → FVec Ideal S1024x2048 .f32) (acc : Fin 8 → FVec Ideal S1024x1024 .f32)
    (bb gb beb : FVec Ideal S1024 .f32)
    (hx : ∀ (k : Fin 8) (r : Fin 1024) (c : Fin 2048), xb k (ix2 r c) = x (ix2 r ⟨2048 * k.val + c.val, by omega⟩))
    (hw : ∀ (k : Fin 8) (j : Fin 1024) (c : Fin 2048),
      wb k (ix2 j c) = W (ix2 ⟨1024 * m.val + j.val, by omega⟩ ⟨2048 * k.val + c.val, by omega⟩))
    (hb : ∀ j : Fin 1024, bb (ix1 j) = b (ix1 ⟨1024 * m.val + j.val, by omega⟩))
    (hg : ∀ j : Fin 1024, gb (ix1 j) = g (ix1 ⟨1024 * m.val + j.val, by omega⟩))
    (hbe : ∀ j : Fin 1024, beb (ix1 j) = be (ix1 ⟨1024 * m.val + j.val, by omega⟩))
    (h0 : acc 0 = Gen.k0_pay2 (F := Ideal) (xb 0) (wb 0) (Gen.k0_pay1 (F := Ideal)))
    (hs : ∀ (k : ℕ) (hk : k + 1 < 8),
      acc ⟨k + 1, hk⟩ = Gen.k0_pay2 (F := Ideal) (xb ⟨k + 1, hk⟩) (wb ⟨k + 1, hk⟩) (acc ⟨k, by omega⟩))
    (r j : Fin 1024) :
    Gen.k0_pay3 (F := Ideal) (acc 7) bb gb beb (ix2 r j) = encSpec x W b g be r ⟨1024 * m.val + j.val, by omega⟩ := by
  rw [pay3_apply, hg, hbe]
  unfold encSpec
  refine congrArg (fun h => normRelu h _ _ r) (funext fun r' => ?_)
  rw [acc_total m x W xb wb acc hx hw h0 hs r' j, hb]
  rfl

end Cert.Enc

end
-- ==== Proof.EncArray.lean ====
/-
  The encoder region's output array. Each of the two column blocks of the output is written back once, at the last of
  its eight inner steps, and what is written there is the specification's block: the eight accumulation steps of that
  column block make the whole linear layer, and the last step normalises, scales, shifts and rectifies its columns. The
  two written blocks tile the array, so the array ends holding the reference's encoder of the arrays the region found.
-/
import proofs.«104290_j46119358825052_2_alg».proof.Proof.R0Body
import proofs.«104290_j46119358825052_2_alg».proof.Proof.R0Closed
import proofs.«104290_j46119358825052_2_alg».proof.Proof.Blocks
import proofs.«104290_j46119358825052_2_alg».proof.Proof.EncKernel
import proofs.«104290_j46119358825052_2_alg».proof.Proof.EncRef
import Idealize.ShloMosaic.Lib.Pipeline.Value

set_option maxRecDepth 16384

noncomputable section

namespace Cert.Enc

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The reference's encoder of the five arrays as the region finds them. -/
def encArr (c : Dev nD) : FVec Ideal S1024x2048 .f32 :=
  encRef (V c main_v0 : S1024x16384.Idx → Elt Ideal .f32) (V c main_arg1 : S2048x16384.Idx → Elt Ideal .f32)
    (V c main_arg2 : S2048.Idx → Elt Ideal .f32) (V c main_arg3 : S2048.Idx → Elt Ideal .f32)
    (V c main_arg4 : S2048.Idx → Elt Ideal .f32)

/-- Inner step k of the column block that point t belongs to: point 8 (t / 8) + k. -/
def stepOf (t : Fin cfg0.N) (k : Fin 8) : Fin cfg0.N :=
  ⟨8 * (t.val / 8) + k.val, by have hN : cfg0.N = 16 := N_0; have := t.isLt; omega⟩

/-- The accumulation's value depends on the position only. -/
theorem outsAt_congr (c : Dev nD) {n n' : ℕ} (h : n = n') (hn : n < cfg0.N) (hn' : n' < cfg0.N) :
    R0.outsAt V c n hn = R0.outsAt V c n' hn' := by
  subst h; rfl

/-- What the last inner step of a column block leaves in the output buffer, at (r, j): the specification at
    (r, 1024 (t / 8) + j). -/
theorem out_block (c : Dev nD) (t : Fin cfg0.N) (h7 : t.val % 8 = 7) (r j : Fin 1024)
    (hJ : 1024 * (t.val / 8) + j.val < 2048) :
    ((R0.outsAt V c t.val t.isLt).1 : FVec Ideal S1024x1024 .f32) (ix2 r j)
      = encSpec (V c main_v0 : S1024x16384.Idx → Elt Ideal .f32) (V c main_arg1 : S2048x16384.Idx → Elt Ideal .f32)
          (V c main_arg2 : S2048.Idx → Elt Ideal .f32) (V c main_arg3 : S2048.Idx → Elt Ideal .f32)
          (V c main_arg4 : S2048.Idx → Elt Ideal .f32) r ⟨1024 * (t.val / 8) + j.val, hJ⟩ := by
  have hN : cfg0.N = 16 := N_0
  have ht : t.val < 16 := hN ▸ t.isLt
  rw [R0.out_last V c t h7]
  have hacc : (R0.outsAt V c t.val t.isLt).2 = (R0.outsAt V c (stepOf t 7).val (stepOf t 7).isLt).2 :=
    congrArg Prod.snd (outsAt_congr V c (by show t.val = 8 * (t.val / 8) + 7; omega) _ _)
  rw [hacc]
  exact enc_kernel ⟨t.val / 8, by omega⟩ _ _ _ _ _
    (fun k => R0.iblk V c 0 (stepOf t k)) (fun k => R0.iblk V c 1 (stepOf t k))
    (fun k => (R0.outsAt V c (stepOf t k).val (stepOf t k).isLt).2)
    (R0.iblk V c 2 t) (R0.iblk V c 3 t) (R0.iblk V c 4 t)
    (fun k r q => (Blocks.blk0_0 V c (stepOf t k) r q
        (by show 2048 * ((8 * (t.val / 8) + k.val) % 8) + q.val < 16384; omega)).trans
      (congrArg (fun n => (V c main_v0 : S1024x16384.Idx → Elt Ideal .f32) (ix2 r n))
        (Fin.ext (by show 2048 * ((8 * (t.val / 8) + k.val) % 8) + q.val = 2048 * k.val + q.val; omega))))
    (fun k j q => (Blocks.blk0_1 V c (stepOf t k) j q
        (by show 1024 * ((8 * (t.val / 8) + k.val) / 8) + j.val < 2048; omega)
        (by show 2048 * ((8 * (t.val / 8) + k.val) % 8) + q.val < 16384; omega)).trans
      (congrArg₂ (fun n n' => (V c main_arg1 : S2048x16384.Idx → Elt Ideal .f32) (ix2 n n'))
        (Fin.ext (by show 1024 * ((8 * (t.val / 8) + k.val) / 8) + j.val = 1024 * (t.val / 8) + j.val; omega))
        (Fin.ext (by show 2048 * ((8 * (t.val / 8) + k.val) % 8) + q.val = 2048 * k.val + q.val; omega))))
    (fun j => Blocks.blk0_2 V c t j (by omega))
    (fun j => Blocks.blk0_3 V c t j (by omega))
    (fun j => Blocks.blk0_4 V c t j (by omega))
    (R0.acc_first V c (stepOf t 0) (by show (8 * (t.val / 8) + 0) % 8 = 0; omega))
    (fun k hk => (R0.acc_next V c (stepOf t ⟨k + 1, hk⟩) (by show (8 * (t.val / 8) + (k + 1)) % 8 ≠ 0; omega)).trans
      (congrArg (k0_pay2 (F := Ideal) _ _)
        (congrArg Prod.snd (outsAt_congr V c (by show 8 * (t.val / 8) + (k + 1) - 1 = 8 * (t.val / 8) + k; omega) _ _))))
    r j

/-- The output window's block at point t, of any array G, at (r, j): G at (r, 1024 (t / 8) + j). -/
theorem blk_out (G : S1024x2048.Idx → Elt Ideal .f32) (t : Fin cfg0.N) (r j : Fin 1024)
    (hJ : 1024 * (t.val / 8) + j.val < 2048) :
    (((cfg0.win 5).blk t).view.read (Elt Ideal) G : Vec Ideal S1024x1024 .f32) (ix2 r j)
      = G (ix2 r ⟨1024 * (t.val / 8) + j.val, hJ⟩) := by
  rw [View.read_apply]
  show G _ = G _
  refine congrArg _ (funext fun a => Fin.ext ?_)
  match a with
  | ⟨0, _⟩ => show win0_5.index t 0 * 1024 + 1 * r.val = r.val; rw [(Blocks.idx0 t).2.2.2.2.2.2.2.1]; omega
  | ⟨1, _⟩ =>
    show win0_5.index t 1 * 1024 + 1 * j.val = 1024 * (t.val / 8) + j.val
    rw [(Blocks.idx0 t).2.2.2.2.2.2.2.2]; omega

/-- What a write-back of the output window writes is the block of the reference's encoder there. -/
theorem flushed_eq (c : Dev nD) (t : Fin cfg0.N) (hf : (cfg0.win 5).flush t = true) :
    (R0.dat V c).flushed 5 t = ((cfg0.win 5).blk t).view.read (Elt Ideal) (encArr V c) := by
  have h7 : t.val % 8 = 7 := (flush0_5 t).mp hf
  have hN : cfg0.N = 16 := N_0
  have ht : t.val < 16 := hN ▸ t.isLt
  show (cfg0.win 5).cut (grid0.coords t) ((R0.dat V c).after 5 t) = _
  rw [R0.after_5]
  have key : ((R0.outsAt V c t.val t.isLt).1 : Vec Ideal S1024x1024 .f32)
      = (((cfg0.win 5).blk t).view.read (Elt Ideal) (encArr V c) : Vec Ideal S1024x1024 .f32) := by
    funext y
    obtain ⟨r, j, rfl⟩ : ∃ (r : Fin 1024) (j : Fin 1024), y = ix2 r j := ⟨y 0, y 1, eq_ix2 y⟩
    rw [out_block V c t h7 r j (by omega), blk_out (encArr V c) t r j (by omega)]
    exact (enc_ref _ _ _ _ _ r _).symm
  exact key

/-- An index of the output array lies in the output window's block at point t iff, on each axis, it lies in the block's
    range there. -/
theorem mem_blk_out (t : Fin cfg0.N) (i : S1024x2048.Idx) :
    i ∈ ((cfg0.win 5).blk t).view.set
      ↔ ∀ a : Fin 2, win0_5.index t a * S1024x1024.size a ≤ (i a).val
          ∧ (i a).val < win0_5.index t a * S1024x1024.size a + S1024x1024.size a := by
  show i ∈ ((View.whole main_v1).slice (win0_5.rect t)).set ↔ _
  rw [View.set_slice_whole, Rect.mem_set_unit]
  exact Iff.rfl

/-- Every index (r, J) of the output array lies in a written-back block: that of the last inner step of column block
    J / 1024. -/
theorem covered (i : S1024x2048.Idx) :
    ∃ t : Fin cfg0.N, (cfg0.win 5).flush t = true ∧ i ∈ ((cfg0.win 5).blk t).view.set := by
  have hN : cfg0.N = 16 := N_0
  have h0 : (i 0).val < 1024 := (i 0).isLt
  have h1 : (i 1).val < 2048 := (i 1).isLt
  have key : ∀ t : Fin cfg0.N, t.val = 8 * ((i 1).val / 1024) + 7 → i ∈ ((cfg0.win 5).blk t).view.set := by
    intro t ht
    rw [mem_blk_out]
    intro a
    match a with
    | ⟨0, _⟩ =>
      show win0_5.index t 0 * 1024 ≤ (i 0).val ∧ (i 0).val < win0_5.index t 0 * 1024 + 1024
      rw [(Blocks.idx0 t).2.2.2.2.2.2.2.1]; omega
    | ⟨1, _⟩ =>
      show win0_5.index t 1 * 1024 ≤ (i 1).val ∧ (i 1).val < win0_5.index t 1 * 1024 + 1024
      rw [(Blocks.idx0 t).2.2.2.2.2.2.2.2, ht]; omega
  exact ⟨⟨8 * ((i 1).val / 1024) + 7, by omega⟩,
    (flush0_5 _).mpr (by show (8 * ((i 1).val / 1024) + 7) % 8 = 7; omega), key _ rfl⟩

/-- So the output array ends holding the reference's encoder of the arrays the region found. -/
theorem enc_final_arr (c : Dev nD) : (R0.dat V c).arrAt 5 cfg0.N = encArr V c :=
  (R0.dat V c).arrAt_eq_of_cover 5 (encArr V c) (flushed_eq V c) covered

/-- The same with the reference's encoder written out over the region-entry contents. -/
theorem enc_final (c : Dev nD) :
    (R0.dat V c).arrAt 5 cfg0.N
      = (encRef (V c main_v0 : S1024x16384.Idx → Elt Ideal .f32) (V c main_arg1 : S2048x16384.Idx → Elt Ideal .f32)
          (V c main_arg2 : S2048.Idx → Elt Ideal .f32) (V c main_arg3 : S2048.Idx → Elt Ideal .f32)
          (V c main_arg4 : S2048.Idx → Elt Ideal .f32) : FVec Ideal S1024x2048 .f32) :=
  enc_final_arr V c

end Cert.Enc

end
-- ==== Proof.DecKernel.lean ====
import proofs.«104290_j46119358825052_2_alg».proof.Proof.Gen.KernelIdeal.Skeleton
import proofs.«104290_j46119358825052_2_alg».proof.Proof.DecSpec
import proofs.«104290_j46119358825052_2_alg».proof.Proof.LibRowOps
import proofs.«104290_j46119358825052_2_alg».proof.Proof.LibRowBlock
import Idealize.ShloMosaic.PureOps.Ideal.Laws
import Idealize.ShloMosaic.Lib.ValueIdx
import Idealize.ShloMosaic.Lib.ValueLayout
import Idealize.ShloMosaic.Lib.Pipeline.Value

/-! # The decoder kernel's payload, read index by index

At the ideal values the one payload of the decoder kernel, read at (r, j), is row r of the normalised input against
row j of the weight block plus entry j of the bias block; with the weight and bias blocks the blocks of the whole
arrays that grid point n reads, that is the decoder's specification at (r, 1024 n + j). -/

set_option maxRecDepth 16384

noncomputable section

open scoped BigOperators

namespace Cert.Dec

open Cert.KernelIdeal Cert.KernelIdeal.Gen
open Idealize.ShloMosaic Idealize.ShloMosaic.ValueIdx

/-- The sum down the rows of a 1024 × 2048 array, read at column k. -/
theorem colSum_ker (v : FVec Ideal S1024x2048 .f32) (hr : S1024x2048.Reduces [0] S2048) (hφ : FTy.f32 = FTy.f32 ∨ FTy.f32 = FTy.bf16)
    (hacc : (0x00000000#32 : BitVec 32) = 0x00000000#32) (k : Fin 2048) :
    multiReduction .add [0] S2048 v 0x00000000#32 hr hφ hacc (ix1 k) = ∑ i : Fin 1024, v (ix2 i k) := by
  refine (Ideal.multiReduction_add_single v _ hr hφ hacc (ix1 k)).trans ?_
  exact Finset.sum_congr rfl fun i _ => congrArg v (funext fun a => Fin.ext (by match a with | ⟨0, _⟩ => rfl | ⟨1, _⟩ => rfl))

/-- The reciprocal square root of a vector, read at an index. -/
theorem rsqrt_idx {s : Shape} (v : FVec Ideal s .f32) (i : s.Idx) : rsqrt v i = FloatOps.rsqrt (v i) := rfl

/-- The payload's dimension numbers are the plain 1024 × 2048 by 2048 × 1024 product's. -/
theorem plainD : dot_S1024x2048_S2048x1024_S1024x1024_1_0_0_1_n_n = DotDims.plain 1024 2048 1024 :=
  Cert.RowLib.dotDims_eq_plain _ rfl rfl rfl rfl rfl rfl

set_option maxHeartbeats 400000 in
/-- The payload at (r, j): the format changes are the identity, the transposed weight block reads (j, k) at (k, j),
    the product into the zero splat is the sum over the contracted coordinate, each row broadcast reads its column's
    entry, and each sum down the rows is the sum of the column. -/
theorem k1_pay1_apply (x0 : FVec Ideal S1024x2048 .f32) (x1 x2 : FVec Ideal S2048 .f32) (x3 : FVec Ideal S1024x2048 .f32)
    (x4 : FVec Ideal S1024 .f32) (r j : Fin 1024) :
    k1_pay1 (F := Ideal) x0 x1 x2 x3 x4 (ix2 r j) = (∑ k : Fin 2048, bnRelu x0 x1 x2 r k * x3 (ix2 j k)) + x4 (ix1 j) := by
  unfold k1_pay1
  dsimp only
  rw [shapeCast_self]
  rw [addf_apply, plainD, Cert.RowLib.matmul_plain_zero_ix2, Cert.RowBlockLib.bias_rows_apply (by decide)]
  refine congrArg (· + _) (Finset.sum_congr rfl fun k _ => ?_)
  rw [truncf_apply, transpose_ix2_apply, truncf_apply]
  refine congrArg (· * _) ?_
  simp only [maximumf_apply, addf_apply, mulf_apply, subf_apply, divf_apply, broadcast_apply, rsqrt_idx,
    broadcastTo_1b_ab_apply, shapeCast_a_1a_apply, Ideal.rsqrt_def, Ideal.ofBits_def, bnRelu, colVar, colMean,
    Ideal.ofBits_zero_f32, zero_add]
  rw [colSum_ker x0, colSum_ker]
  simp only [mulf_apply, subf_apply, divf_apply, broadcast_apply, broadcastTo_1b_ab_apply, shapeCast_a_1a_apply]
  rw [colSum_ker x0]

/-- With the weight block rows 1024 n … 1024 n + 1023 of the weight matrix and the bias block those entries of the
    bias, the payload at (r, j) is the decoder's specification at (r, 1024 n + j). -/
theorem k1_pay1_eq_decSpec (h : FVec Ideal S1024x2048 .f32) (g be : FVec Ideal S2048 .f32) (W : FVec Ideal S16384x2048 .f32)
    (b : FVec Ideal S16384 .f32) (x3 : FVec Ideal S1024x2048 .f32) (x4 : FVec Ideal S1024 .f32) (n : Fin 16)
    (hW : ∀ (j : Fin 1024) (k : Fin 2048), x3 (ix2 j k) = W (ix2 (outCol n j) k))
    (hb : ∀ j : Fin 1024, x4 (ix1 j) = b (ix1 (outCol n j))) (r j : Fin 1024) :
    k1_pay1 (F := Ideal) h g be x3 x4 (ix2 r j) = decSpec h g be W b r (outCol n j) := by
  rw [k1_pay1_apply, hb]
  unfold decSpec
  exact congrArg (· + _) (Finset.sum_congr rfl fun k _ => by rw [hW])

end Cert.Dec

end
-- ==== Proof.DecValue.lean ====
import proofs.«104290_j46119358825052_2_alg».proof.Proof.DecKernel
import proofs.«104290_j46119358825052_2_alg».proof.Proof.DecRef

/-! # The two decoders are one function

At the ideal values the decoder kernel's payload at grid point n, read at (r, j), and the reference's decoder,
read at (r, 1024 n + j), are both the decoder's specification there; so they are equal. -/

noncomputable section

namespace Cert.Dec

open Idealize.ShloMosaic Idealize.ShloMosaic.ValueIdx

/-- The kernel's payload on the blocks grid point n reads, at (r, j), is the reference's decoder at (r, 1024 n + j). -/
theorem k1_pay1_eq_decRef (h : FVec Ideal ⟨2, ![1024, 2048]⟩ .f32) (g be : FVec Ideal ⟨1, ![2048]⟩ .f32)
    (W : FVec Ideal ⟨2, ![16384, 2048]⟩ .f32) (b : FVec Ideal ⟨1, ![16384]⟩ .f32)
    (x3 : FVec Ideal ⟨2, ![1024, 2048]⟩ .f32) (x4 : FVec Ideal ⟨1, ![1024]⟩ .f32) (n : Fin 16)
    (hW : ∀ (j : Fin 1024) (k : Fin 2048), x3 (ix2 j k) = W (ix2 (outCol n j) k))
    (hb : ∀ j : Fin 1024, x4 (ix1 j) = b (ix1 (outCol n j))) (r j : Fin 1024) :
    Cert.KernelIdeal.Gen.k1_pay1 (F := Ideal) h g be x3 x4 (ix2 r j) = decRef h g be W b (ix2 r (outCol n j)) :=
  (k1_pay1_eq_decSpec h g be W b x3 x4 n hW hb r j).trans (decRef_eq_decSpec h g be W b r (outCol n j)).symm

end Cert.Dec

end
-- ==== Proof.DecArray.lean ====
import proofs.«104290_j46119358825052_2_alg».proof.Proof.R1Body
import proofs.«104290_j46119358825052_2_alg».proof.Proof.DecValue
import proofs.«104290_j46119358825052_2_alg».proof.Proof.Blocks
import Idealize.ShloMosaic.Lib.Pipeline.Value
import Idealize.ShloMosaic.Lib.ValueIdx

/-! # The decoder region's output array

Each of the sixteen grid points writes back one block of 1024 columns of the 1024 × 16384 output; the block that
point t writes is, entry by entry, the reference's decoder of the arrays the region is entered from, read at the
columns 1024 t … 1024 t + 1023. The sixteen blocks cover the array, so the array ends holding that function. -/

set_option maxRecDepth 16384

noncomputable section

namespace Cert.Dec

open Cert.KernelIdeal Cert.KernelIdeal.Gen
open Idealize.ShloMosaic Idealize.ShloMosaic.TcCoe Idealize.SL.Sem Idealize.ShloMosaic.ValueIdx
open Idealize.ShloMosaic.Pipeline (Dat)

/-- The payload on blocks that agree entry by entry with the whole input, scale and shift, and with the rows and
    entries 1024 n + j of the weight matrix and the bias, is the reference's decoder at (r, 1024 n + j). -/
theorem k1_pay1_eq_decRef_of_blocks (h : FVec Ideal ⟨2, ![1024, 2048]⟩ .f32) (g be : FVec Ideal ⟨1, ![2048]⟩ .f32)
    (W : FVec Ideal ⟨2, ![16384, 2048]⟩ .f32) (b : FVec Ideal ⟨1, ![16384]⟩ .f32)
    (x0 : FVec Ideal ⟨2, ![1024, 2048]⟩ .f32) (x1 x2 : FVec Ideal ⟨1, ![2048]⟩ .f32)
    (x3 : FVec Ideal ⟨2, ![1024, 2048]⟩ .f32) (x4 : FVec Ideal ⟨1, ![1024]⟩ .f32) (n : Fin 16)
    (h0 : ∀ (r : Fin 1024) (k : Fin 2048), x0 (ix2 r k) = h (ix2 r k))
    (h1 : ∀ k : Fin 2048, x1 (ix1 k) = g (ix1 k)) (h2 : ∀ k : Fin 2048, x2 (ix1 k) = be (ix1 k))
    (hW : ∀ (j : Fin 1024) (k : Fin 2048), x3 (ix2 j k) = W (ix2 (outCol n j) k))
    (hb : ∀ j : Fin 1024, x4 (ix1 j) = b (ix1 (outCol n j))) (r j : Fin 1024) :
    k1_pay1 (F := Ideal) x0 x1 x2 x3 x4 (ix2 r j) = decRef h g be W b (ix2 r (outCol n j)) := by
  obtain rfl : x0 = h := funext fun y => by rw [eq_ix2 y]; exact h0 _ _
  obtain rfl : x1 = g := funext fun y => by rw [eq_ix1 y]; exact h1 _
  obtain rfl : x2 = be := funext fun y => by rw [eq_ix1 y]; exact h2 _
  exact k1_pay1_eq_decRef x0 x1 x2 W b x3 x4 n hW hb r j

section Array

variable {F : FTy → Type} [FloatOps F]

/-- The output window's block at point t, read off any contents G of the output array: rows r, columns 1024 t + j. -/
theorem out_blk (c : Dev nD) (t : Fin cfg1.N) (G : Buf (Elt F) ((c : Thread nD τ).loc main_v41)) (r j : Fin 1024)
    (hj : 1024 * t.val + j.val < 16384) :
    (((cfg1.win 5).blk t).view.read (Elt F) G : Vec F S1024x1024 .f32) (ix2 r j)
      = (G : S1024x16384.Idx → Elt F .f32) (ix2 r ⟨1024 * t.val + j.val, hj⟩) := by
  rw [View.read_apply]
  refine congrArg G (funext fun a => Fin.ext ?_)
  match a with
  | ⟨0, _⟩ => show win1_5.index t 0 * 1024 + 1 * r.val = r.val; rw [(Blocks.idx1 t).2.2.2.2.2.2.2.1]; omega
  | ⟨1, _⟩ => show win1_5.index t 1 * 1024 + 1 * j.val = 1024 * t.val + j.val; rw [(Blocks.idx1 t).2.2.2.2.2.2.2.2]; omega

end Array

variable (V : (c : Dev nD) → (b : Ref sig .tc) → Buf (Elt Ideal) ((c : Thread nD τ).loc b))

/-- The reference's decoder of the arrays the region is entered from, as contents of the output array. -/
abbrev decOut (c : Dev nD) : Buf (Elt Ideal) ((c : Thread nD τ).loc main_v41) :=
  (decRef (V c main_v40) (V c main_arg10) (V c main_arg11) (V c main_arg12) (V c main_arg13) : FVec Ideal _ .f32)

/-- What point t writes back is block t of that function. -/
theorem flushed_eq (c : Dev nD) (t : Fin cfg1.N) (hf : (cfg1.win 5).flush t = true) :
    (R1.dat (F := Ideal) V c).flushed 5 t = ((cfg1.win 5).blk t).view.read (Elt Ideal) (decOut V c) := by
  show (cfg1.win 5).cut (grid1.coords t) ((R1.dat (F := Ideal) V c).after 5 t) = _
  rw [R1.after_5, R1.out5_eq]
  show (k1_pay1 (F := Ideal) (R1.iblk V c 0 t) (R1.iblk V c 1 t) (R1.iblk V c 2 t) (R1.iblk V c 3 t) (R1.iblk V c 4 t) : S1024x1024.Idx → EReal)
      = (((cfg1.win 5).blk t).view.read (Elt Ideal) (decOut V c) : S1024x1024.Idx → EReal)
  funext y
  obtain ⟨r, j, rfl⟩ : ∃ (r : Fin 1024) (j : Fin 1024), y = ix2 r j := ⟨y 0, y 1, eq_ix2 y⟩
  have ht : t.val < 16 := by have := t.isLt; have hN : cfg1.N = 16 := N_1; omega
  have hj : 1024 * t.val + j.val < 16384 := by have := j.isLt; omega
  refine Eq.trans ?_ (out_blk c t (decOut V c) r j hj).symm
  exact k1_pay1_eq_decRef_of_blocks (V c main_v40) (V c main_arg10) (V c main_arg11) (V c main_arg12) (V c main_arg13)
    (R1.iblk V c 0 t) (R1.iblk V c 1 t) (R1.iblk V c 2 t) (R1.iblk V c 3 t) (R1.iblk V c 4 t) ⟨t.val, ht⟩
    (fun r k => Blocks.blk1_0 V c t r k) (fun k => Blocks.blk1_1 V c t k) (fun k => Blocks.blk1_2 V c t k)
    (fun j k => Blocks.blk1_3 V c t j k (by have := j.isLt; omega)) (fun j => Blocks.blk1_4 V c t j (by have := j.isLt; omega)) r j

/-- The sixteen written-back blocks cover the output array, so it ends holding the reference's decoder of the
    arrays the region is entered from. -/
theorem dec_final (c : Dev nD) :
    (R1.dat (F := Ideal) V c).arrAt 5 cfg1.N
      = (decRef (V c main_v40) (V c main_arg10) (V c main_arg11) (V c main_arg12) (V c main_arg13) : FVec Ideal _ .f32) :=
  (R1.dat (F := Ideal) V c).arrAt_eq_of_cover 5 (decOut V c) (flushed_eq V c) fun i => by
    have h0 : (i 0 : Nat) < 1024 := (i 0).isLt
    have h1 : (i 1 : Nat) < 16384 := (i 1).isLt
    have hN : cfg1.N = 16 := N_1
    have ht : (i 1 : Nat) / 1024 < cfg1.N := by rw [hN]; omega
    refine ⟨⟨(i 1 : Nat) / 1024, ht⟩, flush1_5 _, ?_⟩
    show i ∈ ((View.whole main_v41).slice (win1_5.rect ⟨(i 1 : Nat) / 1024, ht⟩)).set
    rw [View.set_slice_whole, Rect.mem_set_unit]
    intro a
    match a with
    | ⟨0, _⟩ =>
      show win1_5.index _ 0 * win1_5.size 0 ≤ (i 0 : Nat) ∧ (i 0 : Nat) < win1_5.index _ 0 * win1_5.size 0 + win1_5.xsize (grid1.coords _) 0
      rw [(Blocks.idx1 _).2.2.2.2.2.2.2.1]
      show 0 * 1024 ≤ (i 0 : Nat) ∧ (i 0 : Nat) < 0 * 1024 + 1024
      omega
    | ⟨1, _⟩ =>
      show win1_5.index _ 1 * win1_5.size 1 ≤ (i 1 : Nat) ∧ (i 1 : Nat) < win1_5.index _ 1 * win1_5.size 1 + win1_5.xsize (grid1.coords _) 1
      rw [(Blocks.idx1 _).2.2.2.2.2.2.2.2]
      show (i 1 : Nat) / 1024 * 1024 ≤ (i 1 : Nat) ∧ (i 1 : Nat) < (i 1 : Nat) / 1024 * 1024 + 1024
      omega

end Cert.Dec

end
-- ==== Proof.Final.lean ====
/-
  The two idealized programs end with equal results. Both apply the same latent host operations to an encoder's output
  and then a decoder to what those leave, so the claim rests on two array equalities — the kernel's encoder region
  leaves the reference's encoder array, and its decoder region the reference's decoder array, each of the contents the
  region is entered from — carried through the three stages: the encoder's outputs agree; hence the latent code, the
  attention weights, the read-out and the decoder's input agree; hence the decoder's outputs agree. Every argument array
  ends as launched in both programs.
-/
import proofs.«104290_j46119358825052_2_alg».proof.Defs
import proofs.«104290_j46119358825052_2_alg».proof.Proof.Gen.Pre_finite_inputs
import proofs.«104290_j46119358825052_2_alg».proof.Proof.KernelValue
import proofs.«104290_j46119358825052_2_alg».proof.Proof.RefDecStage
import proofs.«104290_j46119358825052_2_alg».proof.Proof.Mid
import proofs.«104290_j46119358825052_2_alg».proof.Proof.EncArray
import proofs.«104290_j46119358825052_2_alg».proof.Proof.DecArray

set_option maxRecDepth 16384

noncomputable section

namespace Cert.Bridge

open Idealize.ShloMosaic Idealize.ShloMosaic.TcCoe Idealize.SL.Sem Idealize.ShloMosaic.StableHlo
open Cert.KernelIdeal.Hand Cert.ReferenceIdeal.Hand

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! ## The kernel program's contents, read -/

/-- A buffer the first host stretch does not write enters the encoder region as launched. -/
theorem W1_keep (r : Ref Cert.KernelIdeal.sig .tc) (h : r ∉ Cert.KernelIdeal.Gen.hostOps0_W) :
    W1 m g c (Proc.devRef .tc r) = m ((c : Thread Cert.KernelIdeal.nD Cert.KernelIdeal.τ).loc r) :=
  StableHlo.after_of_writes_sub Cert.KernelIdeal.Gen.hostOps0 _ Cert.KernelIdeal.Gen.hostOps0_writes h

/-- The encoder region is entered with the input reshaped to a matrix. -/
theorem W1_v0 : W1 m g c (Proc.devRef .tc Cert.KernelIdeal.main_v0)
    = shapeCast _ (m ((c : Thread Cert.KernelIdeal.nD Cert.KernelIdeal.τ).loc Cert.KernelIdeal.main_arg0)) Cert.KernelIdeal.Facts₀.shapeCasts_S1024x64x16x16_S1024x16384 := by
  show after Cert.KernelIdeal.Gen.hostOps0 (W0 m g c) _ = _
  simp only [Cert.KernelIdeal.Gen.hostOps0]
  after_results
  rfl

/-- A buffer other than the encoder's output array leaves the encoder region as it entered. -/
theorem W2_keep (r : Ref Cert.KernelIdeal.sig .tc) (h : r ≠ Cert.KernelIdeal.main_v1) :
    W2 m g c (Proc.devRef .tc r) = W1 m g c (Proc.devRef .tc r) := by
  rw [W2_eq]
  exact HloOp.result_of_not_mem _ _ (by
    rw [StableHlo.nullary_writes, Finset.mem_singleton]; exact fun e => h (Proc.devRef_injective _ e))

/-- The encoder's output array after the region is what the region leaves there. -/
theorem W2_v1 : W2 m g c (Proc.devRef .tc Cert.KernelIdeal.main_v1) = encOut m g c := by
  rw [W2_eq]; exact StableHlo.nullary_result _ _ _ _

/-- A buffer the three latent host stretches do not write enters the decoder region as it left the encoder region. -/
theorem W5_keep (r : Ref Cert.KernelIdeal.sig .tc) (h1 : r ∉ Cert.KernelIdeal.Gen.hostOps1_W) (h11 : r ∉ Cert.KernelIdeal.Gen.hostOps1_1_W) (h12 : r ∉ Cert.KernelIdeal.Gen.hostOps1_2_W) :
    W5 m g c (Proc.devRef .tc r) = W2 m g c (Proc.devRef .tc r) :=
  (StableHlo.after_of_writes_sub Cert.KernelIdeal.Gen.hostOps1_2 _ Cert.KernelIdeal.Gen.hostOps1_2_writes h12).trans
    ((StableHlo.after_of_writes_sub Cert.KernelIdeal.Gen.hostOps1_1 _ Cert.KernelIdeal.Gen.hostOps1_1_writes h11).trans
      (StableHlo.after_of_writes_sub Cert.KernelIdeal.Gen.hostOps1 _ Cert.KernelIdeal.Gen.hostOps1_writes h1))

/-- A buffer that is neither the decoder's output array nor its reshaped copy ends as it entered the decoder region. -/
theorem W7_of_W5 (r : Ref Cert.KernelIdeal.sig .tc) (h2 : r ∉ Cert.KernelIdeal.Gen.hostOps2_W) (h : r ≠ Cert.KernelIdeal.main_v41) :
    W7 m g c (Proc.devRef .tc r) = W5 m g c (Proc.devRef .tc r) := by
  refine (StableHlo.after_of_writes_sub Cert.KernelIdeal.Gen.hostOps2 _ Cert.KernelIdeal.Gen.hostOps2_writes h2).trans ?_
  rw [W6_eq]
  exact HloOp.result_of_not_mem _ _ (by
    rw [StableHlo.nullary_writes, Finset.mem_singleton]; exact fun e => h (Proc.devRef_injective _ e))

/-- The program's first result is the decoder region's output array reshaped to four axes. -/
theorem W7_v42 : W7 m g c (Proc.devRef .tc Cert.KernelIdeal.main_v42)
    = shapeCast _ (decOut m g c) Cert.KernelIdeal.Facts₀.shapeCasts_S1024x16384_S1024x64x16x16 := by
  have e : W6 m g c (Proc.devRef .tc Cert.KernelIdeal.main_v41) = decOut m g c := by
    rw [W6_eq]; exact StableHlo.nullary_result _ _ _ _
  rw [← e]
  show after Cert.KernelIdeal.Gen.hostOps2 (W6 m g c) _ = _
  simp only [Cert.KernelIdeal.Gen.hostOps2]
  after_results
  rfl

/-! ## The reference's contents after each stage -/

abbrev Y0 : Valuation Cert.ReferenceIdeal.τ Cert.ReferenceIdeal.sig (Elt Ideal) := launchContents m' c
abbrev YE : Valuation Cert.ReferenceIdeal.τ Cert.ReferenceIdeal.sig (Elt Ideal) := after (opsEnc (F := Ideal)) (Y0 m' c)
abbrev YM : Valuation Cert.ReferenceIdeal.τ Cert.ReferenceIdeal.sig (Elt Ideal) := after (opsMid (F := Ideal)) (YE m' c)
abbrev YD : Valuation Cert.ReferenceIdeal.τ Cert.ReferenceIdeal.sig (Elt Ideal) := after (opsDec (F := Ideal)) (YM m' c)

theorem YD_eq : after (Cert.ReferenceIdeal.Hand.ops (F := Ideal)) (launchContents m' c) = YD m' c := after_stages _

/-! ## The three stages agree -/

/-- The encoder region leaves the array the reference's encoder stage leaves: both are the encoder's array function of
    the reshaped input and the first four parameter arrays, which agree. -/
theorem enc_agree
    (b0 : launchContents m' c (Proc.devRef .tc Cert.ReferenceIdeal.main_arg0) = m ((c : Thread Cert.KernelIdeal.nD Cert.KernelIdeal.τ).loc Cert.KernelIdeal.main_arg0))
    (b1 : launchContents m' c (Proc.devRef .tc Cert.ReferenceIdeal.main_arg1) = m ((c : Thread Cert.KernelIdeal.nD Cert.KernelIdeal.τ).loc Cert.KernelIdeal.main_arg1))
    (b2 : launchContents m' c (Proc.devRef .tc Cert.ReferenceIdeal.main_arg2) = m ((c : Thread Cert.KernelIdeal.nD Cert.KernelIdeal.τ).loc Cert.KernelIdeal.main_arg2))
    (b3 : launchContents m' c (Proc.devRef .tc Cert.ReferenceIdeal.main_arg3) = m ((c : Thread Cert.KernelIdeal.nD Cert.KernelIdeal.τ).loc Cert.KernelIdeal.main_arg3))
    (b4 : launchContents m' c (Proc.devRef .tc Cert.ReferenceIdeal.main_arg4) = m ((c : Thread Cert.KernelIdeal.nD Cert.KernelIdeal.τ).loc Cert.KernelIdeal.main_arg4)) :
    W2 m g c (Proc.devRef .tc Cert.KernelIdeal.main_v1) = YE m' c (Proc.devRef .tc Cert.ReferenceIdeal.main_v31) := by
  rw [W2_v1]
  unfold encOut
  rw [Cert.Enc.enc_final (V1 m g) c]
  show Cert.Enc.encRef (W1 m g c (Proc.devRef .tc Cert.KernelIdeal.main_v0)) (W1 m g c (Proc.devRef .tc Cert.KernelIdeal.main_arg1))
      (W1 m g c (Proc.devRef .tc Cert.KernelIdeal.main_arg2)) (W1 m g c (Proc.devRef .tc Cert.KernelIdeal.main_arg3)) (W1 m g c (Proc.devRef .tc Cert.KernelIdeal.main_arg4))
    = after (opsEnc (F := Ideal)) (launchContents m' c) (Proc.devRef .tc Cert.ReferenceIdeal.main_v31)
  rw [enc_stage, W1_v0, W1_keep m g c Cert.KernelIdeal.main_arg1 (by decide), W1_keep m g c Cert.KernelIdeal.main_arg2 (by decide),
    W1_keep m g c Cert.KernelIdeal.main_arg3 (by decide), W1_keep m g c Cert.KernelIdeal.main_arg4 (by decide), b0, b1, b2, b3, b4]

/-- So the latent code, the attention weights, the read-out and the decoder's input agree. -/
theorem mid_results
    (b0 : launchContents m' c (Proc.devRef .tc Cert.ReferenceIdeal.main_arg0) = m ((c : Thread Cert.KernelIdeal.nD Cert.KernelIdeal.τ).loc Cert.KernelIdeal.main_arg0))
    (b1 : launchContents m' c (Proc.devRef .tc Cert.ReferenceIdeal.main_arg1) = m ((c : Thread Cert.KernelIdeal.nD Cert.KernelIdeal.τ).loc Cert.KernelIdeal.main_arg1))
    (b2 : launchContents m' c (Proc.devRef .tc Cert.ReferenceIdeal.main_arg2) = m ((c : Thread Cert.KernelIdeal.nD Cert.KernelIdeal.τ).loc Cert.KernelIdeal.main_arg2))
    (b3 : launchContents m' c (Proc.devRef .tc Cert.ReferenceIdeal.main_arg3) = m ((c : Thread Cert.KernelIdeal.nD Cert.KernelIdeal.τ).loc Cert.KernelIdeal.main_arg3))
    (b4 : launchContents m' c (Proc.devRef .tc Cert.ReferenceIdeal.main_arg4) = m ((c : Thread Cert.KernelIdeal.nD Cert.KernelIdeal.τ).loc Cert.KernelIdeal.main_arg4))
    (b5 : launchContents m' c (Proc.devRef .tc Cert.ReferenceIdeal.main_arg5) = m ((c : Thread Cert.KernelIdeal.nD Cert.KernelIdeal.τ).loc Cert.KernelIdeal.main_arg5))
    (b6 : launchContents m' c (Proc.devRef .tc Cert.ReferenceIdeal.main_arg6) = m ((c : Thread Cert.KernelIdeal.nD Cert.KernelIdeal.τ).loc Cert.KernelIdeal.main_arg6))
    (b7 : launchContents m' c (Proc.devRef .tc Cert.ReferenceIdeal.main_arg7) = m ((c : Thread Cert.KernelIdeal.nD Cert.KernelIdeal.τ).loc Cert.KernelIdeal.main_arg7))
    (b8 : launchContents m' c (Proc.devRef .tc Cert.ReferenceIdeal.main_arg8) = m ((c : Thread Cert.KernelIdeal.nD Cert.KernelIdeal.τ).loc Cert.KernelIdeal.main_arg8))
    (b9 : launchContents m' c (Proc.devRef .tc Cert.ReferenceIdeal.main_arg9) = m ((c : Thread Cert.KernelIdeal.nD Cert.KernelIdeal.τ).loc Cert.KernelIdeal.main_arg9)) :
    W5 m g c (Proc.devRef .tc Cert.KernelIdeal.main_v6) = YM m' c (Proc.devRef .tc Cert.ReferenceIdeal.main_v36)
      ∧ W5 m g c (Proc.devRef .tc Cert.KernelIdeal.main_v34) = YM m' c (Proc.devRef .tc Cert.ReferenceIdeal.main_v64)
      ∧ W5 m g c (Proc.devRef .tc Cert.KernelIdeal.main_v35) = YM m' c (Proc.devRef .tc Cert.ReferenceIdeal.main_v65)
      ∧ W5 m g c (Proc.devRef .tc Cert.KernelIdeal.main_v40) = YM m' c (Proc.devRef .tc Cert.ReferenceIdeal.main_v70) :=
  mid_agree (W2 m g c) (YE m' c) (enc_agree m g m' c b0 b1 b2 b3 b4)
    (((W2_keep m g c Cert.KernelIdeal.main_arg5 (by decide)).trans (W1_keep m g c Cert.KernelIdeal.main_arg5 (by decide))).trans ((keeps_enc _ Cert.ReferenceIdeal.main_arg5 (by decide)).trans b5).symm)
    (((W2_keep m g c Cert.KernelIdeal.main_arg6 (by decide)).trans (W1_keep m g c Cert.KernelIdeal.main_arg6 (by decide))).trans ((keeps_enc _ Cert.ReferenceIdeal.main_arg6 (by decide)).trans b6).symm)
    (((W2_keep m g c Cert.KernelIdeal.main_arg7 (by decide)).trans (W1_keep m g c Cert.KernelIdeal.main_arg7 (by decide))).trans ((keeps_enc _ Cert.ReferenceIdeal.main_arg7 (by decide)).trans b7).symm)
    (((W2_keep m g c Cert.KernelIdeal.main_arg8 (by decide)).trans (W1_keep m g c Cert.KernelIdeal.main_arg8 (by decide))).trans ((keeps_enc _ Cert.ReferenceIdeal.main_arg8 (by decide)).trans b8).symm)
    (((W2_keep m g c Cert.KernelIdeal.main_arg9 (by decide)).trans (W1_keep m g c Cert.KernelIdeal.main_arg9 (by decide))).trans ((keeps_enc _ Cert.ReferenceIdeal.main_arg9 (by decide)).trans b9).symm)

/-- The decoder region leaves the array the reference's decoder stage leaves, reshaped alike. -/
theorem out_agree
    (b0 : launchContents m' c (Proc.devRef .tc Cert.ReferenceIdeal.main_arg0) = m ((c : Thread Cert.KernelIdeal.nD Cert.KernelIdeal.τ).loc Cert.KernelIdeal.main_arg0))
    (b1 : launchContents m' c (Proc.devRef .tc Cert.ReferenceIdeal.main_arg1) = m ((c : Thread Cert.KernelIdeal.nD Cert.KernelIdeal.τ).loc Cert.KernelIdeal.main_arg1))
    (b2 : launchContents m' c (Proc.devRef .tc Cert.ReferenceIdeal.main_arg2) = m ((c : Thread Cert.KernelIdeal.nD Cert.KernelIdeal.τ).loc Cert.KernelIdeal.main_arg2))
    (b3 : launchContents m' c (Proc.devRef .tc Cert.ReferenceIdeal.main_arg3) = m ((c : Thread Cert.KernelIdeal.nD Cert.KernelIdeal.τ).loc Cert.KernelIdeal.main_arg3))
    (b4 : launchContents m' c (Proc.devRef .tc Cert.ReferenceIdeal.main_arg4) = m ((c : Thread Cert.KernelIdeal.nD Cert.KernelIdeal.τ).loc Cert.KernelIdeal.main_arg4))
    (b5 : launchContents m' c (Proc.devRef .tc Cert.ReferenceIdeal.main_arg5) = m ((c : Thread Cert.KernelIdeal.nD Cert.KernelIdeal.τ).loc Cert.KernelIdeal.main_arg5))
    (b6 : launchContents m' c (Proc.devRef .tc Cert.ReferenceIdeal.main_arg6) = m ((c : Thread Cert.KernelIdeal.nD Cert.KernelIdeal.τ).loc Cert.KernelIdeal.main_arg6))
    (b7 : launchContents m' c (Proc.devRef .tc Cert.ReferenceIdeal.main_arg7) = m ((c : Thread Cert.KernelIdeal.nD Cert.KernelIdeal.τ).loc Cert.KernelIdeal.main_arg7))
    (b8 : launchContents m' c (Proc.devRef .tc Cert.ReferenceIdeal.main_arg8) = m ((c : Thread Cert.KernelIdeal.nD Cert.KernelIdeal.τ).loc Cert.KernelIdeal.main_arg8))
    (b9 : launchContents m' c (Proc.devRef .tc Cert.ReferenceIdeal.main_arg9) = m ((c : Thread Cert.KernelIdeal.nD Cert.KernelIdeal.τ).loc Cert.KernelIdeal.main_arg9))
    (b10 : launchContents m' c (Proc.devRef .tc Cert.ReferenceIdeal.main_arg10) = m ((c : Thread Cert.KernelIdeal.nD Cert.KernelIdeal.τ).loc Cert.KernelIdeal.main_arg10))
    (b11 : launchContents m' c (Proc.devRef .tc Cert.ReferenceIdeal.main_arg11) = m ((c : Thread Cert.KernelIdeal.nD Cert.KernelIdeal.τ).loc Cert.KernelIdeal.main_arg11))
    (b12 : launchContents m' c (Proc.devRef .tc Cert.ReferenceIdeal.main_arg12) = m ((c : Thread Cert.KernelIdeal.nD Cert.KernelIdeal.τ).loc Cert.KernelIdeal.main_arg12))
    (b13 : launchContents m' c (Proc.devRef .tc Cert.ReferenceIdeal.main_arg13) = m ((c : Thread Cert.KernelIdeal.nD Cert.KernelIdeal.τ).loc Cert.KernelIdeal.main_arg13)) :
    W7 m g c (Proc.devRef .tc Cert.KernelIdeal.main_v42) = YD m' c (Proc.devRef .tc Cert.ReferenceIdeal.main_v102) := by
  have hM := (mid_results m g m' c b0 b1 b2 b3 b4 b5 b6 b7 b8 b9).2.2.2
  have r10 : YM m' c (Proc.devRef .tc Cert.ReferenceIdeal.main_arg10) = m ((c : Thread Cert.KernelIdeal.nD Cert.KernelIdeal.τ).loc Cert.KernelIdeal.main_arg10) :=
    (keeps_mid _ Cert.ReferenceIdeal.main_arg10 (by decide)).trans ((keeps_enc _ Cert.ReferenceIdeal.main_arg10 (by decide)).trans b10)
  have r11 : YM m' c (Proc.devRef .tc Cert.ReferenceIdeal.main_arg11) = m ((c : Thread Cert.KernelIdeal.nD Cert.KernelIdeal.τ).loc Cert.KernelIdeal.main_arg11) :=
    (keeps_mid _ Cert.ReferenceIdeal.main_arg11 (by decide)).trans ((keeps_enc _ Cert.ReferenceIdeal.main_arg11 (by decide)).trans b11)
  have r12 : YM m' c (Proc.devRef .tc Cert.ReferenceIdeal.main_arg12) = m ((c : Thread Cert.KernelIdeal.nD Cert.KernelIdeal.τ).loc Cert.KernelIdeal.main_arg12) :=
    (keeps_mid _ Cert.ReferenceIdeal.main_arg12 (by decide)).trans ((keeps_enc _ Cert.ReferenceIdeal.main_arg12 (by decide)).trans b12)
  have r13 : YM m' c (Proc.devRef .tc Cert.ReferenceIdeal.main_arg13) = m ((c : Thread Cert.KernelIdeal.nD Cert.KernelIdeal.τ).loc Cert.KernelIdeal.main_arg13) :=
    (keeps_mid _ Cert.ReferenceIdeal.main_arg13 (by decide)).trans ((keeps_enc _ Cert.ReferenceIdeal.main_arg13 (by decide)).trans b13)
  rw [W7_v42]
  unfold decOut
  rw [Cert.Dec.dec_final (V5 m g) c]
  show shapeCast _ (Cert.Dec.decRef (W5 m g c (Proc.devRef .tc Cert.KernelIdeal.main_v40)) (W5 m g c (Proc.devRef .tc Cert.KernelIdeal.main_arg10))
      (W5 m g c (Proc.devRef .tc Cert.KernelIdeal.main_arg11)) (W5 m g c (Proc.devRef .tc Cert.KernelIdeal.main_arg12)) (W5 m g c (Proc.devRef .tc Cert.KernelIdeal.main_arg13))) _
    = after (opsDec (F := Ideal)) (YM m' c) (Proc.devRef .tc Cert.ReferenceIdeal.main_v102)
  rw [dec_stage, hM, r10, r11, r12, r13, ((W5_keep m g c Cert.KernelIdeal.main_arg10 (by decide) (by decide) (by decide)).trans ((W2_keep m g c Cert.KernelIdeal.main_arg10 (by decide)).trans (W1_keep m g c Cert.KernelIdeal.main_arg10 (by decide)))), ((W5_keep m g c Cert.KernelIdeal.main_arg11 (by decide) (by decide) (by decide)).trans ((W2_keep m g c Cert.KernelIdeal.main_arg11 (by decide)).trans (W1_keep m g c Cert.KernelIdeal.main_arg11 (by decide)))), ((W5_keep m g c Cert.KernelIdeal.main_arg12 (by decide) (by decide) (by decide)).trans ((W2_keep m g c Cert.KernelIdeal.main_arg12 (by decide)).trans (W1_keep m g c Cert.KernelIdeal.main_arg12 (by decide)))), ((W5_keep m g c Cert.KernelIdeal.main_arg13 (by decide) (by decide) (by decide)).trans ((W2_keep m g c Cert.KernelIdeal.main_arg13 (by decide)).trans (W1_keep m g c Cert.KernelIdeal.main_arg13 (by decide))))]
  rfl

/-! ## The claim -/

theorem algebraic : Cert.algebraic_KernelIdeal_ReferenceIdeal := by
  intro m g m' g' _ hagree
  refine ⟨fun c => W7 m g c (Proc.devRef .tc Cert.KernelIdeal.main_v42), fun c => W7 m g c (Proc.devRef .tc Cert.KernelIdeal.main_v34),
    fun c => W7 m g c (Proc.devRef .tc Cert.KernelIdeal.main_v6), fun c => W7 m g c (Proc.devRef .tc Cert.KernelIdeal.main_v35), ?_, ?_⟩
  · exact (θ_run Cert.KernelIdeal.defs _ _).mono (fun r h c =>
      ⟨h c _ (mem_uc Cert.KernelIdeal.main_v42 (by decide)), h c _ (mem_uc Cert.KernelIdeal.main_v34 (by decide)),
       h c _ (mem_uc Cert.KernelIdeal.main_v6 (by decide)), h c _ (mem_uc Cert.KernelIdeal.main_v35 (by decide)),
       (h c _ (mem_uc Cert.KernelIdeal.main_arg0 (by decide))).trans (W7_keep m g c Cert.KernelIdeal.main_arg0 (by decide) (by decide) (by decide) (by decide) (by decide) (by decide) (by decide)),
       (h c _ (mem_uc Cert.KernelIdeal.main_arg1 (by decide))).trans (W7_keep m g c Cert.KernelIdeal.main_arg1 (by decide) (by decide) (by decide) (by decide) (by decide) (by decide) (by decide)),
       (h c _ (mem_uc Cert.KernelIdeal.main_arg2 (by decide))).trans (W7_keep m g c Cert.KernelIdeal.main_arg2 (by decide) (by decide) (by decide) (by decide) (by decide) (by decide) (by decide)),
       (h c _ (mem_uc Cert.KernelIdeal.main_arg3 (by decide))).trans (W7_keep m g c Cert.KernelIdeal.main_arg3 (by decide) (by decide) (by decide) (by decide) (by decide) (by decide) (by decide)),
       (h c _ (mem_uc Cert.KernelIdeal.main_arg4 (by decide))).trans (W7_keep m g c Cert.KernelIdeal.main_arg4 (by decide) (by decide) (by decide) (by decide) (by decide) (by decide) (by decide)),
       (h c _ (mem_uc Cert.KernelIdeal.main_arg5 (by decide))).trans (W7_keep m g c Cert.KernelIdeal.main_arg5 (by decide) (by decide) (by decide) (by decide) (by decide) (by decide) (by decide)),
       (h c _ (mem_uc Cert.KernelIdeal.main_arg6 (by decide))).trans (W7_keep m g c Cert.KernelIdeal.main_arg6 (by decide) (by decide) (by decide) (by decide) (by decide) (by decide) (by decide)),
       (h c _ (mem_uc Cert.KernelIdeal.main_arg7 (by decide))).trans (W7_keep m g c Cert.KernelIdeal.main_arg7 (by decide) (by decide) (by decide) (by decide) (by decide) (by decide) (by decide)),
       (h c _ (mem_uc Cert.KernelIdeal.main_arg8 (by decide))).trans (W7_keep m g c Cert.KernelIdeal.main_arg8 (by decide) (by decide) (by decide) (by decide) (by decide) (by decide) (by decide)),
       (h c _ (mem_uc Cert.KernelIdeal.main_arg9 (by decide))).trans (W7_keep m g c Cert.KernelIdeal.main_arg9 (by decide) (by decide) (by decide) (by decide) (by decide) (by decide) (by decide)),
       (h c _ (mem_uc Cert.KernelIdeal.main_arg10 (by decide))).trans (W7_keep m g c Cert.KernelIdeal.main_arg10 (by decide) (by decide) (by decide) (by decide) (by decide) (by decide) (by decide)),
       (h c _ (mem_uc Cert.KernelIdeal.main_arg11 (by decide))).trans (W7_keep m g c Cert.KernelIdeal.main_arg11 (by decide) (by decide) (by decide) (by decide) (by decide) (by decide) (by decide)),
       (h c _ (mem_uc Cert.KernelIdeal.main_arg12 (by decide))).trans (W7_keep m g c Cert.KernelIdeal.main_arg12 (by decide) (by decide) (by decide) (by decide) (by decide) (by decide) (by decide)),
       (h c _ (mem_uc Cert.KernelIdeal.main_arg13 (by decide))).trans (W7_keep m g c Cert.KernelIdeal.main_arg13 (by decide) (by decide) (by decide) (by decide) (by decide) (by decide) (by decide))⟩)
      (Cert.KernelIdeal.Hand.run_main (F := Ideal) m g)
  · refine (θ_run Cert.ReferenceIdeal.defs _ _).mono (fun r h c => ?_) (Cert.ReferenceIdeal.Hand.run (F := Ideal) m' g')
    have b0 : launchContents m' c (Proc.devRef .tc Cert.ReferenceIdeal.main_arg0) = m ((c : Thread Cert.KernelIdeal.nD Cert.KernelIdeal.τ).loc Cert.KernelIdeal.main_arg0) := (hagree c).1
    have b1 : launchContents m' c (Proc.devRef .tc Cert.ReferenceIdeal.main_arg1) = m ((c : Thread Cert.KernelIdeal.nD Cert.KernelIdeal.τ).loc Cert.KernelIdeal.main_arg1) := (hagree c).2.1
    have b2 : launchContents m' c (Proc.devRef .tc Cert.ReferenceIdeal.main_arg2) = m ((c : Thread Cert.KernelIdeal.nD Cert.KernelIdeal.τ).loc Cert.KernelIdeal.main_arg2) := (hagree c).2.2.1
    have b3 : launchContents m' c (Proc.devRef .tc Cert.ReferenceIdeal.main_arg3) = m ((c : Thread Cert.KernelIdeal.nD Cert.KernelIdeal.τ).loc Cert.KernelIdeal.main_arg3) := (hagree c).2.2.2.1
    have b4 : launchContents m' c (Proc.devRef .tc Cert.ReferenceIdeal.main_arg4) = m ((c : Thread Cert.KernelIdeal.nD Cert.KernelIdeal.τ).loc Cert.KernelIdeal.main_arg4) := (hagree c).2.2.2.2.1
    have b5 : launchContents m' c (Proc.devRef .tc Cert.ReferenceIdeal.main_arg5) = m ((c : Thread Cert.KernelIdeal.nD Cert.KernelIdeal.τ).loc Cert.KernelIdeal.main_arg5) := (hagree c).2.2.2.2.2.1
    have b6 : launchContents m' c (Proc.devRef .tc Cert.ReferenceIdeal.main_arg6) = m ((c : Thread Cert.KernelIdeal.nD Cert.KernelIdeal.τ).loc Cert.KernelIdeal.main_arg6) := (hagree c).2.2.2.2.2.2.1
    have b7 : launchContents m' c (Proc.devRef .tc Cert.ReferenceIdeal.main_arg7) = m ((c : Thread Cert.KernelIdeal.nD Cert.KernelIdeal.τ).loc Cert.KernelIdeal.main_arg7) := (hagree c).2.2.2.2.2.2.2.1
    have b8 : launchContents m' c (Proc.devRef .tc Cert.ReferenceIdeal.main_arg8) = m ((c : Thread Cert.KernelIdeal.nD Cert.KernelIdeal.τ).loc Cert.KernelIdeal.main_arg8) := (hagree c).2.2.2.2.2.2.2.2.1
    have b9 : launchContents m' c (Proc.devRef .tc Cert.ReferenceIdeal.main_arg9) = m ((c : Thread Cert.KernelIdeal.nD Cert.KernelIdeal.τ).loc Cert.KernelIdeal.main_arg9) := (hagree c).2.2.2.2.2.2.2.2.2.1
    have b10 : launchContents m' c (Proc.devRef .tc Cert.ReferenceIdeal.main_arg10) = m ((c : Thread Cert.KernelIdeal.nD Cert.KernelIdeal.τ).loc Cert.KernelIdeal.main_arg10) := (hagree c).2.2.2.2.2.2.2.2.2.2.1
    have b11 : launchContents m' c (Proc.devRef .tc Cert.ReferenceIdeal.main_arg11) = m ((c : Thread Cert.KernelIdeal.nD Cert.KernelIdeal.τ).loc Cert.KernelIdeal.main_arg11) := (hagree c).2.2.2.2.2.2.2.2.2.2.2.1
    have b12 : launchContents m' c (Proc.devRef .tc Cert.ReferenceIdeal.main_arg12) = m ((c : Thread Cert.KernelIdeal.nD Cert.KernelIdeal.τ).loc Cert.KernelIdeal.main_arg12) := (hagree c).2.2.2.2.2.2.2.2.2.2.2.2.1
    have b13 : launchContents m' c (Proc.devRef .tc Cert.ReferenceIdeal.main_arg13) = m ((c : Thread Cert.KernelIdeal.nD Cert.KernelIdeal.τ).loc Cert.KernelIdeal.main_arg13) := (hagree c).2.2.2.2.2.2.2.2.2.2.2.2.2
    have hM := mid_results m g m' c b0 b1 b2 b3 b4 b5 b6 b7 b8 b9
    refine ⟨?_, ?_, ?_, ?_, (h c Cert.ReferenceIdeal.main_arg0).trans (Cert.ReferenceIdeal.Hand.keeps _ Cert.ReferenceIdeal.main_arg0 (by decide)),
      (h c Cert.ReferenceIdeal.main_arg1).trans (Cert.ReferenceIdeal.Hand.keeps _ Cert.ReferenceIdeal.main_arg1 (by decide)),
      (h c Cert.ReferenceIdeal.main_arg2).trans (Cert.ReferenceIdeal.Hand.keeps _ Cert.ReferenceIdeal.main_arg2 (by decide)),
      (h c Cert.ReferenceIdeal.main_arg3).trans (Cert.ReferenceIdeal.Hand.keeps _ Cert.ReferenceIdeal.main_arg3 (by decide)),
      (h c Cert.ReferenceIdeal.main_arg4).trans (Cert.ReferenceIdeal.Hand.keeps _ Cert.ReferenceIdeal.main_arg4 (by decide)),
      (h c Cert.ReferenceIdeal.main_arg5).trans (Cert.ReferenceIdeal.Hand.keeps _ Cert.ReferenceIdeal.main_arg5 (by decide)),
      (h c Cert.ReferenceIdeal.main_arg6).trans (Cert.ReferenceIdeal.Hand.keeps _ Cert.ReferenceIdeal.main_arg6 (by decide)),
      (h c Cert.ReferenceIdeal.main_arg7).trans (Cert.ReferenceIdeal.Hand.keeps _ Cert.ReferenceIdeal.main_arg7 (by decide)),
      (h c Cert.ReferenceIdeal.main_arg8).trans (Cert.ReferenceIdeal.Hand.keeps _ Cert.ReferenceIdeal.main_arg8 (by decide)),
      (h c Cert.ReferenceIdeal.main_arg9).trans (Cert.ReferenceIdeal.Hand.keeps _ Cert.ReferenceIdeal.main_arg9 (by decide)),
      (h c Cert.ReferenceIdeal.main_arg10).trans (Cert.ReferenceIdeal.Hand.keeps _ Cert.ReferenceIdeal.main_arg10 (by decide)),
      (h c Cert.ReferenceIdeal.main_arg11).trans (Cert.ReferenceIdeal.Hand.keeps _ Cert.ReferenceIdeal.main_arg11 (by decide)),
      (h c Cert.ReferenceIdeal.main_arg12).trans (Cert.ReferenceIdeal.Hand.keeps _ Cert.ReferenceIdeal.main_arg12 (by decide)),
      (h c Cert.ReferenceIdeal.main_arg13).trans (Cert.ReferenceIdeal.Hand.keeps _ Cert.ReferenceIdeal.main_arg13 (by decide))⟩
    · exact (h c Cert.ReferenceIdeal.main_v102).trans ((congrFun (YD_eq m' c) _).trans (out_agree m g m' c b0 b1 b2 b3 b4 b5 b6 b7 b8 b9 b10 b11 b12 b13).symm)
    · exact (h c Cert.ReferenceIdeal.main_v64).trans ((congrFun (YD_eq m' c) _).trans
        ((keeps_dec _ Cert.ReferenceIdeal.main_v64 (by decide)).trans (hM.2.1.symm.trans (W7_of_W5 m g c Cert.KernelIdeal.main_v34 (by decide) (by decide)).symm)))
    · exact (h c Cert.ReferenceIdeal.main_v36).trans ((congrFun (YD_eq m' c) _).trans
        ((keeps_dec _ Cert.ReferenceIdeal.main_v36 (by decide)).trans (hM.1.symm.trans (W7_of_W5 m g c Cert.KernelIdeal.main_v6 (by decide) (by decide)).symm)))
    · exact (h c Cert.ReferenceIdeal.main_v65).trans ((congrFun (YD_eq m' c) _).trans
        ((keeps_dec _ Cert.ReferenceIdeal.main_v65 (by decide)).trans (hM.2.2.1.symm.trans (W7_of_W5 m g c Cert.KernelIdeal.main_v35 (by decide) (by decide)).symm)))

end Cert.Bridge

end
-- ==== Proof.lean ====
/-
  The certificate. Two programs compute an encoder — a linear map, batch normalisation over the 1024 rows and a
  rectifier —, a latent computation addressed against a small memory bank, and a decoder — batch normalisation, a
  rectifier and a linear map. The reference is one straight line of host operations. The kernel program runs the
  encoder and the decoder as two regions: the encoder accumulates the product over eight blocks of the contracted
  axis in a buffer it keeps between grid points and normalises at the last block; the decoder normalises its resident
  input at every grid point and multiplies it by one row block of the weights.
  Each program's frame is its run with the results forgotten: the run ends with every buffer at contents named item by
  item, and no item writes an argument. The ideal pass rewrote nothing. On the extended reals the two programs end with
  equal results: the encoder region's output is the reference's encoder array — a block's accumulated sums are the sum
  over all 16384 contracted indices, in any additive commutative monoid —, the decoder region's output the reference's
  decoder array, and the latent host operations between them are the same in both programs.
-/
import proofs.«104290_j46119358825052_2_alg».proof.Defs
import proofs.«104290_j46119358825052_2_alg».proof.Proof.Gen.Kernel
import proofs.«104290_j46119358825052_2_alg».proof.Proof.Gen.KernelIdeal
import proofs.«104290_j46119358825052_2_alg».proof.Proof.Gen.ReferenceIdeal
import proofs.«104290_j46119358825052_2_alg».proof.Proof.Gen.Pre_finite_inputs
import proofs.«104290_j46119358825052_2_alg».proof.Proof.KKernelValue
import proofs.«104290_j46119358825052_2_alg».proof.Proof.KernelValue
import proofs.«104290_j46119358825052_2_alg».proof.Proof.RefRun
import proofs.«104290_j46119358825052_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end, faults nowhere, and leaves its fourteen argument arrays as launched: its
    run ends with every unscoped buffer at the last boundary's contents, and no item of the program writes an argument. -/
theorem frame_k : Cert.frame_Kernel := fun m g _ =>
  (θ_run Cert.Kernel.defs _ _).mono (fun r h c =>
    ⟨(h c _ (Cert.Kernel.Hand.mem_uc Cert.Kernel.main_arg0 (by decide))).trans (Cert.Kernel.Hand.W7_keep m g c Cert.Kernel.main_arg0 (by decide) (by decide) (by decide) (by decide) (by decide) (by decide) (by decide)),
      (h c _ (Cert.Kernel.Hand.mem_uc Cert.Kernel.main_arg1 (by decide))).trans (Cert.Kernel.Hand.W7_keep m g c Cert.Kernel.main_arg1 (by decide) (by decide) (by decide) (by decide) (by decide) (by decide) (by decide)),
      (h c _ (Cert.Kernel.Hand.mem_uc Cert.Kernel.main_arg2 (by decide))).trans (Cert.Kernel.Hand.W7_keep m g c Cert.Kernel.main_arg2 (by decide) (by decide) (by decide) (by decide) (by decide) (by decide) (by decide)),
      (h c _ (Cert.Kernel.Hand.mem_uc Cert.Kernel.main_arg3 (by decide))).trans (Cert.Kernel.Hand.W7_keep m g c Cert.Kernel.main_arg3 (by decide) (by decide) (by decide) (by decide) (by decide) (by decide) (by decide)),
      (h c _ (Cert.Kernel.Hand.mem_uc Cert.Kernel.main_arg4 (by decide))).trans (Cert.Kernel.Hand.W7_keep m g c Cert.Kernel.main_arg4 (by decide) (by decide) (by decide) (by decide) (by decide) (by decide) (by decide)),
      (h c _ (Cert.Kernel.Hand.mem_uc Cert.Kernel.main_arg5 (by decide))).trans (Cert.Kernel.Hand.W7_keep m g c Cert.Kernel.main_arg5 (by decide) (by decide) (by decide) (by decide) (by decide) (by decide) (by decide)),
      (h c _ (Cert.Kernel.Hand.mem_uc Cert.Kernel.main_arg6 (by decide))).trans (Cert.Kernel.Hand.W7_keep m g c Cert.Kernel.main_arg6 (by decide) (by decide) (by decide) (by decide) (by decide) (by decide) (by decide)),
      (h c _ (Cert.Kernel.Hand.mem_uc Cert.Kernel.main_arg7 (by decide))).trans (Cert.Kernel.Hand.W7_keep m g c Cert.Kernel.main_arg7 (by decide) (by decide) (by decide) (by decide) (by decide) (by decide) (by decide)),
      (h c _ (Cert.Kernel.Hand.mem_uc Cert.Kernel.main_arg8 (by decide))).trans (Cert.Kernel.Hand.W7_keep m g c Cert.Kernel.main_arg8 (by decide) (by decide) (by decide) (by decide) (by decide) (by decide) (by decide)),
      (h c _ (Cert.Kernel.Hand.mem_uc Cert.Kernel.main_arg9 (by decide))).trans (Cert.Kernel.Hand.W7_keep m g c Cert.Kernel.main_arg9 (by decide) (by decide) (by decide) (by decide) (by decide) (by decide) (by decide)),
      (h c _ (Cert.Kernel.Hand.mem_uc Cert.Kernel.main_arg10 (by decide))).trans (Cert.Kernel.Hand.W7_keep m g c Cert.Kernel.main_arg10 (by decide) (by decide) (by decide) (by decide) (by decide) (by decide) (by decide)),
      (h c _ (Cert.Kernel.Hand.mem_uc Cert.Kernel.main_arg11 (by decide))).trans (Cert.Kernel.Hand.W7_keep m g c Cert.Kernel.main_arg11 (by decide) (by decide) (by decide) (by decide) (by decide) (by decide) (by decide)),
      (h c _ (Cert.Kernel.Hand.mem_uc Cert.Kernel.main_arg12 (by decide))).trans (Cert.Kernel.Hand.W7_keep m g c Cert.Kernel.main_arg12 (by decide) (by decide) (by decide) (by decide) (by decide) (by decide) (by decide)),
      (h c _ (Cert.Kernel.Hand.mem_uc Cert.Kernel.main_arg13 (by decide))).trans (Cert.Kernel.Hand.W7_keep m g c Cert.Kernel.main_arg13 (by decide) (by decide) (by decide) (by decide) (by decide) (by decide) (by decide))⟩)
    (Cert.Kernel.Hand.run_main (F := Bits) m g)

/-- The same for the idealized program. -/
theorem frame_ki : Cert.frame_KernelIdeal := fun m g _ =>
  (θ_run Cert.KernelIdeal.defs _ _).mono (fun r h c =>
    ⟨(h c _ (Cert.KernelIdeal.Hand.mem_uc Cert.KernelIdeal.main_arg0 (by decide))).trans (Cert.KernelIdeal.Hand.W7_keep m g c Cert.KernelIdeal.main_arg0 (by decide) (by decide) (by decide) (by decide) (by decide) (by decide) (by decide)),
      (h c _ (Cert.KernelIdeal.Hand.mem_uc Cert.KernelIdeal.main_arg1 (by decide))).trans (Cert.KernelIdeal.Hand.W7_keep m g c Cert.KernelIdeal.main_arg1 (by decide) (by decide) (by decide) (by decide) (by decide) (by decide) (by decide)),
      (h c _ (Cert.KernelIdeal.Hand.mem_uc Cert.KernelIdeal.main_arg2 (by decide))).trans (Cert.KernelIdeal.Hand.W7_keep m g c Cert.KernelIdeal.main_arg2 (by decide) (by decide) (by decide) (by decide) (by decide) (by decide) (by decide)),
      (h c _ (Cert.KernelIdeal.Hand.mem_uc Cert.KernelIdeal.main_arg3 (by decide))).trans (Cert.KernelIdeal.Hand.W7_keep m g c Cert.KernelIdeal.main_arg3 (by decide) (by decide) (by decide) (by decide) (by decide) (by decide) (by decide)),
      (h c _ (Cert.KernelIdeal.Hand.mem_uc Cert.KernelIdeal.main_arg4 (by decide))).trans (Cert.KernelIdeal.Hand.W7_keep m g c Cert.KernelIdeal.main_arg4 (by decide) (by decide) (by decide) (by decide) (by decide) (by decide) (by decide)),
      (h c _ (Cert.KernelIdeal.Hand.mem_uc Cert.KernelIdeal.main_arg5 (by decide))).trans (Cert.KernelIdeal.Hand.W7_keep m g c Cert.KernelIdeal.main_arg5 (by decide) (by decide) (by decide) (by decide) (by decide) (by decide) (by decide)),
      (h c _ (Cert.KernelIdeal.Hand.mem_uc Cert.KernelIdeal.main_arg6 (by decide))).trans (Cert.KernelIdeal.Hand.W7_keep m g c Cert.KernelIdeal.main_arg6 (by decide) (by decide) (by decide) (by decide) (by decide) (by decide) (by decide)),
      (h c _ (Cert.KernelIdeal.Hand.mem_uc Cert.KernelIdeal.main_arg7 (by decide))).trans (Cert.KernelIdeal.Hand.W7_keep m g c Cert.KernelIdeal.main_arg7 (by decide) (by decide) (by decide) (by decide) (by decide) (by decide) (by decide)),
      (h c _ (Cert.KernelIdeal.Hand.mem_uc Cert.KernelIdeal.main_arg8 (by decide))).trans (Cert.KernelIdeal.Hand.W7_keep m g c Cert.KernelIdeal.main_arg8 (by decide) (by decide) (by decide) (by decide) (by decide) (by decide) (by decide)),
      (h c _ (Cert.KernelIdeal.Hand.mem_uc Cert.KernelIdeal.main_arg9 (by decide))).trans (Cert.KernelIdeal.Hand.W7_keep m g c Cert.KernelIdeal.main_arg9 (by decide) (by decide) (by decide) (by decide) (by decide) (by decide) (by decide)),
      (h c _ (Cert.KernelIdeal.Hand.mem_uc Cert.KernelIdeal.main_arg10 (by decide))).trans (Cert.KernelIdeal.Hand.W7_keep m g c Cert.KernelIdeal.main_arg10 (by decide) (by decide) (by decide) (by decide) (by decide) (by decide) (by decide)),
      (h c _ (Cert.KernelIdeal.Hand.mem_uc Cert.KernelIdeal.main_arg11 (by decide))).trans (Cert.KernelIdeal.Hand.W7_keep m g c Cert.KernelIdeal.main_arg11 (by decide) (by decide) (by decide) (by decide) (by decide) (by decide) (by decide)),
      (h c _ (Cert.KernelIdeal.Hand.mem_uc Cert.KernelIdeal.main_arg12 (by decide))).trans (Cert.KernelIdeal.Hand.W7_keep m g c Cert.KernelIdeal.main_arg12 (by decide) (by decide) (by decide) (by decide) (by decide) (by decide) (by decide)),
      (h c _ (Cert.KernelIdeal.Hand.mem_uc Cert.KernelIdeal.main_arg13 (by decide))).trans (Cert.KernelIdeal.Hand.W7_keep m g c Cert.KernelIdeal.main_arg13 (by decide) (by decide) (by decide) (by decide) (by decide) (by decide) (by decide))⟩)
    (Cert.KernelIdeal.Hand.run_main (F := Ideal) m g)

/-- The reference is a straight line of host operations none of which writes an argument. -/
theorem frame_r : Cert.frame_ReferenceIdeal := fun m g _ =>
  (θ_run Cert.ReferenceIdeal.defs _ _).mono (fun r h c =>
    ⟨(h c Cert.ReferenceIdeal.main_arg0).trans (Cert.ReferenceIdeal.Hand.keeps _ Cert.ReferenceIdeal.main_arg0 (by decide)),
      (h c Cert.ReferenceIdeal.main_arg1).trans (Cert.ReferenceIdeal.Hand.keeps _ Cert.ReferenceIdeal.main_arg1 (by decide)),
      (h c Cert.ReferenceIdeal.main_arg2).trans (Cert.ReferenceIdeal.Hand.keeps _ Cert.ReferenceIdeal.main_arg2 (by decide)),
      (h c Cert.ReferenceIdeal.main_arg3).trans (Cert.ReferenceIdeal.Hand.keeps _ Cert.ReferenceIdeal.main_arg3 (by decide)),
      (h c Cert.ReferenceIdeal.main_arg4).trans (Cert.ReferenceIdeal.Hand.keeps _ Cert.ReferenceIdeal.main_arg4 (by decide)),
      (h c Cert.ReferenceIdeal.main_arg5).trans (Cert.ReferenceIdeal.Hand.keeps _ Cert.ReferenceIdeal.main_arg5 (by decide)),
      (h c Cert.ReferenceIdeal.main_arg6).trans (Cert.ReferenceIdeal.Hand.keeps _ Cert.ReferenceIdeal.main_arg6 (by decide)),
      (h c Cert.ReferenceIdeal.main_arg7).trans (Cert.ReferenceIdeal.Hand.keeps _ Cert.ReferenceIdeal.main_arg7 (by decide)),
      (h c Cert.ReferenceIdeal.main_arg8).trans (Cert.ReferenceIdeal.Hand.keeps _ Cert.ReferenceIdeal.main_arg8 (by decide)),
      (h c Cert.ReferenceIdeal.main_arg9).trans (Cert.ReferenceIdeal.Hand.keeps _ Cert.ReferenceIdeal.main_arg9 (by decide)),
      (h c Cert.ReferenceIdeal.main_arg10).trans (Cert.ReferenceIdeal.Hand.keeps _ Cert.ReferenceIdeal.main_arg10 (by decide)),
      (h c Cert.ReferenceIdeal.main_arg11).trans (Cert.ReferenceIdeal.Hand.keeps _ Cert.ReferenceIdeal.main_arg11 (by decide)),
      (h c Cert.ReferenceIdeal.main_arg12).trans (Cert.ReferenceIdeal.Hand.keeps _ Cert.ReferenceIdeal.main_arg12 (by decide)),
      (h c Cert.ReferenceIdeal.main_arg13).trans (Cert.ReferenceIdeal.Hand.keeps _ Cert.ReferenceIdeal.main_arg13 (by decide))⟩)
    (Cert.ReferenceIdeal.Hand.run (F := Ideal) m g)

/-- The ideal pass rewrote nothing: the idealization is the program's own text read on the extended reals. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_r, preserves, Cert.Bridge.algebraic⟩

end Cert.Proof

end
